-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x256 .f32) (main_arg1 : IVec S2x640000 32) (main_arg2 : FVec F S256x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S640000x128 : Shape := ⟨2, ![640000, 128]⟩
abbrev S1x128 : Shape := ⟨2, ![1, 128]⟩
abbrev S50000x16 : Shape := ⟨2, ![50000, 16]⟩
abbrev S2000x16 : Shape := ⟨2, ![2000, 16]⟩
abbrev S640000x16 : Shape := ⟨2, ![640000, 16]⟩
abbrev S1x16 : Shape := ⟨2, ![1, 16]⟩

abbrev nBuf : Space → Nat
  | .hbm => 72
  | .vmem => 42
  | .smem => 0
  | _ => 0

abbrev bufTy : (tb : Table) → Fin (tcTables nBuf tb) → BufTy
  | .hbm, ⟨0, _⟩ => ⟨S50000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S50000x128, .f32⟩
  | .hbm, ⟨52, _⟩ => ⟨S640000x1, .i32⟩
  | .hbm, ⟨53, _⟩ => ⟨S50000x128, .f32⟩
  | .hbm, ⟨54, _⟩ => ⟨S1x128, .f32⟩
  | .hbm, ⟨55, _⟩ => ⟨S50000x16, .f32⟩
  | .hbm, ⟨56, _⟩ => ⟨S50000x16, .f32⟩
  | .hbm, ⟨57, _⟩ => ⟨S_, .i32⟩
  | .hbm, ⟨58, _⟩ => ⟨S640000, .i32⟩
  | .hbm, ⟨59, _⟩ => ⟨S640000, .i1⟩
  | .hbm, ⟨60, _⟩ => ⟨S_, .i32⟩
  | .hbm, ⟨61, _⟩ => ⟨S640000, .i32⟩
  | .hbm, ⟨62, _⟩ => ⟨S640000, .i32⟩
  | .hbm, ⟨63, _⟩ => ⟨S640000, .i32⟩
  | .hbm, ⟨64, _⟩ => ⟨S640000x1, .i32⟩
  | .hbm, ⟨65, _⟩ => ⟨S640000x16, .f32⟩
  | .hbm, ⟨66, _⟩ => ⟨S_, .f32⟩
  | .hbm, ⟨67, _⟩ => ⟨S50000x16, .f32⟩
  | .hbm, ⟨68, _⟩ => ⟨S640000x1, .i32⟩
  | .hbm, ⟨69, _⟩ => ⟨S50000x16, .f32⟩
  | .hbm, ⟨70, _⟩ => ⟨S1x16, .f32⟩
  | .hbm, ⟨71, _⟩ => ⟨S50000x16, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S128x16, .f32⟩
  | .local _ .vmem, ⟨29, _⟩ => ⟨S2000x16, .f32⟩
  | .local _ .vmem, ⟨30, _⟩ => ⟨S2000x16, .f32⟩
  | .local _ .vmem, ⟨31, _⟩ => ⟨S2000x16, .f32⟩
  | .local _ .vmem, ⟨32, _⟩ => ⟨S2000x16, .f32⟩
  | .local _ .vmem, ⟨33, _⟩ => ⟨S2000x16, .f32⟩
  | .local _ .vmem, ⟨34, _⟩ => ⟨S2000x16, .f32⟩
  | .local _ .vmem, ⟨35, _⟩ => ⟨S2000x16, .f32⟩
  | .local _ .vmem, ⟨36, _⟩ => ⟨S2000x16, .f32⟩
  | .local _ .vmem, ⟨37, _⟩ => ⟨S2000x1, .f32⟩
  | .local _ .vmem, ⟨38, _⟩ => ⟨S2000x1, .f32⟩
  | .local _ .vmem, ⟨39, _⟩ => ⟨S1x16, .f32⟩
  | .local _ .vmem, ⟨40, _⟩ => ⟨S2000x16, .f32⟩
  | .local _ .vmem, ⟨41, _⟩ => ⟨S2000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem4_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  broadcasts_S2000x1_S2000x16 : S2000x1.Broadcasts S2000x16
  bcast_S_S50000x16 : S_.BroadcastsInDim S50000x16 (![] : Fin 0 → Fin S50000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S50000_S640000x1_S640000_n_0_0_1_wf : ScatterDims.WF S50000 S640000x1 S640000 [] [0] [0] 1
  dot_S2000x256_S256x128_S2000x128_1_0_0_1_n_n_wf : DotDims.WF S2000x256 S256x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  gather_S50000x16_S640000x1_S640000x16_1_0_n_n_0_1_116_wf : GatherDims.WF S50000x16 S640000x1 S640000x16 [1] [0] [] [0] [] 1 ![1, 16]
  scatter_S50000x16_S640000x1_S640000x16_1_0_0_1_wf : ScatterDims.WF S50000x16 S640000x1 S640000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x16.size a ≤ S128x16.size a
  hwx2_4 : ∀ i : grid2.Coords, EltTy.bits .f32 = 32 ∨ (Rect.block (s := S128x16) S128x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x16.size a ≤ S50000x16.size a
  hwx2_5 : ∀ i : grid2.Coords, EltTy.bits .f32 = 32 ∨ (Rect.block (s := S50000x16) S2000x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x16.size a ≤ S50000x16.size a
  hwx2_6 : ∀ i : grid2.Coords, EltTy.bits .f32 = 32 ∨ (Rect.block (s := S50000x16) S2000x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S50000x16.size a
  hwx3_0 : ∀ i : grid3.Coords, EltTy.bits .f32 = 32 ∨ (Rect.block (s := S50000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x16.size a ≤ S50000x16.size a
  hwx3_1 : ∀ i : grid3.Coords, EltTy.bits .f32 = 32 ∨ (Rect.block (s := S50000x16) S2000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x16.size a ≤ S50000x16.size a
  hwx3_4 : ∀ i : grid3.Coords, EltTy.bits .f32 = 32 ∨ (Rect.block (s := S50000x16) S2000x16.size (cc3_transform_4 i) (hinb3_4 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S50000x16_S640000x1_S640000x16_1_0_n_n_0_1_116 : GatherDims S50000x16 S640000x1 S640000x16 where
  offsetDims := [1]
  collapsedSliceDims := [0]
  operandBatchingDims := []
  startIndicesBatchingDims := []
  startIndexMap := [0]
  indexVectorDim := 1
  sliceSizes := ![1, 16]
  wf := gather_S50000x16_S640000x1_S640000x16_1_0_n_n_0_1_116_wf
def scatter_S50000x16_S640000x1_S640000x16_1_0_0_1 : ScatterDims S50000x16 S640000x1 S640000x16 where
  updateWindowDims := [1]
  insertedWindowDims := [0]
  scatterDimsToOperandDims := [0]
  indexVectorDim := 1
  wf := scatter_S50000x16_S640000x1_S640000x16_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36_0) S2000x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36_1) S2000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v46) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36_0) S2000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S2000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S690000x128 : Shape := ⟨2, ![690000, 128]⟩
abbrev S1x128 : Shape := ⟨2, ![1, 128]⟩
abbrev S50000x16 : Shape := ⟨2, ![50000, 16]⟩
abbrev S690000x16 : Shape := ⟨2, ![690000, 16]⟩
abbrev S1x16 : Shape := ⟨2, ![1, 16]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S50000, .i32⟩
  | .hbm, ⟨9, _⟩ => ⟨S1x640000, .i32⟩
  | .hbm, ⟨10, _⟩ => ⟨S640000, .i32⟩
  | .hbm, ⟨11, _⟩ => ⟨S690000, .i32⟩
  | .hbm, ⟨12, _⟩ => ⟨S1x640000, .i32⟩
  | .hbm, ⟨13, _⟩ => ⟨S640000, .i32⟩
  | .hbm, ⟨14, _⟩ => ⟨S690000, .i32⟩
  | .hbm, ⟨15, _⟩ => ⟨S_, .f32⟩
  | .hbm, ⟨16, _⟩ => ⟨S690000, .f32⟩
  | .hbm, ⟨17, _⟩ => ⟨S_, .f32⟩
  | .hbm, ⟨18, _⟩ => ⟨S50000, .f32⟩
  | .hbm, ⟨19, _⟩ => ⟨S690000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S690000, .i32⟩
  | .hbm, ⟨34, _⟩ => ⟨S690000, .i1⟩
  | .hbm, ⟨35, _⟩ => ⟨S_, .i32⟩
  | .hbm, ⟨36, _⟩ => ⟨S690000, .i32⟩
  | .hbm, ⟨37, _⟩ => ⟨S690000, .i32⟩
  | .hbm, ⟨38, _⟩ => ⟨S690000, .i32⟩
  | .hbm, ⟨39, _⟩ => ⟨S690000x1, .i32⟩
  | .hbm, ⟨40, _⟩ => ⟨S690000, .f32⟩
  | .hbm, ⟨41, _⟩ => ⟨S_, .i32⟩
  | .hbm, ⟨42, _⟩ => ⟨S690000, .i32⟩
  | .hbm, ⟨43, _⟩ => ⟨S690000, .i1⟩
  | .hbm, ⟨44, _⟩ => ⟨S_, .i32⟩
  | .hbm, ⟨45, _⟩ => ⟨S690000, .i32⟩
  | .hbm, ⟨46, _⟩ => ⟨S690000, .i32⟩
  | .hbm, ⟨47, _⟩ => ⟨S690000, .i32⟩
  | .hbm, ⟨48, _⟩ => ⟨S690000x1, .i32⟩
  | .hbm, ⟨49, _⟩ => ⟨S690000, .f32⟩
  | .hbm, ⟨50, _⟩ => ⟨S690000, .f32⟩
  | .hbm, ⟨51, _⟩ => ⟨S50000x128, .f32⟩
  | .hbm, ⟨52, _⟩ => ⟨S_, .i32⟩
  | .hbm, ⟨53, _⟩ => ⟨S690000, .i32⟩
  | .hbm, ⟨54, _⟩ => ⟨S690000, .i1⟩
  | .hbm, ⟨55, _⟩ => ⟨S_, .i32⟩
  | .hbm, ⟨56, _⟩ => ⟨S690000, .i32⟩
  | .hbm, ⟨57, _⟩ => ⟨S690000, .i32⟩
  | .hbm, ⟨58, _⟩ => ⟨S690000, .i32⟩
  | .hbm, ⟨59, _⟩ => ⟨S690000x1, .i32⟩
  | .hbm, ⟨60, _⟩ => ⟨S690000x128, .f32⟩
  | .hbm, ⟨61, _⟩ => ⟨S690000x1, .f32⟩
  | .hbm, ⟨62, _⟩ => ⟨S690000x128, .f32⟩
  | .hbm, ⟨63, _⟩ => ⟨S690000x128, .f32⟩
  | .hbm, ⟨64, _⟩ => ⟨S_, .f32⟩
  | .hbm, ⟨65, _⟩ => ⟨S50000x128, .f32⟩
  | .hbm, ⟨66, _⟩ => ⟨S690000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S690000, .i32⟩
  | .hbm, ⟨77, _⟩ => ⟨S690000, .i1⟩
  | .hbm, ⟨78, _⟩ => ⟨S_, .i32⟩
  | .hbm, ⟨79, _⟩ => ⟨S690000, .i32⟩
  | .hbm, ⟨80, _⟩ => ⟨S690000, .i32⟩
  | .hbm, ⟨81, _⟩ => ⟨S690000, .i32⟩
  | .hbm, ⟨82, _⟩ => ⟨S690000x1, .i32⟩
  | .hbm, ⟨83, _⟩ => ⟨S690000x128, .f32⟩
  | .hbm, ⟨84, _⟩ => ⟨S690000x1, .f32⟩
  | .hbm, ⟨85, _⟩ => ⟨S690000x128, .f32⟩
  | .hbm, ⟨86, _⟩ => ⟨S690000x128, .f32⟩
  | .hbm, ⟨87, _⟩ => ⟨S_, .f32⟩
  | .hbm, ⟨88, _⟩ => ⟨S50000x128, .f32⟩
  | .hbm, ⟨89, _⟩ => ⟨S690000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x16, .f32⟩
  | .hbm, ⟨98, _⟩ => ⟨S_, .i32⟩
  | .hbm, ⟨99, _⟩ => ⟨S690000, .i32⟩
  | .hbm, ⟨100, _⟩ => ⟨S690000, .i1⟩
  | .hbm, ⟨101, _⟩ => ⟨S_, .i32⟩
  | .hbm, ⟨102, _⟩ => ⟨S690000, .i32⟩
  | .hbm, ⟨103, _⟩ => ⟨S690000, .i32⟩
  | .hbm, ⟨104, _⟩ => ⟨S690000, .i32⟩
  | .hbm, ⟨105, _⟩ => ⟨S690000x1, .i32⟩
  | .hbm, ⟨106, _⟩ => ⟨S690000x16, .f32⟩
  | .hbm, ⟨107, _⟩ => ⟨S690000x1, .f32⟩
  | .hbm, ⟨108, _⟩ => ⟨S690000x16, .f32⟩
  | .hbm, ⟨109, _⟩ => ⟨S690000x16, .f32⟩
  | .hbm, ⟨110, _⟩ => ⟨S_, .f32⟩
  | .hbm, ⟨111, _⟩ => ⟨S50000x16, .f32⟩
  | .hbm, ⟨112, _⟩ => ⟨S690000x1, .i32⟩
  | .hbm, ⟨113, _⟩ => ⟨S50000x16, .f32⟩
  | .hbm, ⟨114, _⟩ => ⟨S1x16, .f32⟩
  | .hbm, ⟨115, _⟩ => ⟨S50000x16, .f32⟩
  | .hbm, ⟨116, _⟩ => ⟨S50000x16, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S690000x1_S690000x16_0_1 : S690000x1.BroadcastsInDim S690000x16 (![0, 1] : Fin 2 → Fin S690000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x256_S256x128_S50000x128_1_0_0_1_n_n_wf : DotDims.WF S50000x256 S256x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []
  gather_S50000x16_S690000x1_S690000x16_1_0_n_n_0_1_116_wf : GatherDims.WF S50000x16 S690000x1 S690000x16 [1] [0] [] [0] [] 1 ![1, 16]
  scatter_S50000x16_S690000x1_S690000x16_1_0_0_1_wf : ScatterDims.WF S50000x16 S690000x1 S690000x16 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S690000x1_S690000x16_1_0_n_n_0_1_116 : GatherDims S50000x16 S690000x1 S690000x16 where
  offsetDims := [1]
  collapsedSliceDims := [0]
  operandBatchingDims := []
  startIndicesBatchingDims := []
  startIndexMap := [0]
  indexVectorDim := 1
  sliceSizes := ![1, 16]
  wf := gather_S50000x16_S690000x1_S690000x16_1_0_n_n_0_1_116_wf
def scatter_S50000x16_S690000x1_S690000x16_1_0_0_1 : ScatterDims S50000x16 S690000x1 S690000x16 where
  updateWindowDims := [1]
  insertedWindowDims := [0]
  scatterDimsToOperandDims := [0]
  indexVectorDim := 1
  wf := scatter_S50000x16_S690000x1_S690000x16_1_0_0_1_wf

class Facts : Prop extends Facts₀ where

variable [Facts]
-- ==== Proof.KRun.lean ====
/-
  The idealized kernel's run with its result named.

  @main is eight segments: four stretches of host operations and four pipelined kernel regions. The frame proof follows
  the contents of every unscoped buffer through them as a fold W0, W1, …, W8 from the launch memory, and ends with every
  such buffer of the final state at W8. The frame claim keeps of that only the argument arrays; here the result buffer
  is kept too: it ends at W8's contents, whatever they are (the value modules say what they are).
-/
import proofs.«158845_j26817775797032_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_W8 : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KValue

end
-- ==== Proof.Keep.lean ====
/-
  Which buffers each segment of the idealized kernel's @main leaves alone.

  A stretch of host operations changes exactly the buffers its operations write; a kernel region changes exactly its
  output arrays (its input arrays are fetched and end as entered; every other buffer is not among its windows). So the
  edge lists, the node factors and the arguments, once computed, are found unchanged at every later boundary.
-/
import proofs.«158845_j26817775797032_2_alg».proof.Proof.Gen.KernelIdeal.Frame
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the operations of host stretch 0 write. -/
abbrev hostOps0_W : List (Ref sig .tc) := [main_v0, main_v1, main_v2, main_v3, main_cst, main_v4, main_cst_0, main_v5, main_v6, main_v7, main_cst_1, main_v8, main_v9, main_v10, main_v11]
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- The buffers the operations of host stretch 1 write. -/
abbrev hostOps1_W : List (Ref sig .tc) := [main_c, main_v13, main_v14, main_c_2, main_v15, main_v16, main_v17, main_v18, main_v19, main_cst_3, main_v20, main_v21, main_v22, main_v23]
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- The buffers the operations of host stretch 2 write. -/
abbrev hostOps2_W : List (Ref sig .tc) := [main_c_4, main_v25, main_v26, main_c_5, main_v27, main_v28, main_v29, main_v30, main_v31, main_cst_6, main_v32, main_v33, main_v34, main_v35]
theorem hostOps2_writes : (hostOps2 : List (HloOp τ sig (Elt F))).Forall fun op => op.writes ⊆ (hostOps2_W.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- The buffers the operations of host stretch 3 write. -/
abbrev hostOps3_W : List (Ref sig .tc) := [main_c_7, main_v37, main_v38, main_c_8, main_v39, main_v40, main_v41, main_v42, main_v43, main_cst_9, main_v44, main_v45, main_v46, main_v47]
theorem hostOps3_writes : (hostOps3 : List (HloOp τ sig (Elt F))).Forall fun op => op.writes ⊆ (hostOps3_W.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer host stretch 0 does not write is as launched. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

/-- Region 0 changes only its two output arrays: an input array ends as entered, any other buffer is untouched. -/
theorem W2_keep (c : Dev nD) (r : Ref sig .tc) (h : r ∉ ([main_v12_0, main_v12_1] : List (Ref sig .tc))) :
    W2 m ρ c (Proc.devRef .tc r) = W1 m ρ c (Proc.devRef .tc r) := by
  by_cases hw : ∃ w, Pipeline.arrRef spec0 w = r
  · obtain ⟨w, rfl⟩ := hw
    have hin : ∀ w : Fin 5, Pipeline.arrRef spec0 w ∉ ([main_v12_0, main_v12_1] : List (Ref sig .tc)) → w = 0 ∨ w = 1 ∨ w = 2 := by decide
    rcases hin w h with rfl | rfl | rfl
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
  · exact W2_of_ne m ρ c r fun w e => hw ⟨w, e⟩

/-- Region 1 changes only its two output arrays: an input array ends as entered, any other buffer is untouched. -/
theorem W4_keep (c : Dev nD) (r : Ref sig .tc) (h : r ∉ ([main_v24_0, main_v24_1] : List (Ref sig .tc))) :
    W4 m ρ c (Proc.devRef .tc r) = W3 m ρ c (Proc.devRef .tc r) := by
  by_cases hw : ∃ w, Pipeline.arrRef spec1 w = r
  · obtain ⟨w, rfl⟩ := hw
    have hin : ∀ w : Fin 7, Pipeline.arrRef spec1 w ∉ ([main_v24_0, main_v24_1] : List (Ref sig .tc)) → w = 0 ∨ w = 1 ∨ w = 2 ∨ w = 3 ∨ w = 4 := by decide
    rcases hin w h with rfl | rfl | rfl | rfl | rfl
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact (W4_arr m ρ c 4).trans (((dat1 (V3 m ρ) c).arrAt_in 4 rfl _).trans (A_eq1 (V3 m ρ) c 4))
  · exact W4_of_ne m ρ c r fun w e => hw ⟨w, e⟩

/-- Region 2 changes only its two output arrays: an input array ends as entered, any other buffer is untouched. -/
theorem W6_keep (c : Dev nD) (r : Ref sig .tc) (h : r ∉ ([main_v36_0, main_v36_1] : List (Ref sig .tc))) :
    W6 m ρ c (Proc.devRef .tc r) = W5 m ρ c (Proc.devRef .tc r) := by
  by_cases hw : ∃ w, Pipeline.arrRef spec2 w = r
  · obtain ⟨w, rfl⟩ := hw
    have hin : ∀ w : Fin 7, Pipeline.arrRef spec2 w ∉ ([main_v36_0, main_v36_1] : List (Ref sig .tc)) → w = 0 ∨ w = 1 ∨ w = 2 ∨ w = 3 ∨ w = 4 := by decide
    rcases hin w h with rfl | rfl | rfl | rfl | rfl
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
  · exact W6_of_ne m ρ c r fun w e => hw ⟨w, e⟩

end Cert.KernelIdeal.KValue

end
-- ==== Proof.Spec.lean ====
/-
  The three-layer graph convolution as index-by-index functions on the extended reals, in the two arrangements the
  two programs compute it in.

  Nodes are Fin 50000, edges Fin 640000. An edge's destination word lands on node v when, read as a signed
  integer, it IS v (a scatter drops every other word); an edge's source word names the row it is read from after a
  negative word is shifted up by 50000 and the result clamped into [0, 49999] (a gather clamps). The degree of v
  counts the edges landing on it, plus one for the self loop; dis v is its inverse square root.

  FACTORED arrangement (net): a layer is  dis v * (sum over landing edges of (h * dis) at the source row)
  + dis v ^ 2 * h v + b,  the self loop pulled out of the edge sum.
  EDGE arrangement (netR): the edge list is extended by one self loop per node (690000 entries), each entry weighted by
  dis (source row) * dis (destination row), and a layer is the sum over landing entries plus b.
-/
import Idealize.ShloMosaic.PureOps.Ideal
import Idealize.ShloMosaic.Lib.ValueIdx

noncomputable section

open scoped BigOperators

namespace Cert.Gcn

open Idealize.ShloMosaic Idealize.ShloMosaic.ValueIdx

/-- A matrix by its two coordinates. -/
abbrev Mat (n c : Nat) := Fin n → Fin c → EReal

/-- A rank-2 array as a matrix. -/
def mat {n c : Nat} (A : (⟨2, ![n, c]⟩ : Shape).Idx → EReal) : Mat n c := fun v k => A (ix2 v k)
/-- A rank-1 array as a vector. -/
def vec {c : Nat} (b : (⟨1, ![c]⟩ : Shape).Idx → EReal) : Fin c → EReal := fun k => b (ix1 k)
/-- A one-column array as a vector. -/
def col {n : Nat} (D : (⟨2, ![n, 1]⟩ : Shape).Idx → EReal) : Fin n → EReal := fun v => D (ix2 v (0 : Fin 1))
/-- A one-row array as a vector. -/
def rowv {c : Nat} (B : (⟨2, ![1, c]⟩ : Shape).Idx → EReal) : Fin c → EReal := fun k => B (ix2 (0 : Fin 1) k)

/-- The f32 word for 0, as the programs spell it. -/
def zero32 : EReal := Ideal.ofBits .f32 0x00000000#32
/-- The f32 word for 1, as the programs spell it. -/
def one32 : EReal := Ideal.ofBits .f32 0x3F800000#32

/-- The edge list: row 0 the source words, row 1 the destination words. -/
abbrev EI := (⟨2, ![2, 640000]⟩ : Shape).Idx → BitVec 32

/-- Edge e's source word. -/
def srcW (ei : EI) (e : Fin 640000) : BitVec 32 := ei (ix2 (0 : Fin 2) e)
/-- Edge e's destination word. -/
def dstW (ei : EI) (e : Fin 640000) : BitVec 32 := ei (ix2 (1 : Fin 2) e)

/-- A negative word shifted up by the node count (32-bit wrapping), any other word kept. -/
def nrm (w : BitVec 32) : BitVec 32 := Scalar.select (IntOp.cmpi .slt w 0#32) (IntOp.addi w 50000#32) w

/-- The row a gather reads for the word w: the shifted word read signed, clamped into [0, 49999]. -/
def row (w : BitVec 32) : Fin 50000 := ⟨min (nrm w).toInt.toNat 49999, by omega⟩

/-- The word w lands on node v: read signed and unclamped, it is v. -/
def lands (w : BitVec 32) (v : Fin 50000) : Prop := w.toInt = (v.val : Int)

instance (w : BitVec 32) (v : Fin 50000) : Decidable (lands w v) := by unfold lands; infer_instance

/-! ## Pieces shared by both arrangements -/

/-- A matrix product into the zero word. -/
def mm {K C : Nat} (X : Mat 50000 K) (W : Mat K C) : Mat 50000 C := fun v c => zero32 + ∑ k, X v k * W k c
/-- The same with no accumulator. -/
def mmR {K C : Nat} (X : Mat 50000 K) (W : Mat K C) : Mat 50000 C := fun v c => ∑ k, X v k * W k c
/-- The positive part. -/
def relu {C : Nat} (A : Mat 50000 C) : Mat 50000 C := fun v c => max (A v c) zero32
/-- Every row scaled by its node's factor. -/
def scale {C : Nat} (H : Mat 50000 C) (D : Fin 50000 → EReal) : Mat 50000 C := fun v c => H v c * D v
/-- What a layer's epilogue computes from the edge aggregate A, the transformed features Hp, the node factors D
    and the bias. -/
def combA {C : Nat} (A Hp : Mat 50000 C) (D : Fin 50000 → EReal) (b : Fin C → EReal) : Mat 50000 C :=
  fun v c => D v * A v c + (D v * D v) * Hp v c + b c

/-! ## The factored arrangement -/

/-- How many edges land on v (a sum of ones). -/
def cnt (ei : EI) (v : Fin 50000) : EReal := ∑ e ∈ Finset.univ.filter (fun e : Fin 640000 => lands (dstW ei e) v), one32
/-- The node factor: the inverse square root of the edge count plus the self loop. -/
def dis (ei : EI) (v : Fin 50000) : EReal := Ideal.rsqrt ((zero32 + cnt ei v) + one32)
/-- The sum over the edges landing on v of the scaled features' source rows. -/
def aggE (ei : EI) {C : Nat} (Hs : Mat 50000 C) : Mat 50000 C :=
  fun v c => zero32 + ∑ e ∈ Finset.univ.filter (fun e : Fin 640000 => lands (dstW ei e) v), Hs (row (srcW ei e)) c
/-- One layer's epilogue over the transformed features H. -/
def comb (ei : EI) {C : Nat} (H : Mat 50000 C) (b : Fin C → EReal) : Mat 50000 C :=
  combA (aggE ei (scale H (dis ei))) H (dis ei) b
/-- The network, factored. -/
def net (ei : EI) (X : Mat 50000 256) (W1 : Mat 256 128) (b1 : Fin 128 → EReal) (W2 : Mat 128 128) (b2 : Fin 128 → EReal)
    (W3 : Mat 128 16) (b3 : Fin 16 → EReal) : Mat 50000 16 :=
  comb ei (mm (relu (comb ei (mm (relu (comb ei (mm X W1) b1)) W2) b2)) W3) b3

/-! ## The edge arrangement -/

/-- The extended source list: the 640000 edge words, then one self loop per node. -/
def srcC (ei : EI) (j : Fin 690000) : BitVec 32 :=
  if h : j.val < 640000 then srcW ei ⟨j.val, h⟩ else BitVec.ofNat 32 (j.val - 640000)
/-- The extended destination list. -/
def dstC (ei : EI) (j : Fin 690000) : BitVec 32 :=
  if h : j.val < 640000 then dstW ei ⟨j.val, h⟩ else BitVec.ofNat 32 (j.val - 640000)

/-- How many entries of the extended list land on v. -/
def cntR (ei : EI) (v : Fin 50000) : EReal := ∑ j ∈ Finset.univ.filter (fun j : Fin 690000 => lands (dstC ei j) v), one32
/-- The node factor as the reference guards it: zero where the degree is not positive. -/
def disR (ei : EI) (v : Fin 50000) : EReal :=
  Scalar.select (Ideal.cmp .ogt (zero32 + cntR ei v) zero32) (Ideal.rsqrt (max (zero32 + cntR ei v) one32)) zero32
/-- One layer over the transformed features H: the weighted sum over landing entries, plus the bias. -/
def convR (ei : EI) {C : Nat} (H : Mat 50000 C) (b : Fin C → EReal) : Mat 50000 C :=
  fun v c => (zero32 + ∑ j ∈ Finset.univ.filter (fun j : Fin 690000 => lands (dstC ei j) v),
    H (row (srcC ei j)) c * (disR ei (row (srcC ei j)) * disR ei (row (dstC ei j)))) + b c
/-- The network, edge by edge. -/
def netR (ei : EI) (X : Mat 50000 256) (W1 : Mat 256 128) (b1 : Fin 128 → EReal) (W2 : Mat 128 128) (b2 : Fin 128 → EReal)
    (W3 : Mat 128 16) (b3 : Fin 16 → EReal) : Mat 50000 16 :=
  convR ei (mmR (relu (convR ei (mmR (relu (convR ei (mmR X W1) b1)) W2) b2)) W3) b3

end Cert.Gcn

end
-- ==== Proof.LibGatherScatter.lean ====
/-
  Two index-driven array operations read at one element, for a column of indices.

  A gather of whole rows of an `N × C` array (or of single elements of an `N`-vector) at an `E × 1` column of start
  indices reads the operand at the start index, taken as a signed integer and clamped into `[0, N − 1]`.
  A float scatter-add of `E` rows (or single elements) at an `E × 1` column of scatter indices is, at output row `v`,
  the operand plus the sum over the update rows `e` whose index, taken as a signed integer and NOT clamped, is exactly `v`;
  an update whose index lies outside `[0, N − 1]` contributes nothing. The sums are in the extended reals, an additive
  commutative monoid: no finiteness is assumed.

  Every lemma is generic in the extents and the index width; the dimension numbers are given by equations on the
  record's fields, so a lemma applies to any record with those fields.
-/
import Idealize.ShloMosaic.PureOps.Ideal
import Idealize.ShloMosaic.Lib.ValueIdx

open Idealize.ShloMosaic Idealize.ShloMosaic.ValueIdx
open scoped BigOperators

namespace Cert.GatherScatter

/-! ## Gather of whole rows, and of single elements, at a column of start indices -/

section Gather
variable {α : Type}

/-- The dimension numbers of a gather of whole rows of an `N × C` operand at an `E × 1` column of start indices. -/
private abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

private theorem gather_rows_lit {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the collapsed axis: the clamped start index, no batching and no offset coordinate
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the kept axis: start 0, no batching coordinate, the offset coordinate is the column
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show (1 : Fin 2) ∉ ([0] : List (Fin 2)) by decide)]
    have ho : (rowsDims N E C wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hs, ho]; omega

/-- A gather of whole rows of an `N × C` operand at an `E × 1` column of start indices, read at `(e, c)`: the
    operand's row at the start index `idx[e, 0]`, read signed and clamped into `[0, N − 1]`, at column `c`. -/
theorem gather_rows_apply {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) :
    Host.gather d x idx (ix2 e c) = x (ix2 (⟨min (idx (ix2 e (0 : Fin 1))).toInt.toNat (N - 1), by omega⟩ : Fin N) c) := by
  obtain ⟨od, cd, ob, sb, sm, iv, ss, wf⟩ := d
  simp only at hod hcd hob hsb hsm hiv hss
  subst hod hcd hob hsb hsm hiv hss
  exact gather_rows_lit hN wf x idx e c

/-- The dimension numbers of a gather of single elements of an `N`-vector at an `E × 1` column of start indices. -/
private abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

private theorem gather_vec_lit {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A gather of single elements of an `N`-vector at an `E × 1` column of start indices, read at `e`: the operand
    at the start index `idx[e, 0]`, read signed and clamped into `[0, N − 1]`. -/
theorem gather_vec_apply {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (⟨min (idx (ix2 e (0 : Fin 1))).toInt.toNat (N - 1), by omega⟩ : Fin N)) := by
  obtain ⟨od, cd, ob, sb, sm, iv, ss, wf⟩ := d
  simp only at hod hcd hob hsb hsm hiv hss
  subst hod hcd hob hsb hsm hiv hss
  exact gather_vec_lit hN wf x idx e

end Gather

/-! ## The float scatter-add of rows, and of single elements, at a column of scatter indices -/

section Scatter

/-- A sum over a rank-1 index set is the sum over its one coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- The dimension numbers of a scatter of `E` rows of length `C` into an `N × C` operand at an `E × 1` column of
    scatter indices. -/
private abbrev sRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window starts at the scatter index, read signed. -/
private theorem sRows_start0 :
    (sRowsDims N E C wf).start (ix2 e c) idx 0 = (idx (ix2 e (0 : Fin 1))).toInt := by
  unfold ScatterDims.start
  rw [dif_pos (show (0 : Fin 2) ∈ (sRowsDims N E C wf).scatterDimsToOperandDims from List.mem_singleton.mpr rfl)]
  have hsi : (sRowsDims N E C wf).siIdx (ix2 e c) ⟨List.idxOf (0 : Fin 2) (sRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
private theorem sRows_start1 : (sRowsDims N E C wf).start (ix2 e c) idx 1 = 0 := by
  unfold ScatterDims.start
  rw [dif_neg (show (1 : Fin 2) ∉ ([0] : List (Fin 2)) by decide)]

/-- The row axis is inserted: its window coordinate is `0`. -/
private theorem sRows_window0 : (sRowsDims N E C wf).window (ix2 e c) 0 = 0 := by
  unfold ScatterDims.window
  have hk : (0 : Fin 2) ∉ (sRowsDims N E C wf).sKept :=
    (by decide : (0 : Fin 2) ∉ (List.finRange 2).filter (· ∉ ([0] : List (Fin 2))))
  rw [dif_neg hk]

/-- The column axis's window coordinate is the update's column. -/
private theorem sRows_window1 : (sRowsDims N E C wf).window (ix2 e c) 1 = c.val := by
  unfold ScatterDims.window
  have hk : (1 : Fin 2) ∈ (sRowsDims N E C wf).sKept :=
    (by decide : (1 : Fin 2) ∈ (List.finRange 2).filter (· ∉ ([0] : List (Fin 2))))
  rw [dif_pos hk]
  rfl

/-- Update element `(e, c)` lands on operand element `(v, c')` exactly when its scatter index, read signed, is `v`
    and the columns agree. -/
private theorem sRows_resultIdx_iff (v : Fin N) (c' : Fin C) :
    (sRowsDims N E C wf).resultIdx? (ix2 e c) idx = some (ix2 v c')
      ↔ (idx (ix2 e (0 : Fin 1))).toInt = (v.val : Int) ∧ c = c' := by
  have h0 := sRows_start0 wf idx e c
  have h1 := sRows_start1 wf idx e c
  have w0 := sRows_window0 wf e c
  have w1 := sRows_window1 wf e c
  unfold ScatterDims.resultIdx?
  split
  · rename_i h
    rw [Option.some.injEq]
    constructor
    · intro heq
      have e0 := congrArg Fin.val (congrFun heq 0)
      have e1 := congrArg Fin.val (congrFun heq 1)
      have b0 := (h 0).1
      change (((sRowsDims N E C wf).start (ix2 e c) idx 0 + ((sRowsDims N E C wf).window (ix2 e c) 0 : Nat)).toNat) = v.val at e0
      change (((sRowsDims N E C wf).start (ix2 e c) idx 1 + ((sRowsDims N E C wf).window (ix2 e c) 1 : Nat)).toNat) = c'.val at e1
      rw [h0, w0] at e0 b0
      rw [h1, w1] at e1
      refine ⟨by omega, Fin.ext (by omega)⟩
    · rintro ⟨hv, rfl⟩
      funext a
      refine Fin.ext ?_
      match a with
      | ⟨0, _⟩ =>
        show (((sRowsDims N E C wf).start (ix2 e c) idx 0 + ((sRowsDims N E C wf).window (ix2 e c) 0 : Nat)).toNat) = v.val
        rw [h0, w0]; omega
      | ⟨1, _⟩ =>
        show (((sRowsDims N E C wf).start (ix2 e c) idx 1 + ((sRowsDims N E C wf).window (ix2 e c) 1 : Nat)).toNat) = c.val
        rw [h1, w1]; omega
  · rename_i h
    constructor
    · intro heq; exact absurd heq (by simp)
    · rintro ⟨hv, rfl⟩
      refine absurd (fun a => ?_) h
      match a with
      | ⟨0, _⟩ =>
        show 0 ≤ (sRowsDims N E C wf).start (ix2 e c) idx 0 + ((sRowsDims N E C wf).window (ix2 e c) 0 : Nat)
          ∧ (sRowsDims N E C wf).start (ix2 e c) idx 0 + ((sRowsDims N E C wf).window (ix2 e c) 0 : Nat) < (N : Int)
        rw [h0, w0]; have := v.isLt; omega
      | ⟨1, _⟩ =>
        show 0 ≤ (sRowsDims N E C wf).start (ix2 e c) idx 1 + ((sRowsDims N E C wf).window (ix2 e c) 1 : Nat)
          ∧ (sRowsDims N E C wf).start (ix2 e c) idx 1 + ((sRowsDims N E C wf).window (ix2 e c) 1 : Nat) < (C : Int)
        rw [h1, w1]; have := c.isLt; omega

end Rows

private theorem scatterAdd_rows_lit {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (sRowsDims N E C wf) x idx upd (ix2 v c)
      = x (ix2 v c) + ∑ e ∈ Finset.univ.filter (fun e : Fin E => (idx (ix2 e (0 : Fin 1))).toInt = (v.val : Int)), upd (ix2 e c) := by
  unfold Ideal.hostScatterAdd
  congr 1
  rw [Finset.sum_filter, Finset.sum_filter, sum_idx2]
  refine Finset.sum_congr rfl (fun e _ => ?_)
  simp only [sRows_resultIdx_iff wf idx e _ v c]
  by_cases hv : (idx (ix2 e (0 : Fin 1))).toInt = (v.val : Int)
  · simp only [hv, true_and, if_true]
    exact Finset.sum_ite_eq' Finset.univ c (fun c' => upd (ix2 e c')) |>.trans (if_pos (Finset.mem_univ c))
  · simp only [hv, false_and, if_false]
    exact Finset.sum_const_zero

/-- The host's float scatter-add of `E` rows into an `N × C` operand at an `E × 1` column of scatter indices, read
    at `(v, c)`: the operand plus the sum, over the update rows `e` whose index word `idx[e, 0]`, read signed and not
    clamped, is exactly `v`, of the update's element `(e, c)`. -/
theorem scatterAdd_rows_apply {N E C w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal) (v : Fin N) (c : Fin C) :
    Ideal.hostScatterAdd d x idx upd (ix2 v c)
      = x (ix2 v c) + ∑ e ∈ Finset.univ.filter (fun e : Fin E => (idx (ix2 e (0 : Fin 1))).toInt = (v.val : Int)), upd (ix2 e c) := by
  obtain ⟨uw, iw, sd, iv, wf⟩ := d
  simp only at huw hiw hsd hiv
  subst huw hiw hsd hiv
  exact scatterAdd_rows_lit wf x idx upd v c

/-- The dimension numbers of a scatter of `E` single elements into an `N`-vector at an `E × 1` column of scatter
    indices. -/
private abbrev sVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window starts at the scatter index, read signed. -/
private theorem sVec_start0 :
    (sVecDims N E wf).start (ix1 e) idx 0 = (idx (ix2 e (0 : Fin 1))).toInt := by
  unfold ScatterDims.start
  rw [dif_pos (show (0 : Fin 1) ∈ (sVecDims N E wf).scatterDimsToOperandDims from List.mem_singleton.mpr rfl)]
  have hsi : (sVecDims N E wf).siIdx (ix1 e) ⟨List.idxOf (0 : Fin 1) (sVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- That axis is inserted: its window coordinate is `0`. -/
private theorem sVec_window0 : (sVecDims N E wf).window (ix1 e) 0 = 0 := by
  unfold ScatterDims.window
  have hk : (0 : Fin 1) ∉ (sVecDims N E wf).sKept :=
    (by decide : (0 : Fin 1) ∉ (List.finRange 1).filter (· ∉ ([0] : List (Fin 1))))
  rw [dif_neg hk]

/-- Update element `e` lands on operand element `v` exactly when its scatter index, read signed, is `v`. -/
private theorem sVec_resultIdx_iff (v : Fin N) :
    (sVecDims N E wf).resultIdx? (ix1 e) idx = some (ix1 v) ↔ (idx (ix2 e (0 : Fin 1))).toInt = (v.val : Int) := by
  have h0 := sVec_start0 wf idx e
  have w0 := sVec_window0 wf e
  unfold ScatterDims.resultIdx?
  split
  · rename_i h
    rw [Option.some.injEq]
    constructor
    · intro heq
      have e0 := congrArg Fin.val (congrFun heq 0)
      have b0 := (h 0).1
      change (((sVecDims N E wf).start (ix1 e) idx 0 + ((sVecDims N E wf).window (ix1 e) 0 : Nat)).toNat) = v.val at e0
      rw [h0, w0] at e0 b0
      omega
    · intro hv
      funext a
      refine Fin.ext ?_
      match a with
      | ⟨0, _⟩ =>
        show (((sVecDims N E wf).start (ix1 e) idx 0 + ((sVecDims N E wf).window (ix1 e) 0 : Nat)).toNat) = v.val
        rw [h0, w0]; omega
  · rename_i h
    constructor
    · intro heq; exact absurd heq (by simp)
    · intro hv
      refine absurd (fun a => ?_) h
      match a with
      | ⟨0, _⟩ =>
        show 0 ≤ (sVecDims N E wf).start (ix1 e) idx 0 + ((sVecDims N E wf).window (ix1 e) 0 : Nat)
          ∧ (sVecDims N E wf).start (ix1 e) idx 0 + ((sVecDims N E wf).window (ix1 e) 0 : Nat) < (N : Int)
        rw [h0, w0]; have := v.isLt; omega

end Vec

private theorem scatterAdd_vec_lit {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (sVecDims N E wf) x idx upd (ix1 v)
      = x (ix1 v) + ∑ e ∈ Finset.univ.filter (fun e : Fin E => (idx (ix2 e (0 : Fin 1))).toInt = (v.val : Int)), upd (ix1 e) := by
  unfold Ideal.hostScatterAdd
  congr 1
  rw [Finset.sum_filter, Finset.sum_filter, sum_idx1]
  refine Finset.sum_congr rfl (fun e _ => ?_)
  simp only [sVec_resultIdx_iff wf idx e v]

/-- The host's float scatter-add of `E` single elements into an `N`-vector at an `E × 1` column of scatter indices,
    read at `v`: the operand plus the sum, over the updates `e` whose index word `idx[e, 0]`, read signed and not
    clamped, is exactly `v`, of the update's element `e`. -/
theorem scatterAdd_vec_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal) (v : Fin N) :
    Ideal.hostScatterAdd d x idx upd (ix1 v)
      = x (ix1 v) + ∑ e ∈ Finset.univ.filter (fun e : Fin E => (idx (ix2 e (0 : Fin 1))).toInt = (v.val : Int)), upd (ix1 e) := by
  obtain ⟨uw, iw, sd, iv, wf⟩ := d
  simp only at huw hiw hsd hiv
  subst huw hiw hsd hiv
  exact scatterAdd_vec_lit wf x idx upd v

end Scatter

end Cert.GatherScatter
-- ==== Proof.HostPure.lean ====
/-
  The host operations between the kernel regions, as pure terms read at one index.

  The edge list's two rows sliced out and flattened are the source and destination words; a negative source word is
  shifted up by the node count; a gather of feature rows at the shifted source words followed by a scatter-add into
  zeros at the destination words is, at (v, k), zero plus the sum over the edges landing on v of the source row's
  column k; ones scatter-added at the destination words, plus one, inverse square root, is the node factor; a bias
  vector reshaped to one row reads its element. All at the extended reals; shapes, dimension numbers and shape facts
  are hypotheses, so each lemma applies to any program's records with those fields.
-/
import proofs.«158845_j26817775797032_2_alg».proof.Proof.Spec
import proofs.«158845_j26817775797032_2_alg».proof.Proof.LibGatherScatter
import Idealize.ShloMosaic.Lib.Pipeline.Value
import Idealize.ShloMosaic.Lib.ValueIdx
import Idealize.ShloMosaic.PureOps.Ideal.Laws

open Idealize.ShloMosaic Idealize.ShloMosaic.ValueIdx Cert.Gcn Cert.GatherScatter
open scoped BigOperators

namespace Cert.Gcn.HostPure

/-- The source words with every negative word shifted up by the node count, read at edge `e`. -/
theorem nrm_apply (h0 : (⟨0, ![]⟩ : Shape).BroadcastsInDim ⟨1, ![640000]⟩ ![])
    (srcA : (⟨1, ![640000]⟩ : Shape).Idx → BitVec 32) (e : Fin 640000) :
    select (cmpi .slt srcA (broadcastInDim ⟨1, ![640000]⟩ ![] h0 (constantI ⟨0, ![]⟩ 32 0#32)))
      (addi srcA (broadcastInDim ⟨1, ![640000]⟩ ![] h0 (constantI ⟨0, ![]⟩ 32 50000#32))) srcA (ix1 e)
      = nrm (srcA (ix1 e)) := rfl

/-- A vector laid out as a one-column array, read at `(e, 0)`: the vector at `e`. -/
theorem col_apply {α : Type} (hcol : (⟨1, ![640000]⟩ : Shape).BroadcastsInDim ⟨2, ![640000, 1]⟩ ![0])
    (z : (⟨1, ![640000]⟩ : Shape).Idx → α) (e : Fin 640000) :
    broadcastInDim ⟨2, ![640000, 1]⟩ ![0] hcol z (ix2 e (0 : Fin 1)) = z (ix1 e) := by
  refine broadcastInDim_apply _ hcol z _ (ix1 e) (fun a => ?_)
  match a with
  | ⟨0, _⟩ => exact (if_neg (show ¬ ((640000 : Nat) = 1) by decide)).symm

/-- The inverse square root of a sum of two arrays, read at an index. -/
theorem rsqrt_addf_apply {s : Shape} (x y : FVec Ideal s .f32) (i : s.Idx) :
    Host.rsqrt (F := Ideal) (φ := .f32) (addf x y) i = Ideal.rsqrt (x i + y i) := rfl

/-- A scalar constant broadcast to any shape reads the extended real its word encodes. -/
theorem bcast_const_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b := rfl

/-- One layer's edge aggregate as the program computes it — the scaled features' rows gathered at the shifted source
    words, scatter-added into zeros at the destination words — read at `(v, k)`: zero plus the sum, over the edges
    landing on `v`, of the features' source row at column `k`. -/
theorem agg_apply {C : Nat}
    (ds : ScatterDims ⟨2, ![50000, C]⟩ ⟨2, ![640000, 1]⟩ ⟨2, ![640000, C]⟩) (huw : ds.updateWindowDims = [1])
    (hiw : ds.insertedWindowDims = [0]) (hsd : ds.scatterDimsToOperandDims = [0]) (hiv : ds.indexVectorDim = 1)
    (dg : GatherDims ⟨2, ![50000, C]⟩ ⟨2, ![640000, 1]⟩ ⟨2, ![640000, C]⟩) (god : dg.offsetDims = [1])
    (gcd : dg.collapsedSliceDims = [0]) (gob : dg.operandBatchingDims = []) (gsb : dg.startIndicesBatchingDims = [])
    (gsm : dg.startIndexMap = [0]) (giv : dg.indexVectorDim = 1) (gss : dg.sliceSizes = ![1, C])
    (hz : (⟨0, ![]⟩ : Shape).BroadcastsInDim ⟨2, ![50000, C]⟩ ![])
    (hcol : (⟨1, ![640000]⟩ : Shape).BroadcastsInDim ⟨2, ![640000, 1]⟩ ![0])
    (h0 : (⟨0, ![]⟩ : Shape).BroadcastsInDim ⟨1, ![640000]⟩ ![])
    (srcA dstA : (⟨1, ![640000]⟩ : Shape).Idx → BitVec 32) (Hs : (⟨2, ![50000, C]⟩ : Shape).Idx → EReal)
    (v : Fin 50000) (k : Fin C) :
    Host.scatterAdd (F := Ideal) (φ := .f32) ds
        (broadcastInDim ⟨2, ![50000, C]⟩ ![] hz (constant (F := Ideal) ⟨0, ![]⟩ .f32 0x00000000#32))
        (broadcastInDim ⟨2, ![640000, 1]⟩ ![0] hcol dstA)
        (Host.gather dg Hs (broadcastInDim ⟨2, ![640000, 1]⟩ ![0] hcol
          (select (cmpi .slt srcA (broadcastInDim ⟨1, ![640000]⟩ ![] h0 (constantI ⟨0, ![]⟩ 32 0#32)))
            (addi srcA (broadcastInDim ⟨1, ![640000]⟩ ![] h0 (constantI ⟨0, ![]⟩ 32 50000#32))) srcA))) (ix2 v k)
      = zero32 + ∑ e ∈ Finset.univ.filter (fun e : Fin 640000 => lands (dstA (ix1 e)) v), Hs (ix2 (row (srcA (ix1 e))) k) := by
  refine (scatterAdd_rows_apply ds huw hiw hsd hiv _ _ _ v k).trans ?_
  refine congrArg₂ (· + ·) (bcast_const_apply hz _ (ix2 v k)) ?_
  refine Finset.sum_congr (Finset.filter_congr fun e _ => ?_) (fun e _ => ?_)
  · -- the destination column at `(e, 0)` is the destination word of `e`
    rw [col_apply hcol dstA e]
    exact Iff.rfl
  · -- the gathered row: the features at the shifted source word, read signed and clamped
    refine (gather_rows_apply (by decide) dg god gcd gob gsb gsm giv gss Hs _ e k).trans ?_
    refine congrArg (fun r : Fin 50000 => Hs (ix2 r k)) (Fin.ext ?_)
    exact congrArg (fun w : BitVec 32 => min w.toInt.toNat 49999)
      ((col_apply hcol _ e).trans (nrm_apply h0 srcA e))

/-- The node factor as the program computes it — ones scatter-added into zeros at the destination words, plus one,
    inverse square root, laid out as a column — read at `(v, 0)`. -/
theorem deg_apply
    (ds : ScatterDims ⟨1, ![50000]⟩ ⟨2, ![640000, 1]⟩ ⟨1, ![640000]⟩) (huw : ds.updateWindowDims = [])
    (hiw : ds.insertedWindowDims = [0]) (hsd : ds.scatterDimsToOperandDims = [0]) (hiv : ds.indexVectorDim = 1)
    (hzN : (⟨0, ![]⟩ : Shape).BroadcastsInDim ⟨1, ![50000]⟩ ![])
    (hcol : (⟨1, ![640000]⟩ : Shape).BroadcastsInDim ⟨2, ![640000, 1]⟩ ![0])
    (h0 : (⟨0, ![]⟩ : Shape).BroadcastsInDim ⟨1, ![640000]⟩ ![])
    (hsc : (⟨1, ![50000]⟩ : Shape).ShapeCasts ⟨2, ![50000, 1]⟩)
    (dstA : (⟨1, ![640000]⟩ : Shape).Idx → BitVec 32) (v : Fin 50000) :
    shapeCast ⟨2, ![50000, 1]⟩ (Host.rsqrt (F := Ideal) (φ := .f32) (addf
        (Host.scatterAdd ds (broadcastInDim ⟨1, ![50000]⟩ ![] hzN (constant (F := Ideal) ⟨0, ![]⟩ .f32 0x00000000#32))
          (broadcastInDim ⟨2, ![640000, 1]⟩ ![0] hcol dstA)
          (broadcastInDim ⟨1, ![640000]⟩ ![] h0 (constant (F := Ideal) ⟨0, ![]⟩ .f32 0x3F800000#32)))
        (broadcastInDim ⟨1, ![50000]⟩ ![] hzN (constant (F := Ideal) ⟨0, ![]⟩ .f32 0x3F800000#32)))) hsc (ix2 v (0 : Fin 1))
      = Ideal.rsqrt ((zero32 + ∑ e ∈ Finset.univ.filter (fun e : Fin 640000 => lands (dstA (ix1 e)) v), one32) + one32) := by
  refine (shapeCast_apply _ hsc (ix2 v (0 : Fin 1)) (ix1 v) ?_).trans ?_
  · rw [Shape.rowMajor_val_one, Shape.rowMajor_val_two]
    show v.val = v.val * 1 + 0
    omega
  · refine (rsqrt_addf_apply _ _ (ix1 v)).trans (congrArg Ideal.rsqrt ?_)
    refine congrArg₂ (· + ·) ?_ (bcast_const_apply hzN _ (ix1 v))
    refine (scatterAdd_vec_apply ds huw hiw hsd hiv _ _ _ v).trans ?_
    refine congrArg₂ (· + ·) (bcast_const_apply hzN _ (ix1 v)) ?_
    refine Finset.sum_congr (Finset.filter_congr fun e _ => ?_) (fun e _ => bcast_const_apply h0 _ (ix1 e))
    rw [col_apply hcol dstA e]
    exact Iff.rfl

/-- Row `r` of the edge list, sliced out and flattened, read at edge `e`. -/
theorem slice_row_apply (r : Fin 2) (hsl : (⟨2, ![2, 640000]⟩ : Shape).Slices ![r.val, 0] ⟨2, ![1, 640000]⟩)
    (hsc : (⟨2, ![1, 640000]⟩ : Shape).ShapeCasts ⟨1, ![640000]⟩) (ei : EI) (e : Fin 640000) :
    shapeCast ⟨1, ![640000]⟩ (extractStridedSlice ⟨2, ![1, 640000]⟩ ![r.val, 0] ei hsl) hsc (ix1 e) = ei (ix2 r e) := by
  refine (shapeCast_apply _ hsc (ix1 e) (ix2 (0 : Fin 1) e) ?_).trans ?_
  · rw [Shape.rowMajor_val_one, Shape.rowMajor_val_two]
    show 0 * 640000 + e.val = e.val
    omega
  · refine extractStridedSlice_apply _ ei hsl _ (ix2 r e) (fun a => ?_)
    match a with
    | ⟨0, _⟩ => show r.val = r.val + 0; omega
    | ⟨1, _⟩ => show e.val = 0 + e.val; omega

/-- Row 0 of the edge list, sliced out and flattened: the source words. -/
theorem slice_src_apply (hsl : (⟨2, ![2, 640000]⟩ : Shape).Slices ![0, 0] ⟨2, ![1, 640000]⟩)
    (hsc : (⟨2, ![1, 640000]⟩ : Shape).ShapeCasts ⟨1, ![640000]⟩) (ei : EI) (e : Fin 640000) :
    shapeCast ⟨1, ![640000]⟩ (extractStridedSlice ⟨2, ![1, 640000]⟩ ![0, 0] ei hsl) hsc (ix1 e) = srcW ei e :=
  slice_row_apply 0 hsl hsc ei e

/-- Row 1 of the edge list, sliced out and flattened: the destination words. -/
theorem slice_dst_apply (hsl : (⟨2, ![2, 640000]⟩ : Shape).Slices ![1, 0] ⟨2, ![1, 640000]⟩)
    (hsc : (⟨2, ![1, 640000]⟩ : Shape).ShapeCasts ⟨1, ![640000]⟩) (ei : EI) (e : Fin 640000) :
    shapeCast ⟨1, ![640000]⟩ (extractStridedSlice ⟨2, ![1, 640000]⟩ ![1, 0] ei hsl) hsc (ix1 e) = dstW ei e :=
  slice_row_apply 1 hsl hsc ei e

/-- A bias vector laid out as a one-row array, read at `(0, k)`. -/
theorem bias_row_apply {C : Nat} (hsc : (⟨1, ![C]⟩ : Shape).ShapeCasts ⟨2, ![1, C]⟩)
    (b : (⟨1, ![C]⟩ : Shape).Idx → EReal) (k : Fin C) :
    shapeCast ⟨2, ![1, C]⟩ b hsc (ix2 (0 : Fin 1) k) = b (ix1 k) := by
  refine shapeCast_apply b hsc _ (ix1 k) ?_
  rw [Shape.rowMajor_val_one, Shape.rowMajor_val_two]
  show k.val = 0 * C + k.val
  omega

end Cert.Gcn.HostPure
-- ==== Proof.RegIdx.lean ====
/-
  Index lemmas shared by the four regions' value modules: the zero offset function, a column broadcast along rows,
  and each of the three matrix products read at a pair of coordinates.
-/
import proofs.«158845_j26817775797032_2_alg».proof.Proof.Gen.KernelIdeal.Frame
import proofs.«158845_j26817775797032_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegVal

open Cert.KernelIdeal Cert.KernelIdeal.Gen Cert.Gcn Idealize.ShloMosaic Idealize.ShloMosaic.ValueIdx

/-- The offsets of a whole-block rectangle are the zero function. -/
theorem hz : (![0, 0] : Fin 2 → Nat) = fun _ => 0 := funext fun a => by fin_cases a <;> rfl

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first matrix product's non-contracted axes read the output's coordinates. -/
theorem mm0_l0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem mm0_r1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A [2000,256] by [256,128] product into the zero splat, read at (p, q): the zero word plus the sum over the
    contracted coordinate of the operands' products. -/
theorem mm0_apply {φ₁ φ₂ : FTy} (l : FVec Ideal S2000x256 φ₁) (r : FVec Ideal S256x128 φ₂) (p : Fin 2000) (q : Fin 128) :
    matmul dot_S2000x256_S256x128_S2000x128_1_0_0_1_n_n none l r (constant (F := Ideal) S2000x128 .f32 0x00000000#32) (ix2 p q)
      = zero32 + ∑ k : Fin 256, l (ix2 p k) * r (ix2 k q) := by
  refine (Ideal.matmul_apply dot_S2000x256_S256x128_S2000x128_1_0_0_1_n_n none l r _ (ix2 p q)).trans ?_
  refine congrArg (fun s : EReal => zero32 + s) ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact mm0_l0 _ _
    | ⟨1, _⟩ => exact (dot_S2000x256_S256x128_S2000x128_1_0_0_1_n_n.lhsIdx_val_of_single rfl _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (dot_S2000x256_S256x128_S2000x128_1_0_0_1_n_n.rhsIdx_val_of_single rfl _ _).trans hk
    | ⟨1, _⟩ => exact mm0_r1 _ _)
  rw [el, er]

/-- The first matrix product's non-contracted axes read the output's coordinates. -/
theorem mm1_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm1_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product into the zero splat, read at (p, q): the zero word plus the sum over the
    contracted coordinate of the operands' products. -/
theorem mm1_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = zero32 + ∑ k : Fin 128, l (ix2 p k) * r (ix2 k q) := by
  refine (Ideal.matmul_apply dot_S2000x128_S128x128_S2000x128_1_0_0_1_n_n none l r _ (ix2 p q)).trans ?_
  refine congrArg (fun s : EReal => zero32 + s) ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mm1_l0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact mm1_r1 _ _)
  rw [el, er]

/-- The first matrix product's non-contracted axes read the output's coordinates. -/
theorem mm2_l0 (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem mm2_r1 (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- A [2000,128] by [128,16] product into the zero splat, read at (p, q): the zero word plus the sum over the
    contracted coordinate of the operands' products. -/
theorem mm2_apply {φ₁ φ₂ : FTy} (l : FVec Ideal S2000x128 φ₁) (r : FVec Ideal S128x16 φ₂) (p : Fin 2000) (q : Fin 16) :
    matmul dot_S2000x128_S128x16_S2000x16_1_0_0_1_n_n none l r (constant (F := Ideal) S2000x16 .f32 0x00000000#32) (ix2 p q)
      = zero32 + ∑ k : Fin 128, l (ix2 p k) * r (ix2 k q) := by
  refine (Ideal.matmul_apply dot_S2000x128_S128x16_S2000x16_1_0_0_1_n_n none l r _ (ix2 p q)).trans ?_
  refine congrArg (fun s : EReal => zero32 + s) ?_
  rw [← Equiv.sum_comp (contrEquiv1 dot_S2000x128_S128x16_S2000x16_1_0_0_1_n_n 128 rfl rfl).symm]
  refine Finset.sum_congr rfl fun k _ => ?_
  have hk := contrEquiv1_symm_val dot_S2000x128_S128x16_S2000x16_1_0_0_1_n_n 128 rfl rfl k
  have el : dot_S2000x128_S128x16_S2000x16_1_0_0_1_n_n.lhsIdx (ix2 p q) ((contrEquiv1 dot_S2000x128_S128x16_S2000x16_1_0_0_1_n_n 128 rfl rfl).symm k) = ix2 p k := funext fun a => Fin.ext (by
    match a with
    | ⟨0, _⟩ => exact mm2_l0 _ _
    | ⟨1, _⟩ => exact (dot_S2000x128_S128x16_S2000x16_1_0_0_1_n_n.lhsIdx_val_of_single rfl _ _).trans hk)
  have er : dot_S2000x128_S128x16_S2000x16_1_0_0_1_n_n.rhsIdx (ix2 p q) ((contrEquiv1 dot_S2000x128_S128x16_S2000x16_1_0_0_1_n_n 128 rfl rfl).symm k) = ix2 k q := funext fun a => Fin.ext (by
    match a with
    | ⟨0, _⟩ => exact (dot_S2000x128_S128x16_S2000x16_1_0_0_1_n_n.rhsIdx_val_of_single rfl _ _).trans hk
    | ⟨1, _⟩ => exact mm2_r1 _ _)
  rw [el, er]

end Cert.KernelIdeal.RegVal

end
-- ==== Proof.Reg0.lean ====
/-
  Region 0 (the first layer's feature transform): each of its two output arrays, after the region's write-backs, as one
  function of the arrays the region finds. A 2000-row block of X times the whole of W is the matrix product's rows of
  that block; the second output scales each row by its node's factor. Row r of an output lies in block r / 2000.
-/
import proofs.«158845_j26817775797032_2_alg».proof.Proof.RegIdx

set_option maxRecDepth 16384

noncomputable section

open scoped BigOperators

namespace Cert.KernelIdeal.RegVal

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads at a pair of coordinates -/

/-- The product payload at (p, q). -/
theorem pay0_1_apply (x0 : Vec Ideal S2000x256 .f32) (x1 : Vec Ideal S256x128 .f32) (p : Fin 2000) (q : Fin 128) :
    k0_pay1 x0 x1 (ix2 p q) = zero32 + ∑ k : Fin 256, x0 (ix2 p k) * x1 (ix2 k q) := by
  unfold k0_pay1
  exact mm0_apply _ _ p q

/-- The scaled payload at (p, q): the product there times the column's entry for row p. -/
theorem pay0_2_apply (x0 : Vec Ideal S2000x256 .f32) (x1 : Vec Ideal S256x128 .f32) (x2 : Vec Ideal S2000x1 .f32)
    (p : Fin 2000) (q : Fin 128) :
    k0_pay2 x0 x1 x2 (ix2 p q) = (zero32 + ∑ k : Fin 256, x0 (ix2 p k) * x1 (ix2 k q)) * x2 (ix2 p (0 : Fin 1)) := by
  unfold k0_pay2
  show k0_pay1 x0 x1 (ix2 p q) * broadcastTo S2000x128 (shapeCast S2000x1 x2 shapeCasts_S2000x1_S2000x1) broadcasts_S2000x1_S2000x128 (ix2 p q) = _
  refine congrArg₂ (fun a b : EReal => a * b) (pay0_1_apply x0 x1 p q) ?_
  refine (broadcastTo_a1_ab_apply _ _ p q).trans ?_
  exact congrFun (shapeCast_self x2 _) _

/-! ## The two outputs as whole-array functions -/

/-- The first output: the product of the feature array and the weights, into the zero word. -/
abbrev G0_3 (A : S50000x256.Idx → EReal) (W : S256x128.Idx → EReal) : S50000x128.Idx → EReal :=
  fun i => mm (mat A) (mat W) (i 0) (i 1)

/-- The second output: that product with each row scaled by its node's factor. -/
abbrev G0_4 (A : S50000x256.Idx → EReal) (W : S256x128.Idx → EReal) (D : S50000x1.Idx → EReal) : S50000x128.Idx → EReal :=
  fun i => scale (mm (mat A) (mat W)) (col D) (i 0) (i 1)

/-- The product payload of blocks that are rows v-p … of A and the whole of W is the product at row v. -/
theorem pay0_1_at (x0 : Vec Ideal S2000x256 .f32) (x1 : Vec Ideal S256x128 .f32)
    (A : S50000x256.Idx → EReal) (W : S256x128.Idx → EReal) (p : Fin 2000) (q : Fin 128) (v : Fin 50000)
    (h0 : ∀ k : Fin 256, x0 (ix2 p k) = A (ix2 v k)) (h1 : ∀ k : Fin 256, x1 (ix2 k q) = W (ix2 k q)) :
    k0_pay1 x0 x1 (ix2 p q) = mm (mat A) (mat W) v q := by
  refine (pay0_1_apply x0 x1 p q).trans ?_
  show _ = zero32 + ∑ k : Fin 256, A (ix2 v k) * W (ix2 k q)
  refine congrArg (fun s : EReal => zero32 + s) (Finset.sum_congr rfl fun k _ => ?_)
  rw [h0 k, h1 k]

theorem pay0_2_at (x0 : Vec Ideal S2000x256 .f32) (x1 : Vec Ideal S256x128 .f32) (x2 : Vec Ideal S2000x1 .f32)
    (A : S50000x256.Idx → EReal) (W : S256x128.Idx → EReal) (D : S50000x1.Idx → EReal)
    (p : Fin 2000) (q : Fin 128) (v : Fin 50000)
    (h0 : ∀ k : Fin 256, x0 (ix2 p k) = A (ix2 v k)) (h1 : ∀ k : Fin 256, x1 (ix2 k q) = W (ix2 k q))
    (h2 : x2 (ix2 p (0 : Fin 1)) = D (ix2 v (0 : Fin 1))) :
    k0_pay2 x0 x1 x2 (ix2 p q) = scale (mm (mat A) (mat W)) (col D) v q := by
  refine (pay0_2_apply x0 x1 x2 p q).trans ?_
  show _ = (zero32 + ∑ k : Fin 256, A (ix2 v k) * W (ix2 k q)) * D (ix2 v (0 : Fin 1))
  refine congrArg₂ (fun a b : EReal => a * b) ?_ h2
  refine congrArg (fun s : EReal => zero32 + s) (Finset.sum_congr rfl fun k _ => ?_)
  rw [h0 k, h1 k]

/-! ## The index maps over the grid -/

/-- The row-blocked windows are at block (t, 0), the weights' window at block (0, 0), at every point t. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt_N0 (t : Fin cfg0.N) : t.val < 25 := lt_of_lt_of_eq t.isLt N_0

/-! ## What a point writes back -/

/-- Point t writes block t of the product. -/
theorem flushed0_3_eq (c : Dev nD) (t : Fin cfg0.N) :
    (dat0 (F := Ideal) V c).flushed 3 t
      = ((cfg0.win 3).blk t).view.read (Elt Ideal) (G0_3 (V c main_arg0) (V c main_arg2)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x128) hz]
  obtain ⟨a00, a01, a10, a11, a20, a21, a30, a31, a40, a41⟩ := idx_facts0 t
  have ht := lt_N0 t
  funext j
  obtain ⟨p, q, rfl⟩ : ∃ (p : Fin 2000) (q : Fin 128), j = ix2 p q := ⟨j 0, j 1, eq_ix2 j⟩
  have hp := p.isLt
  have hq := q.isLt
  refine (pay0_1_at (iblk0 V c 0 t) (iblk0 V c 1 t) (V c main_arg0) (V c main_arg2) p q
    ⟨t.val * 2000 + p.val, by omega⟩ (fun k => ?_) (fun k => ?_)).trans ?_
  · show V c main_arg0 (((cfg0.win 0).blk t).view.emb (ix2 p k)) = V c main_arg0 _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · show V c main_arg2 (((cfg0.win 1).blk t).view.emb (ix2 k q)) = V c main_arg2 _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show mm _ _ _ _ = mm _ _ (((cfg0.win 3).blk t).view.emb (ix2 p q) 0) (((cfg0.win 3).blk t).view.emb (ix2 p q) 1)
    refine congrArg₂ (mm _ _) (Fin.ext ?_) (Fin.ext ?_)
    · show t.val * 2000 + p.val = win0_3.index t (0 : Fin 2) * 2000 + 1 * p.val; omega
    · show q.val = win0_3.index t (1 : Fin 2) * 128 + 1 * q.val; omega

/-- Point t writes block t of the scaled product. -/
theorem flushed0_4_eq (c : Dev nD) (t : Fin cfg0.N) :
    (dat0 (F := Ideal) V c).flushed 4 t
      = ((cfg0.win 4).blk t).view.read (Elt Ideal) (G0_4 (V c main_arg0) (V c main_arg2) (V c main_v11)) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x128) hz, View.ld_unit_zero (S := S2000x1) hz]
  obtain ⟨a00, a01, a10, a11, a20, a21, a30, a31, a40, a41⟩ := idx_facts0 t
  have ht := lt_N0 t
  funext j
  obtain ⟨p, q, rfl⟩ : ∃ (p : Fin 2000) (q : Fin 128), j = ix2 p q := ⟨j 0, j 1, eq_ix2 j⟩
  have hp := p.isLt
  have hq := q.isLt
  refine (pay0_2_at (iblk0 V c 0 t) (iblk0 V c 1 t) (iblk0 V c 2 t) (V c main_arg0) (V c main_arg2) (V c main_v11) p q
    ⟨t.val * 2000 + p.val, by omega⟩ (fun k => ?_) (fun k => ?_) ?_).trans ?_
  · show V c main_arg0 (((cfg0.win 0).blk t).view.emb (ix2 p k)) = V c main_arg0 _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · show V c main_arg2 (((cfg0.win 1).blk t).view.emb (ix2 k q)) = V c main_arg2 _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show V c main_v11 (((cfg0.win 2).blk t).view.emb (ix2 p (0 : Fin 1))) = V c main_v11 _
    refine congrArg _ (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  · show scale _ _ _ _ = scale _ _ (((cfg0.win 4).blk t).view.emb (ix2 p q) 0) (((cfg0.win 4).blk t).view.emb (ix2 p q) 1)
    refine congrArg₂ (scale _ _) (Fin.ext ?_) (Fin.ext ?_)
    · show t.val * 2000 + p.val = win0_4.index t (0 : Fin 2) * 2000 + 1 * p.val; omega
    · show q.val = win0_4.index t (1 : Fin 2) * 128 + 1 * q.val; omega

/-! ## The blocks cover the arrays -/

/-- An index of the first output is in point t's block iff each coordinate is in the block's range on its axis. -/
theorem mem_blk0_3 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v12_0).slice (win0_3.rect t)).set ↔ _
  rw [View.set_slice_whole, Rect.mem_set_unit]
  exact Iff.rfl

theorem mem_blk0_4 (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v12_1).slice (win0_4.rect t)).set ↔ _
  rw [View.set_slice_whole, Rect.mem_set_unit]
  exact Iff.rfl

/-- Row r of the first output lies in the block of point r / 2000. -/
theorem cover0_3_all (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨a00, a01, a10, a11, a20, a21, a30, a31, a40, a41⟩ := idx_facts0 t
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem cover0_4_all (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨a00, a01, a10, a11, a20, a21, a30, a31, a40, a41⟩ := idx_facts0 t
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-! ## The arrays after the region -/

/-- The first output array ends holding the product. -/
theorem arr0_3 (c : Dev nD) (v : Fin 50000) (k : Fin 128) :
    ((dat0 (F := Ideal) V c).arrAt 3 cfg0.N) (ix2 v k)
      = mm (mat (V c main_arg0 : S50000x256.Idx → EReal)) (mat (V c main_arg2 : S256x128.Idx → EReal)) v k :=
  congrFun ((dat0 (F := Ideal) V c).arrAt_eq_of_cover 3 (G0_3 (V c main_arg0) (V c main_arg2))
    (fun t _ => flushed0_3_eq V c t) cover0_3_all) (ix2 v k)

/-- The second output array ends holding the product with each row scaled by its node's factor. -/
theorem arr0_4 (c : Dev nD) (v : Fin 50000) (k : Fin 128) :
    ((dat0 (F := Ideal) V c).arrAt 4 cfg0.N) (ix2 v k)
      = scale (mm (mat (V c main_arg0 : S50000x256.Idx → EReal)) (mat (V c main_arg2 : S256x128.Idx → EReal)))
          (col (V c main_v11 : S50000x1.Idx → EReal)) v k :=
  congrFun ((dat0 (F := Ideal) V c).arrAt_eq_of_cover 4 (G0_4 (V c main_arg0) (V c main_arg2) (V c main_v11))
    (fun t _ => flushed0_4_eq V c t) cover0_4_all) (ix2 v k)

end Cert.KernelIdeal.RegVal

end
-- ==== Proof.Reg1.lean ====
/-
  Region 1 (the first layer's epilogue fused with the second layer's feature transform): each of its two output arrays,
  after the region's write-backs, as one function of the arrays the region finds. A 2000-row block is combined row by row
  (node factor times aggregate, plus its square times the features, plus the bias), rectified, and multiplied by the whole
  weight matrix; the second output scales each row by its node's factor. Row r of an output lies in block r / 2000.
-/
import proofs.«158845_j26817775797032_2_alg».proof.Proof.RegIdx

set_option maxRecDepth 16384

noncomputable section

open scoped BigOperators

namespace Cert.KernelIdeal.RegVal

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads at a pair of coordinates -/

/-- The combined, rectified block at (p, k): the column's entry times the aggregate, plus its square times the
    features, plus the bias row, and the positive part of that. -/
theorem act1_apply (v0 : Vec Ideal S2000x1 .f32) (v2 v7 : Vec Ideal S2000x128 .f32) (v12 : Vec Ideal S1x128 .f32)
    (p : Fin 2000) (k : Fin 128) :
    maximumf (addf (addf (mulf (broadcastTo S2000x128 (k1_pay1 v0) broadcasts_S2000x1_S2000x128) (shapeCast S2000x128 v2 shapeCasts_S2000x128_S2000x128))
        (mulf (broadcastTo S2000x128 (mulf (k1_pay1 v0) (k1_pay1 v0)) broadcasts_S2000x1_S2000x128) (shapeCast S2000x128 v7 shapeCasts_S2000x128_S2000x128)))
        (broadcastTo S2000x128 (shapeCast S1x128 v12 shapeCasts_S1x128_S1x128) broadcasts_S1x128_S2000x128))
      (broadcast S2000x128 (Scalar.ofBits (F := Ideal) .f32 0x00000000#32)) (ix2 p k)
      = max (v0 (ix2 p (0 : Fin 1)) * v2 (ix2 p k) + (v0 (ix2 p (0 : Fin 1)) * v0 (ix2 p (0 : Fin 1))) * v7 (ix2 p k)
          + v12 (ix2 (0 : Fin 1) k)) zero32 := by
  show max ((broadcastTo S2000x128 (k1_pay1 v0) broadcasts_S2000x1_S2000x128 (ix2 p k) * shapeCast S2000x128 v2 shapeCasts_S2000x128_S2000x128 (ix2 p k)
      + broadcastTo S2000x128 (mulf (k1_pay1 v0) (k1_pay1 v0)) broadcasts_S2000x1_S2000x128 (ix2 p k) * shapeCast S2000x128 v7 shapeCasts_S2000x128_S2000x128 (ix2 p k))
      + broadcastTo S2000x128 (shapeCast S1x128 v12 shapeCasts_S1x128_S1x128) broadcasts_S1x128_S2000x128 (ix2 p k)) zero32 = _
  rw [broadcastTo_a1_ab_apply, broadcastTo_a1_ab_apply, broadcastTo_1b_ab_apply, shapeCast_self, shapeCast_self, shapeCast_self]
  unfold k1_pay1
  rw [shapeCast_self]
  rfl

/-- The product payload at (p, q). -/
theorem pay1_2_apply (v0 : Vec Ideal S2000x1 .f32) (v2 v7 : Vec Ideal S2000x128 .f32) (v12 : Vec Ideal S1x128 .f32)
    (v19 : Vec Ideal S128x128 .f32) (p : Fin 2000) (q : Fin 128) :
    k1_pay2 v0 v2 v7 v12 v19 (ix2 p q)
      = zero32 + ∑ k : Fin 128, max (v0 (ix2 p (0 : Fin 1)) * v2 (ix2 p k) + (v0 (ix2 p (0 : Fin 1)) * v0 (ix2 p (0 : Fin 1))) * v7 (ix2 p k)
          + v12 (ix2 (0 : Fin 1) k)) zero32 * v19 (ix2 k q) := by
  unfold k1_pay2
  refine (mm1_apply _ _ p q).trans ?_
  refine congrArg (fun s : EReal => zero32 + s) (Finset.sum_congr rfl fun k _ => ?_)
  exact congrArg (fun a : EReal => a * v19 (ix2 k q)) (act1_apply v0 v2 v7 v12 p k)

/-- The scaled payload at (p, q). -/
theorem pay1_3_apply (v0 : Vec Ideal S2000x1 .f32) (v2 v7 : Vec Ideal S2000x128 .f32) (v12 : Vec Ideal S1x128 .f32)
    (v19 : Vec Ideal S128x128 .f32) (p : Fin 2000) (q : Fin 128) :
    k1_pay3 v0 v2 v7 v12 v19 (ix2 p q) = k1_pay2 v0 v2 v7 v12 v19 (ix2 p q) * v0 (ix2 p (0 : Fin 1)) := by
  unfold k1_pay3
  show k1_pay2 v0 v2 v7 v12 v19 (ix2 p q) * broadcastTo S2000x128 (k1_pay1 v0) broadcasts_S2000x1_S2000x128 (ix2 p q) = _
  refine congrArg (fun b : EReal => k1_pay2 v0 v2 v7 v12 v19 (ix2 p q) * b) ?_
  refine (broadcastTo_a1_ab_apply _ _ p q).trans ?_
  unfold k1_pay1
  exact congrFun (shapeCast_self v0 _) _

/-! ## The two outputs as whole-array functions -/

/-- The first output: the rectified combination times the weights, into the zero word. -/
abbrev G1_5 (A Hp : S50000x128.Idx → EReal) (D : S50000x1.Idx → EReal) (B : S1x128.Idx → EReal) (W : S128x128.Idx → EReal) :
    S50000x128.Idx → EReal :=
  fun i => mm (relu (combA (mat A) (mat Hp) (col D) (rowv B))) (mat W) (i 0) (i 1)

/-- The second output: that with each row scaled by its node's factor. -/
abbrev G1_6 (A Hp : S50000x128.Idx → EReal) (D : S50000x1.Idx → EReal) (B : S1x128.Idx → EReal) (W : S128x128.Idx → EReal) :
    S50000x128.Idx → EReal :=
  fun i => scale (mm (relu (combA (mat A) (mat Hp) (col D) (rowv B))) (mat W)) (col D) (i 0) (i 1)

/-- The product payload of blocks that are row v of the row-blocked arrays and the whole of the bias and the weights. -/
theorem pay1_2_at (v0 : Vec Ideal S2000x1 .f32) (v2 v7 : Vec Ideal S2000x128 .f32) (v12 : Vec Ideal S1x128 .f32)
    (v19 : Vec Ideal S128x128 .f32)
    (A Hp : S50000x128.Idx → EReal) (D : S50000x1.Idx → EReal) (B : S1x128.Idx → EReal) (W : S128x128.Idx → EReal)
    (p : Fin 2000) (q : Fin 128) (v : Fin 50000)
    (h0 : v0 (ix2 p (0 : Fin 1)) = D (ix2 v (0 : Fin 1)))
    (h2 : ∀ k : Fin 128, v2 (ix2 p k) = A (ix2 v k)) (h7 : ∀ k : Fin 128, v7 (ix2 p k) = Hp (ix2 v k))
    (h12 : ∀ k : Fin 128, v12 (ix2 (0 : Fin 1) k) = B (ix2 (0 : Fin 1) k))
    (h19 : ∀ k : Fin 128, v19 (ix2 k q) = W (ix2 k q)) :
    k1_pay2 v0 v2 v7 v12 v19 (ix2 p q) = mm (relu (combA (mat A) (mat Hp) (col D) (rowv B))) (mat W) v q := by
  refine (pay1_2_apply v0 v2 v7 v12 v19 p q).trans ?_
  show _ = zero32 + ∑ k : Fin 128, max (D (ix2 v (0 : Fin 1)) * A (ix2 v k) + (D (ix2 v (0 : Fin 1)) * D (ix2 v (0 : Fin 1))) * Hp (ix2 v k)
      + B (ix2 (0 : Fin 1) k)) zero32 * W (ix2 k q)
  refine congrArg (fun s : EReal => zero32 + s) (Finset.sum_congr rfl fun k _ => ?_)
  rw [h0, h2 k, h7 k, h12 k, h19 k]

theorem pay1_3_at (v0 : Vec Ideal S2000x1 .f32) (v2 v7 : Vec Ideal S2000x128 .f32) (v12 : Vec Ideal S1x128 .f32)
    (v19 : Vec Ideal S128x128 .f32)
    (A Hp : S50000x128.Idx → EReal) (D : S50000x1.Idx → EReal) (B : S1x128.Idx → EReal) (W : S128x128.Idx → EReal)
    (p : Fin 2000) (q : Fin 128) (v : Fin 50000)
    (h0 : v0 (ix2 p (0 : Fin 1)) = D (ix2 v (0 : Fin 1)))
    (h2 : ∀ k : Fin 128, v2 (ix2 p k) = A (ix2 v k)) (h7 : ∀ k : Fin 128, v7 (ix2 p k) = Hp (ix2 v k))
    (h12 : ∀ k : Fin 128, v12 (ix2 (0 : Fin 1) k) = B (ix2 (0 : Fin 1) k))
    (h19 : ∀ k : Fin 128, v19 (ix2 k q) = W (ix2 k q)) :
    k1_pay3 v0 v2 v7 v12 v19 (ix2 p q)
      = scale (mm (relu (combA (mat A) (mat Hp) (col D) (rowv B))) (mat W)) (col D) v q := by
  refine (pay1_3_apply v0 v2 v7 v12 v19 p q).trans ?_
  show _ = mm (relu (combA (mat A) (mat Hp) (col D) (rowv B))) (mat W) v q * D (ix2 v (0 : Fin 1))
  exact congrArg₂ (fun a b : EReal => a * b) (pay1_2_at v0 v2 v7 v12 v19 A Hp D B W p q v h0 h2 h7 h12 h19) h0

/-! ## The index maps over the grid -/

/-- The row-blocked windows are at block (t, 0), the bias's and the weights' windows at block (0, 0), at every point t. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem lt_N1 (t : Fin cfg1.N) : t.val < 25 := lt_of_lt_of_eq t.isLt N_1

/-! ## What a point writes back -/

/-- Point t writes block t of the first output. -/
theorem flushed1_5_eq (c : Dev nD) (t : Fin cfg1.N) :
    (dat1 (F := Ideal) V c).flushed 5 t
      = ((cfg1.win 5).blk t).view.read (Elt Ideal) (G1_5 (V c main_v22) (V c main_v12_0) (V c main_v11) (V c main_v23) (V c main_arg4)) := by
  show (cfg1.win 5).cut (grid1.coords t) ((dat1 V c).after 5 t) = _
  rw [after1_5]
  unfold out1_5
  rw [View.canon_unit_zero hz]
  simp only [View.ld_unit_zero (S := S2000x1) hz, View.ld_unit_zero (S := S2000x128) hz, View.ld_unit_zero (S := S1x128) hz, View.ld_unit_zero (S := S128x128) hz]
  obtain ⟨a00, a01, a10, a11, a20, a21, a50, a51, a60, a61, a30, a31, a40, a41⟩ := idx_facts1 t
  have ht := lt_N1 t
  funext j
  obtain ⟨p, q, rfl⟩ : ∃ (p : Fin 2000) (q : Fin 128), j = ix2 p q := ⟨j 0, j 1, eq_ix2 j⟩
  have hp := p.isLt
  have hq := q.isLt
  refine (pay1_2_at (iblk1 V c 2 t) (iblk1 V c 0 t) (iblk1 V c 1 t) (iblk1 V c 3 t) (iblk1 V c 4 t)
    (V c main_v22) (V c main_v12_0) (V c main_v11) (V c main_v23) (V c main_arg4) p q
    ⟨t.val * 2000 + p.val, by omega⟩ ?_ (fun k => ?_) (fun k => ?_) (fun k => ?_) (fun k => ?_)).trans ?_
  · show V c main_v11 (((cfg1.win 2).blk t).view.emb (ix2 p (0 : Fin 1))) = V c main_v11 _
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  · show V c main_v22 (((cfg1.win 0).blk t).view.emb (ix2 p k)) = V c main_v22 _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_v12_0 (((cfg1.win 1).blk t).view.emb (ix2 p k)) = V c main_v12_0 _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · show V c main_v23 (((cfg1.win 3).blk t).view.emb (ix2 (0 : Fin 1) k)) = V c main_v23 _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_arg4 (((cfg1.win 4).blk t).view.emb (ix2 k q)) = V c main_arg4 _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · show mm _ _ _ _ = mm _ _ (((cfg1.win 5).blk t).view.emb (ix2 p q) 0) (((cfg1.win 5).blk t).view.emb (ix2 p q) 1)
    refine congrArg₂ (mm _ _) (Fin.ext ?_) (Fin.ext ?_)
    · show t.val * 2000 + p.val = win1_5.index t (0 : Fin 2) * 2000 + 1 * p.val; omega
    · show q.val = win1_5.index t (1 : Fin 2) * 128 + 1 * q.val; omega

/-- Point t writes block t of the second output. -/
theorem flushed1_6_eq (c : Dev nD) (t : Fin cfg1.N) :
    (dat1 (F := Ideal) V c).flushed 6 t
      = ((cfg1.win 6).blk t).view.read (Elt Ideal) (G1_6 (V c main_v22) (V c main_v12_0) (V c main_v11) (V c main_v23) (V c main_arg4)) := by
  show (cfg1.win 6).cut (grid1.coords t) ((dat1 V c).after 6 t) = _
  rw [after1_6]
  unfold out1_6
  rw [View.canon_unit_zero hz]
  simp only [View.ld_unit_zero (S := S2000x1) hz, View.ld_unit_zero (S := S2000x128) hz, View.ld_unit_zero (S := S1x128) hz, View.ld_unit_zero (S := S128x128) hz]
  obtain ⟨a00, a01, a10, a11, a20, a21, a50, a51, a60, a61, a30, a31, a40, a41⟩ := idx_facts1 t
  have ht := lt_N1 t
  funext j
  obtain ⟨p, q, rfl⟩ : ∃ (p : Fin 2000) (q : Fin 128), j = ix2 p q := ⟨j 0, j 1, eq_ix2 j⟩
  have hp := p.isLt
  have hq := q.isLt
  refine (pay1_3_at (iblk1 V c 2 t) (iblk1 V c 0 t) (iblk1 V c 1 t) (iblk1 V c 3 t) (iblk1 V c 4 t)
    (V c main_v22) (V c main_v12_0) (V c main_v11) (V c main_v23) (V c main_arg4) p q
    ⟨t.val * 2000 + p.val, by omega⟩ ?_ (fun k => ?_) (fun k => ?_) (fun k => ?_) (fun k => ?_)).trans ?_
  · show V c main_v11 (((cfg1.win 2).blk t).view.emb (ix2 p (0 : Fin 1))) = V c main_v11 _
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  · show V c main_v22 (((cfg1.win 0).blk t).view.emb (ix2 p k)) = V c main_v22 _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_v12_0 (((cfg1.win 1).blk t).view.emb (ix2 p k)) = V c main_v12_0 _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · show V c main_v23 (((cfg1.win 3).blk t).view.emb (ix2 (0 : Fin 1) k)) = V c main_v23 _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_arg4 (((cfg1.win 4).blk t).view.emb (ix2 k q)) = V c main_arg4 _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · show scale _ _ _ _ = scale _ _ (((cfg1.win 6).blk t).view.emb (ix2 p q) 0) (((cfg1.win 6).blk t).view.emb (ix2 p q) 1)
    refine congrArg₂ (scale _ _) (Fin.ext ?_) (Fin.ext ?_)
    · show t.val * 2000 + p.val = win1_6.index t (0 : Fin 2) * 2000 + 1 * p.val; omega
    · show q.val = win1_6.index t (1 : Fin 2) * 128 + 1 * q.val; omega

/-! ## The blocks cover the arrays -/

theorem mem_blk1_5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v24_0).slice (win1_5.rect t)).set ↔ _
  rw [View.set_slice_whole, Rect.mem_set_unit]
  exact Iff.rfl

/-- Row r lies in the block of point r / 2000. -/
theorem cover1_5_all (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨a00, a01, a10, a11, a20, a21, a50, a51, a60, a61, a30, a31, a40, a41⟩ := idx_facts1 t
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

theorem mem_blk1_6 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v24_1).slice (win1_6.rect t)).set ↔ _
  rw [View.set_slice_whole, Rect.mem_set_unit]
  exact Iff.rfl

/-- Row r lies in the block of point r / 2000. -/
theorem cover1_6_all (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨a00, a01, a10, a11, a20, a21, a50, a51, a60, a61, a30, a31, a40, a41⟩ := idx_facts1 t
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-! ## The arrays after the region -/

/-- The first output array ends holding the rectified combination times the weights. -/
theorem arr1_5 (c : Dev nD) (v : Fin 50000) (k : Fin 128) :
    ((dat1 (F := Ideal) V c).arrAt 5 cfg1.N) (ix2 v k)
      = mm (relu (combA (mat (V c main_v22 : S50000x128.Idx → EReal)) (mat (V c main_v12_0 : S50000x128.Idx → EReal)) (col (V c main_v11 : S50000x1.Idx → EReal)) (rowv (V c main_v23 : S1x128.Idx → EReal)))) (mat (V c main_arg4 : S128x128.Idx → EReal)) v k :=
  congrFun ((dat1 (F := Ideal) V c).arrAt_eq_of_cover 5 (G1_5 (V c main_v22) (V c main_v12_0) (V c main_v11) (V c main_v23) (V c main_arg4))
    (fun t _ => flushed1_5_eq V c t) cover1_5_all) (ix2 v k)

/-- The second output array ends holding that with each row scaled by its node's factor. -/
theorem arr1_6 (c : Dev nD) (v : Fin 50000) (k : Fin 128) :
    ((dat1 (F := Ideal) V c).arrAt 6 cfg1.N) (ix2 v k)
      = scale (mm (relu (combA (mat (V c main_v22 : S50000x128.Idx → EReal)) (mat (V c main_v12_0 : S50000x128.Idx → EReal)) (col (V c main_v11 : S50000x1.Idx → EReal)) (rowv (V c main_v23 : S1x128.Idx → EReal)))) (mat (V c main_arg4 : S128x128.Idx → EReal))) (col (V c main_v11 : S50000x1.Idx → EReal)) v k :=
  congrFun ((dat1 (F := Ideal) V c).arrAt_eq_of_cover 6 (G1_6 (V c main_v22) (V c main_v12_0) (V c main_v11) (V c main_v23) (V c main_arg4))
    (fun t _ => flushed1_6_eq V c t) cover1_6_all) (ix2 v k)

end Cert.KernelIdeal.RegVal

end
-- ==== Proof.Reg2.lean ====
/-
  Region 2 (the second layer's epilogue fused with the third layer's feature transform): each of its two output arrays,
  after the region's write-backs, as one function of the arrays the region finds. A 2000-row block is combined row by row
  (node factor times aggregate, plus its square times the features, plus the bias), rectified, and multiplied by the whole
  [128, 16] weight matrix; the second output scales each row by its node's factor. Row r of an output lies in block r / 2000.
-/
import proofs.«158845_j26817775797032_2_alg».proof.Proof.RegIdx

set_option maxRecDepth 16384

noncomputable section

open scoped BigOperators

namespace Cert.KernelIdeal.RegVal

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads at a pair of coordinates -/

/-- The combined, rectified block at (p, k): the column's entry times the aggregate, plus its square times the
    features, plus the bias row, and the positive part of that. -/
theorem act2_apply (v0 : Vec Ideal S2000x1 .f32) (v2 v7 : Vec Ideal S2000x128 .f32) (v12 : Vec Ideal S1x128 .f32)
    (p : Fin 2000) (k : Fin 128) :
    maximumf (addf (addf (mulf (broadcastTo S2000x128 (k2_pay1 v0) broadcasts_S2000x1_S2000x128) (shapeCast S2000x128 v2 shapeCasts_S2000x128_S2000x128))
        (mulf (broadcastTo S2000x128 (mulf (k2_pay1 v0) (k2_pay1 v0)) broadcasts_S2000x1_S2000x128) (shapeCast S2000x128 v7 shapeCasts_S2000x128_S2000x128)))
        (broadcastTo S2000x128 (shapeCast S1x128 v12 shapeCasts_S1x128_S1x128) broadcasts_S1x128_S2000x128))
      (broadcast S2000x128 (Scalar.ofBits (F := Ideal) .f32 0x00000000#32)) (ix2 p k)
      = max (v0 (ix2 p (0 : Fin 1)) * v2 (ix2 p k) + (v0 (ix2 p (0 : Fin 1)) * v0 (ix2 p (0 : Fin 1))) * v7 (ix2 p k)
          + v12 (ix2 (0 : Fin 1) k)) zero32 := by
  show max ((broadcastTo S2000x128 (k2_pay1 v0) broadcasts_S2000x1_S2000x128 (ix2 p k) * shapeCast S2000x128 v2 shapeCasts_S2000x128_S2000x128 (ix2 p k)
      + broadcastTo S2000x128 (mulf (k2_pay1 v0) (k2_pay1 v0)) broadcasts_S2000x1_S2000x128 (ix2 p k) * shapeCast S2000x128 v7 shapeCasts_S2000x128_S2000x128 (ix2 p k))
      + broadcastTo S2000x128 (shapeCast S1x128 v12 shapeCasts_S1x128_S1x128) broadcasts_S1x128_S2000x128 (ix2 p k)) zero32 = _
  rw [broadcastTo_a1_ab_apply, broadcastTo_a1_ab_apply, broadcastTo_1b_ab_apply, shapeCast_self, shapeCast_self, shapeCast_self]
  unfold k2_pay1
  rw [shapeCast_self]
  rfl

/-- The product payload at (p, q). -/
theorem pay2_2_apply (v0 : Vec Ideal S2000x1 .f32) (v2 v7 : Vec Ideal S2000x128 .f32) (v12 : Vec Ideal S1x128 .f32)
    (v19 : Vec Ideal S128x16 .f32) (p : Fin 2000) (q : Fin 16) :
    k2_pay2 v0 v2 v7 v12 v19 (ix2 p q)
      = zero32 + ∑ k : Fin 128, max (v0 (ix2 p (0 : Fin 1)) * v2 (ix2 p k) + (v0 (ix2 p (0 : Fin 1)) * v0 (ix2 p (0 : Fin 1))) * v7 (ix2 p k)
          + v12 (ix2 (0 : Fin 1) k)) zero32 * v19 (ix2 k q) := by
  unfold k2_pay2
  refine (mm2_apply _ _ p q).trans ?_
  refine congrArg (fun s : EReal => zero32 + s) (Finset.sum_congr rfl fun k _ => ?_)
  exact congrArg (fun a : EReal => a * v19 (ix2 k q)) (act2_apply v0 v2 v7 v12 p k)

/-- The scaled payload at (p, q). -/
theorem pay2_3_apply (v0 : Vec Ideal S2000x1 .f32) (v2 v7 : Vec Ideal S2000x128 .f32) (v12 : Vec Ideal S1x128 .f32)
    (v19 : Vec Ideal S128x16 .f32) (p : Fin 2000) (q : Fin 16) :
    k2_pay3 v0 v2 v7 v12 v19 (ix2 p q) = k2_pay2 v0 v2 v7 v12 v19 (ix2 p q) * v0 (ix2 p (0 : Fin 1)) := by
  unfold k2_pay3
  show k2_pay2 v0 v2 v7 v12 v19 (ix2 p q) * broadcastTo S2000x16 (k2_pay1 v0) broadcasts_S2000x1_S2000x16 (ix2 p q) = _
  refine congrArg (fun b : EReal => k2_pay2 v0 v2 v7 v12 v19 (ix2 p q) * b) ?_
  refine (broadcastTo_a1_ab_apply _ _ p q).trans ?_
  unfold k2_pay1
  exact congrFun (shapeCast_self v0 _) _

/-! ## The two outputs as whole-array functions -/

/-- The first output: the rectified combination times the weights, into the zero word. -/
abbrev G2_5 (A Hp : S50000x128.Idx → EReal) (D : S50000x1.Idx → EReal) (B : S1x128.Idx → EReal) (W : S128x16.Idx → EReal) :
    S50000x16.Idx → EReal :=
  fun i => mm (relu (combA (mat A) (mat Hp) (col D) (rowv B))) (mat W) (i 0) (i 1)

/-- The second output: that with each row scaled by its node's factor. -/
abbrev G2_6 (A Hp : S50000x128.Idx → EReal) (D : S50000x1.Idx → EReal) (B : S1x128.Idx → EReal) (W : S128x16.Idx → EReal) :
    S50000x16.Idx → EReal :=
  fun i => scale (mm (relu (combA (mat A) (mat Hp) (col D) (rowv B))) (mat W)) (col D) (i 0) (i 1)

/-- The product payload of blocks that are row v of the row-blocked arrays and the whole of the bias and the weights. -/
theorem pay2_2_at (v0 : Vec Ideal S2000x1 .f32) (v2 v7 : Vec Ideal S2000x128 .f32) (v12 : Vec Ideal S1x128 .f32)
    (v19 : Vec Ideal S128x16 .f32)
    (A Hp : S50000x128.Idx → EReal) (D : S50000x1.Idx → EReal) (B : S1x128.Idx → EReal) (W : S128x16.Idx → EReal)
    (p : Fin 2000) (q : Fin 16) (v : Fin 50000)
    (h0 : v0 (ix2 p (0 : Fin 1)) = D (ix2 v (0 : Fin 1)))
    (h2 : ∀ k : Fin 128, v2 (ix2 p k) = A (ix2 v k)) (h7 : ∀ k : Fin 128, v7 (ix2 p k) = Hp (ix2 v k))
    (h12 : ∀ k : Fin 128, v12 (ix2 (0 : Fin 1) k) = B (ix2 (0 : Fin 1) k))
    (h19 : ∀ k : Fin 128, v19 (ix2 k q) = W (ix2 k q)) :
    k2_pay2 v0 v2 v7 v12 v19 (ix2 p q) = mm (relu (combA (mat A) (mat Hp) (col D) (rowv B))) (mat W) v q := by
  refine (pay2_2_apply v0 v2 v7 v12 v19 p q).trans ?_
  show _ = zero32 + ∑ k : Fin 128, max (D (ix2 v (0 : Fin 1)) * A (ix2 v k) + (D (ix2 v (0 : Fin 1)) * D (ix2 v (0 : Fin 1))) * Hp (ix2 v k)
      + B (ix2 (0 : Fin 1) k)) zero32 * W (ix2 k q)
  refine congrArg (fun s : EReal => zero32 + s) (Finset.sum_congr rfl fun k _ => ?_)
  rw [h0, h2 k, h7 k, h12 k, h19 k]

theorem pay2_3_at (v0 : Vec Ideal S2000x1 .f32) (v2 v7 : Vec Ideal S2000x128 .f32) (v12 : Vec Ideal S1x128 .f32)
    (v19 : Vec Ideal S128x16 .f32)
    (A Hp : S50000x128.Idx → EReal) (D : S50000x1.Idx → EReal) (B : S1x128.Idx → EReal) (W : S128x16.Idx → EReal)
    (p : Fin 2000) (q : Fin 16) (v : Fin 50000)
    (h0 : v0 (ix2 p (0 : Fin 1)) = D (ix2 v (0 : Fin 1)))
    (h2 : ∀ k : Fin 128, v2 (ix2 p k) = A (ix2 v k)) (h7 : ∀ k : Fin 128, v7 (ix2 p k) = Hp (ix2 v k))
    (h12 : ∀ k : Fin 128, v12 (ix2 (0 : Fin 1) k) = B (ix2 (0 : Fin 1) k))
    (h19 : ∀ k : Fin 128, v19 (ix2 k q) = W (ix2 k q)) :
    k2_pay3 v0 v2 v7 v12 v19 (ix2 p q)
      = scale (mm (relu (combA (mat A) (mat Hp) (col D) (rowv B))) (mat W)) (col D) v q := by
  refine (pay2_3_apply v0 v2 v7 v12 v19 p q).trans ?_
  show _ = mm (relu (combA (mat A) (mat Hp) (col D) (rowv B))) (mat W) v q * D (ix2 v (0 : Fin 1))
  exact congrArg₂ (fun a b : EReal => a * b) (pay2_2_at v0 v2 v7 v12 v19 A Hp D B W p q v h0 h2 h7 h12 h19) h0

/-! ## The index maps over the grid -/

/-- The row-blocked windows are at block (t, 0), the bias's and the weights' windows at block (0, 0), at every point t. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem lt_N2 (t : Fin cfg2.N) : t.val < 25 := lt_of_lt_of_eq t.isLt N_2

/-! ## What a point writes back -/

/-- Point t writes block t of the first output. -/
theorem flushed2_5_eq (c : Dev nD) (t : Fin cfg2.N) :
    (dat2 (F := Ideal) V c).flushed 5 t
      = ((cfg2.win 5).blk t).view.read (Elt Ideal) (G2_5 (V c main_v34) (V c main_v24_0) (V c main_v11) (V c main_v35) (V c main_arg6)) := by
  show (cfg2.win 5).cut (grid2.coords t) ((dat2 V c).after 5 t) = _
  rw [after2_5]
  unfold out2_5
  rw [View.canon_unit_zero hz]
  simp only [View.ld_unit_zero (S := S2000x1) hz, View.ld_unit_zero (S := S2000x128) hz, View.ld_unit_zero (S := S1x128) hz, View.ld_unit_zero (S := S128x16) hz]
  obtain ⟨a00, a01, a10, a11, a20, a21, a50, a51, a60, a61, a30, a31, a40, a41⟩ := idx_facts2 t
  have ht := lt_N2 t
  funext j
  obtain ⟨p, q, rfl⟩ : ∃ (p : Fin 2000) (q : Fin 16), j = ix2 p q := ⟨j 0, j 1, eq_ix2 j⟩
  have hp := p.isLt
  have hq := q.isLt
  refine (pay2_2_at (iblk2 V c 2 t) (iblk2 V c 0 t) (iblk2 V c 1 t) (iblk2 V c 3 t) (iblk2 V c 4 t)
    (V c main_v34) (V c main_v24_0) (V c main_v11) (V c main_v35) (V c main_arg6) p q
    ⟨t.val * 2000 + p.val, by omega⟩ ?_ (fun k => ?_) (fun k => ?_) (fun k => ?_) (fun k => ?_)).trans ?_
  · show V c main_v11 (((cfg2.win 2).blk t).view.emb (ix2 p (0 : Fin 1))) = V c main_v11 _
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  · show V c main_v34 (((cfg2.win 0).blk t).view.emb (ix2 p k)) = V c main_v34 _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_v24_0 (((cfg2.win 1).blk t).view.emb (ix2 p k)) = V c main_v24_0 _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · show V c main_v35 (((cfg2.win 3).blk t).view.emb (ix2 (0 : Fin 1) k)) = V c main_v35 _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · show V c main_arg6 (((cfg2.win 4).blk t).view.emb (ix2 k q)) = V c main_arg6 _
    refine congrArg _ (funext fun a => Fin.ext ?_)
    match a with
    | ⟨0, _⟩ => show win2_4.index t (0 : Fin 2) * 128 + 1 * k.val = k.val; omega
    | ⟨1, _⟩ => show win2_4.index t (1 : Fin 2) * 16 + 1 * q.val = q.val; omega
  · show mm _ _ _ _ = mm _ _ (((cfg2.win 5).blk t).view.emb (ix2 p q) 0) (((cfg2.win 5).blk t).view.emb (ix2 p q) 1)
    refine congrArg₂ (mm _ _) (Fin.ext ?_) (Fin.ext ?_)
    · show t.val * 2000 + p.val = win2_5.index t (0 : Fin 2) * 2000 + 1 * p.val; omega
    · show q.val = win2_5.index t (1 : Fin 2) * 16 + 1 * q.val; omega

/-- Point t writes block t of the second output. -/
theorem flushed2_6_eq (c : Dev nD) (t : Fin cfg2.N) :
    (dat2 (F := Ideal) V c).flushed 6 t
      = ((cfg2.win 6).blk t).view.read (Elt Ideal) (G2_6 (V c main_v34) (V c main_v24_0) (V c main_v11) (V c main_v35) (V c main_arg6)) := by
  show (cfg2.win 6).cut (grid2.coords t) ((dat2 V c).after 6 t) = _
  rw [after2_6]
  unfold out2_6
  rw [View.canon_unit_zero hz]
  simp only [View.ld_unit_zero (S := S2000x1) hz, View.ld_unit_zero (S := S2000x128) hz, View.ld_unit_zero (S := S1x128) hz, View.ld_unit_zero (S := S128x16) hz]
  obtain ⟨a00, a01, a10, a11, a20, a21, a50, a51, a60, a61, a30, a31, a40, a41⟩ := idx_facts2 t
  have ht := lt_N2 t
  funext j
  obtain ⟨p, q, rfl⟩ : ∃ (p : Fin 2000) (q : Fin 16), j = ix2 p q := ⟨j 0, j 1, eq_ix2 j⟩
  have hp := p.isLt
  have hq := q.isLt
  refine (pay2_3_at (iblk2 V c 2 t) (iblk2 V c 0 t) (iblk2 V c 1 t) (iblk2 V c 3 t) (iblk2 V c 4 t)
    (V c main_v34) (V c main_v24_0) (V c main_v11) (V c main_v35) (V c main_arg6) p q
    ⟨t.val * 2000 + p.val, by omega⟩ ?_ (fun k => ?_) (fun k => ?_) (fun k => ?_) (fun k => ?_)).trans ?_
  · show V c main_v11 (((cfg2.win 2).blk t).view.emb (ix2 p (0 : Fin 1))) = V c main_v11 _
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  · show V c main_v34 (((cfg2.win 0).blk t).view.emb (ix2 p k)) = V c main_v34 _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_v24_0 (((cfg2.win 1).blk t).view.emb (ix2 p k)) = V c main_v24_0 _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · show V c main_v35 (((cfg2.win 3).blk t).view.emb (ix2 (0 : Fin 1) k)) = V c main_v35 _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · show V c main_arg6 (((cfg2.win 4).blk t).view.emb (ix2 k q)) = V c main_arg6 _
    refine congrArg _ (funext fun a => Fin.ext ?_)
    match a with
    | ⟨0, _⟩ => show win2_4.index t (0 : Fin 2) * 128 + 1 * k.val = k.val; omega
    | ⟨1, _⟩ => show win2_4.index t (1 : Fin 2) * 16 + 1 * q.val = q.val; omega
  · show scale _ _ _ _ = scale _ _ (((cfg2.win 6).blk t).view.emb (ix2 p q) 0) (((cfg2.win 6).blk t).view.emb (ix2 p q) 1)
    refine congrArg₂ (scale _ _) (Fin.ext ?_) (Fin.ext ?_)
    · show t.val * 2000 + p.val = win2_6.index t (0 : Fin 2) * 2000 + 1 * p.val; omega
    · show q.val = win2_6.index t (1 : Fin 2) * 16 + 1 * q.val; omega

/-! ## The blocks cover the arrays -/

theorem mem_blk2_5 (t : Fin cfg2.N) (i : S50000x16.Idx) :
    i ∈ ((cfg2.win 5).blk t).view.set ↔ ∀ a : Fin 2, win2_5.index t a * S2000x16.size a ≤ (i a).val
      ∧ (i a).val < win2_5.index t a * S2000x16.size a + S2000x16.size a := by
  show i ∈ ((View.whole main_v36_0).slice (win2_5.rect t)).set ↔ _
  rw [View.set_slice_whole, Rect.mem_set_unit]
  exact Iff.rfl

/-- Row r lies in the block of point r / 2000. -/
theorem cover2_5_all (i : S50000x16.Idx) :
    ∃ t : Fin cfg2.N, (cfg2.win 5).flush t = true ∧ i ∈ ((cfg2.win 5).blk t).view.set := by
  have hi0 : (i 0).val < 50000 := (i 0).isLt
  have hi1 : (i 1).val < 16 := (i 1).isLt
  obtain ⟨t, ht⟩ : ∃ t : Fin cfg2.N, t.val = (i 0).val / 2000 :=
    ⟨⟨(i 0).val / 2000, by rw [show cfg2.N = 25 from N_2]; omega⟩, rfl⟩
  obtain ⟨a00, a01, a10, a11, a20, a21, a50, a51, a60, a61, a30, a31, a40, a41⟩ := idx_facts2 t
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 16 ≤ (i 1).val ∧ (i 1).val < win2_5.index t (1 : Fin 2) * 16 + 16; omega

theorem mem_blk2_6 (t : Fin cfg2.N) (i : S50000x16.Idx) :
    i ∈ ((cfg2.win 6).blk t).view.set ↔ ∀ a : Fin 2, win2_6.index t a * S2000x16.size a ≤ (i a).val
      ∧ (i a).val < win2_6.index t a * S2000x16.size a + S2000x16.size a := by
  show i ∈ ((View.whole main_v36_1).slice (win2_6.rect t)).set ↔ _
  rw [View.set_slice_whole, Rect.mem_set_unit]
  exact Iff.rfl

/-- Row r lies in the block of point r / 2000. -/
theorem cover2_6_all (i : S50000x16.Idx) :
    ∃ t : Fin cfg2.N, (cfg2.win 6).flush t = true ∧ i ∈ ((cfg2.win 6).blk t).view.set := by
  have hi0 : (i 0).val < 50000 := (i 0).isLt
  have hi1 : (i 1).val < 16 := (i 1).isLt
  obtain ⟨t, ht⟩ : ∃ t : Fin cfg2.N, t.val = (i 0).val / 2000 :=
    ⟨⟨(i 0).val / 2000, by rw [show cfg2.N = 25 from N_2]; omega⟩, rfl⟩
  obtain ⟨a00, a01, a10, a11, a20, a21, a50, a51, a60, a61, a30, a31, a40, a41⟩ := idx_facts2 t
  refine ⟨t, flush2_6 t, ?_⟩
  rw [mem_blk2_6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 16 ≤ (i 1).val ∧ (i 1).val < win2_6.index t (1 : Fin 2) * 16 + 16; omega

/-! ## The arrays after the region -/

/-- The first output array ends holding the rectified combination times the weights. -/
theorem arr2_5 (c : Dev nD) (v : Fin 50000) (k : Fin 16) :
    ((dat2 (F := Ideal) V c).arrAt 5 cfg2.N) (ix2 v k)
      = mm (relu (combA (mat (V c main_v34 : S50000x128.Idx → EReal)) (mat (V c main_v24_0 : S50000x128.Idx → EReal)) (col (V c main_v11 : S50000x1.Idx → EReal)) (rowv (V c main_v35 : S1x128.Idx → EReal)))) (mat (V c main_arg6 : S128x16.Idx → EReal)) v k :=
  congrFun ((dat2 (F := Ideal) V c).arrAt_eq_of_cover 5 (G2_5 (V c main_v34) (V c main_v24_0) (V c main_v11) (V c main_v35) (V c main_arg6))
    (fun t _ => flushed2_5_eq V c t) cover2_5_all) (ix2 v k)

/-- The second output array ends holding that with each row scaled by its node's factor. -/
theorem arr2_6 (c : Dev nD) (v : Fin 50000) (k : Fin 16) :
    ((dat2 (F := Ideal) V c).arrAt 6 cfg2.N) (ix2 v k)
      = scale (mm (relu (combA (mat (V c main_v34 : S50000x128.Idx → EReal)) (mat (V c main_v24_0 : S50000x128.Idx → EReal)) (col (V c main_v11 : S50000x1.Idx → EReal)) (rowv (V c main_v35 : S1x128.Idx → EReal)))) (mat (V c main_arg6 : S128x16.Idx → EReal))) (col (V c main_v11 : S50000x1.Idx → EReal)) v k :=
  congrFun ((dat2 (F := Ideal) V c).arrAt_eq_of_cover 6 (G2_6 (V c main_v34) (V c main_v24_0) (V c main_v11) (V c main_v35) (V c main_arg6))
    (fun t _ => flushed2_6_eq V c t) cover2_6_all) (ix2 v k)

end Cert.KernelIdeal.RegVal

end
-- ==== Proof.Reg3.lean ====
/-
  Region 3 (the last layer's epilogue): its output array, after the region's write-backs, as one function of the arrays
  the region finds. A 2000-row block is combined row by row: node factor times aggregate, plus its square times the
  features, plus the bias. Row r of the output lies in block r / 2000.
-/
import proofs.«158845_j26817775797032_2_alg».proof.Proof.RegIdx

set_option maxRecDepth 16384

noncomputable section

open scoped BigOperators

namespace Cert.KernelIdeal.RegVal

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payload at a pair of coordinates -/

/-- The combined block at (p, q). -/
theorem pay3_1_apply (v0 : Vec Ideal S2000x1 .f32) (v2 v7 : Vec Ideal S2000x16 .f32) (v12 : Vec Ideal S1x16 .f32)
    (p : Fin 2000) (q : Fin 16) :
    k3_pay1 v0 v2 v7 v12 (ix2 p q)
      = v0 (ix2 p (0 : Fin 1)) * v2 (ix2 p q) + (v0 (ix2 p (0 : Fin 1)) * v0 (ix2 p (0 : Fin 1))) * v7 (ix2 p q)
          + v12 (ix2 (0 : Fin 1) q) := by
  unfold k3_pay1
  show (broadcastTo S2000x16 (shapeCast S2000x1 v0 shapeCasts_S2000x1_S2000x1) broadcasts_S2000x1_S2000x16 (ix2 p q) * shapeCast S2000x16 v2 shapeCasts_S2000x16_S2000x16 (ix2 p q)
      + broadcastTo S2000x16 (mulf (shapeCast S2000x1 v0 shapeCasts_S2000x1_S2000x1 : FVec Ideal S2000x1 .f32) (shapeCast S2000x1 v0 shapeCasts_S2000x1_S2000x1 : FVec Ideal S2000x1 .f32)) broadcasts_S2000x1_S2000x16 (ix2 p q) * shapeCast S2000x16 v7 shapeCasts_S2000x16_S2000x16 (ix2 p q))
      + broadcastTo S2000x16 (shapeCast S1x16 v12 shapeCasts_S1x16_S1x16) broadcasts_S1x16_S2000x16 (ix2 p q) = _
  rw [broadcastTo_a1_ab_apply, broadcastTo_a1_ab_apply, broadcastTo_1b_ab_apply, shapeCast_self, shapeCast_self, shapeCast_self, shapeCast_self]
  rfl

/-! ## The output as a whole-array function -/

abbrev G3_4 (A Hp : S50000x16.Idx → EReal) (D : S50000x1.Idx → EReal) (B : S1x16.Idx → EReal) : S50000x16.Idx → EReal :=
  fun i => combA (mat A) (mat Hp) (col D) (rowv B) (i 0) (i 1)

/-- The payload of blocks that are row v of the row-blocked arrays and the whole of the bias. -/
theorem pay3_1_at (v0 : Vec Ideal S2000x1 .f32) (v2 v7 : Vec Ideal S2000x16 .f32) (v12 : Vec Ideal S1x16 .f32)
    (A Hp : S50000x16.Idx → EReal) (D : S50000x1.Idx → EReal) (B : S1x16.Idx → EReal)
    (p : Fin 2000) (q : Fin 16) (v : Fin 50000)
    (h0 : v0 (ix2 p (0 : Fin 1)) = D (ix2 v (0 : Fin 1)))
    (h2 : v2 (ix2 p q) = A (ix2 v q)) (h7 : v7 (ix2 p q) = Hp (ix2 v q))
    (h12 : v12 (ix2 (0 : Fin 1) q) = B (ix2 (0 : Fin 1) q)) :
    k3_pay1 v0 v2 v7 v12 (ix2 p q) = combA (mat A) (mat Hp) (col D) (rowv B) v q := by
  refine (pay3_1_apply v0 v2 v7 v12 p q).trans ?_
  show _ = D (ix2 v (0 : Fin 1)) * A (ix2 v q) + (D (ix2 v (0 : Fin 1)) * D (ix2 v (0 : Fin 1))) * Hp (ix2 v q) + B (ix2 (0 : Fin 1) q)
  rw [h0, h2, h7, h12]

/-! ## The index maps over the grid -/

/-- The row-blocked windows are at block (t, 0), the bias's window at block (0, 0), at every point t. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_4.index t (0 : Fin 2) = t.val ∧ win3_4.index t (1 : Fin 2) = 0
    ∧ win3_3.index t (0 : Fin 2) = 0 ∧ win3_3.index t (1 : Fin 2) = 0 :=
  (by decide +kernel : ∀ t : Fin grid3.N, _)

theorem lt_N3 (t : Fin cfg3.N) : t.val < 25 := lt_of_lt_of_eq t.isLt N_3

/-! ## What a point writes back -/

/-- Point t writes block t of the output. -/
theorem flushed3_4_eq (c : Dev nD) (t : Fin cfg3.N) :
    (dat3 (F := Ideal) V c).flushed 4 t
      = ((cfg3.win 4).blk t).view.read (Elt Ideal) (G3_4 (V c main_v46) (V c main_v36_0) (V c main_v11) (V c main_v47)) := by
  show (cfg3.win 4).cut (grid3.coords t) ((dat3 V c).after 4 t) = _
  rw [after3_4]
  unfold out3_4
  rw [View.canon_unit_zero hz]
  simp only [View.ld_unit_zero (S := S2000x1) hz, View.ld_unit_zero (S := S2000x16) hz, View.ld_unit_zero (S := S1x16) hz]
  obtain ⟨a00, a01, a10, a11, a20, a21, a40, a41, a30, a31⟩ := idx_facts3 t
  have ht := lt_N3 t
  funext j
  obtain ⟨p, q, rfl⟩ : ∃ (p : Fin 2000) (q : Fin 16), j = ix2 p q := ⟨j 0, j 1, eq_ix2 j⟩
  have hp := p.isLt
  have hq := q.isLt
  refine (pay3_1_at (iblk3 V c 2 t) (iblk3 V c 0 t) (iblk3 V c 1 t) (iblk3 V c 3 t)
    (V c main_v46) (V c main_v36_0) (V c main_v11) (V c main_v47) p q
    ⟨t.val * 2000 + p.val, by omega⟩ ?_ ?_ ?_ ?_).trans ?_
  · show V c main_v11 (((cfg3.win 2).blk t).view.emb (ix2 p (0 : Fin 1))) = V c main_v11 _
    refine congrArg _ (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  · show V c main_v46 (((cfg3.win 0).blk t).view.emb (ix2 p q)) = V c main_v46 _
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 16 + 1 * q.val = q.val; omega
  · show V c main_v36_0 (((cfg3.win 1).blk t).view.emb (ix2 p q)) = V c main_v36_0 _
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 16 + 1 * q.val = q.val; omega
  · show V c main_v47 (((cfg3.win 3).blk t).view.emb (ix2 (0 : Fin 1) q)) = V c main_v47 _
    refine congrArg _ (funext fun a => Fin.ext ?_)
    match a with
    | ⟨0, _⟩ => show win3_3.index t (0 : Fin 2) * 1 + 1 * 0 = 0; omega
    | ⟨1, _⟩ => show win3_3.index t (1 : Fin 2) * 16 + 1 * q.val = q.val; omega
  · show combA _ _ _ _ _ _ = combA _ _ _ _ (((cfg3.win 4).blk t).view.emb (ix2 p q) 0) (((cfg3.win 4).blk t).view.emb (ix2 p q) 1)
    refine congrArg₂ (combA _ _ _ _) (Fin.ext ?_) (Fin.ext ?_)
    · show t.val * 2000 + p.val = win3_4.index t (0 : Fin 2) * 2000 + 1 * p.val; omega
    · show q.val = win3_4.index t (1 : Fin 2) * 16 + 1 * q.val; omega

/-! ## The blocks cover the array -/

theorem mem_blk3_4 (t : Fin cfg3.N) (i : S50000x16.Idx) :
    i ∈ ((cfg3.win 4).blk t).view.set ↔ ∀ a : Fin 2, win3_4.index t a * S2000x16.size a ≤ (i a).val
      ∧ (i a).val < win3_4.index t a * S2000x16.size a + S2000x16.size a := by
  show i ∈ ((View.whole main_v48).slice (win3_4.rect t)).set ↔ _
  rw [View.set_slice_whole, Rect.mem_set_unit]
  exact Iff.rfl

/-- Row r lies in the block of point r / 2000. -/
theorem cover3_4_all (i : S50000x16.Idx) :
    ∃ t : Fin cfg3.N, (cfg3.win 4).flush t = true ∧ i ∈ ((cfg3.win 4).blk t).view.set := by
  have hi0 : (i 0).val < 50000 := (i 0).isLt
  have hi1 : (i 1).val < 16 := (i 1).isLt
  obtain ⟨t, ht⟩ : ∃ t : Fin cfg3.N, t.val = (i 0).val / 2000 :=
    ⟨⟨(i 0).val / 2000, by rw [show cfg3.N = 25 from N_3]; omega⟩, rfl⟩
  obtain ⟨a00, a01, a10, a11, a20, a21, a40, a41, a30, a31⟩ := idx_facts3 t
  refine ⟨t, flush3_4 t, ?_⟩
  rw [mem_blk3_4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 16 ≤ (i 1).val ∧ (i 1).val < win3_4.index t (1 : Fin 2) * 16 + 16; omega

/-! ## The array after the region -/

/-- The output array ends holding the combination. -/
theorem arr3_4 (c : Dev nD) (v : Fin 50000) (k : Fin 16) :
    ((dat3 (F := Ideal) V c).arrAt 4 cfg3.N) (ix2 v k)
      = combA (mat (V c main_v46 : S50000x16.Idx → EReal)) (mat (V c main_v36_0 : S50000x16.Idx → EReal))
          (col (V c main_v11 : S50000x1.Idx → EReal)) (rowv (V c main_v47 : S1x16.Idx → EReal)) v k :=
  congrFun ((dat3 (F := Ideal) V c).arrAt_eq_of_cover 4 (G3_4 (V c main_v46) (V c main_v36_0) (V c main_v11) (V c main_v47))
    (fun t _ => flushed3_4_eq V c t) cover3_4_all) (ix2 v k)

end Cert.KernelIdeal.RegVal

end
-- ==== Proof.KNet.lean ====
/-
  What the idealized kernel's result buffer holds at the last boundary: the factored network of the arguments.

  The contents are followed boundary by boundary. Host stretch 0 leaves the two edge lists (the rows of the edge
  array), and the node factors  dis v = (edges landing on v + 1)^(-1/2). Region 0 leaves h1 = x W1 and h1 scaled by the
  node factors. Each later host stretch leaves the edge aggregate of the scaled features (a gather of source rows summed
  into the destination rows) and the next bias as a row; each later region combines
  dis * aggregate + dis^2 * h + bias, and all but the last take the positive part, multiply by the next weights and
  scale again. Nothing else touches the edge lists, the node factors or the arguments.
-/
import proofs.«158845_j26817775797032_2_alg».proof.Proof.Keep
import proofs.«158845_j26817775797032_2_alg».proof.Proof.HostPure
import proofs.«158845_j26817775797032_2_alg».proof.Proof.Reg0
import proofs.«158845_j26817775797032_2_alg».proof.Proof.Reg1
import proofs.«158845_j26817775797032_2_alg».proof.Proof.Reg2
import proofs.«158845_j26817775797032_2_alg».proof.Proof.Reg3

set_option maxRecDepth 16384

noncomputable section

namespace Cert.KernelIdeal.KValue

open Cert.KernelIdeal Cert.KernelIdeal.Gen Cert.KernelIdeal.RegVal Cert.Gcn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The arguments, as the specification takes them. -/
def aEi : EI := (m ((c : Thread nD τ).loc main_arg1) : S2x640000.Idx → BitVec 32)
def aX : Mat 50000 256 := mat (m ((c : Thread nD τ).loc main_arg0) : S50000x256.Idx → EReal)
def aW1 : Mat 256 128 := mat (m ((c : Thread nD τ).loc main_arg2) : S256x128.Idx → EReal)
def aB1 : Fin 128 → EReal := vec (m ((c : Thread nD τ).loc main_arg3) : S128.Idx → EReal)
def aW2 : Mat 128 128 := mat (m ((c : Thread nD τ).loc main_arg4) : S128x128.Idx → EReal)
def aB2 : Fin 128 → EReal := vec (m ((c : Thread nD τ).loc main_arg5) : S128.Idx → EReal)
def aW3 : Mat 128 16 := mat (m ((c : Thread nD τ).loc main_arg6) : S128x16.Idx → EReal)
def aB3 : Fin 16 → EReal := vec (m ((c : Thread nD τ).loc main_arg7) : S16.Idx → EReal)

/-- The three layers' transformed features. -/
def h1 : Mat 50000 128 := mm (aX m c) (aW1 m c)
def h2 : Mat 50000 128 := mm (relu (comb (aEi m c) (h1 m c) (aB1 m c))) (aW2 m c)
def h3 : Mat 50000 16 := mm (relu (comb (aEi m c) (h2 m c) (aB2 m c))) (aW3 m c)

/-! ## After host stretch 0 -/

/-- The source list is row 0 of the edge array. -/
theorem s1_src (e : Fin 640000) : (W1 m ρ c (Proc.devRef .tc main_v1) : S640000.Idx → BitVec 32) (ix1 e) = srcW (aEi m c) e := by
  have e0 : (W1 m ρ c (Proc.devRef .tc main_v1) : S640000.Idx → BitVec 32)
      = shapeCast S640000 (extractStridedSlice S1x640000 ![0, 0] (W0 m ρ c (Proc.devRef .tc main_arg1) : S2x640000.Idx → BitVec 32)
          slices_S2x640000_S1x640000_0_0) shapeCasts_S1x640000_S640000 := by
    show StableHlo.after hostOps0 _ _ = _; after_results; rfl
  rw [e0]
  exact HostPure.slice_src_apply slices_S2x640000_S1x640000_0_0 shapeCasts_S1x640000_S640000 (aEi m c) e

/-- The destination list is row 1 of the edge array. -/
theorem s1_dst (e : Fin 640000) : (W1 m ρ c (Proc.devRef .tc main_v3) : S640000.Idx → BitVec 32) (ix1 e) = dstW (aEi m c) e := by
  have e0 : (W1 m ρ c (Proc.devRef .tc main_v3) : S640000.Idx → BitVec 32)
      = shapeCast S640000 (extractStridedSlice S1x640000 ![1, 0] (W0 m ρ c (Proc.devRef .tc main_arg1) : S2x640000.Idx → BitVec 32)
          slices_S2x640000_S1x640000_1_0) shapeCasts_S1x640000_S640000 := by
    show StableHlo.after hostOps0 _ _ = _; after_results; rfl
  rw [e0]
  exact HostPure.slice_dst_apply slices_S2x640000_S1x640000_1_0 shapeCasts_S1x640000_S640000 (aEi m c) e

/-- The node factors. -/
theorem s1_dis (v : Fin 50000) : (W1 m ρ c (Proc.devRef .tc main_v11) : S50000x1.Idx → EReal) (ix2 v (0 : Fin 1)) = dis (aEi m c) v := by
  have e0 : (W1 m ρ c (Proc.devRef .tc main_v11) : S50000x1.Idx → EReal)
      = shapeCast S50000x1 (Host.rsqrt (F := Ideal) (φ := .f32) (addf (Host.scatterAdd scatter_S50000_S640000x1_S640000_n_0_0_1
          (broadcastInDim S50000 ![] bcast_S_S50000 (constant (F := Ideal) S_ .f32 0x00000000#32))
          (broadcastInDim S640000x1 ![0] bcast_S640000_S640000x1_0
            (shapeCast S640000 (extractStridedSlice S1x640000 ![1, 0] (W0 m ρ c (Proc.devRef .tc main_arg1) : S2x640000.Idx → BitVec 32)
              slices_S2x640000_S1x640000_1_0) shapeCasts_S1x640000_S640000))
          (broadcastInDim S640000 ![] bcast_S_S640000 (constant (F := Ideal) S_ .f32 0x3F800000#32)))
          (broadcastInDim S50000 ![] bcast_S_S50000 (constant (F := Ideal) S_ .f32 0x3F800000#32)))) shapeCasts_S50000_S50000x1 := by
    show StableHlo.after hostOps0 _ _ = _; after_results; rfl
  rw [e0, HostPure.deg_apply scatter_S50000_S640000x1_S640000_n_0_0_1 rfl rfl rfl rfl]
  unfold dis cnt
  have hd : ∀ e : Fin 640000, shapeCast S640000 (extractStridedSlice S1x640000 ![1, 0] (W0 m ρ c (Proc.devRef .tc main_arg1) : S2x640000.Idx → BitVec 32)
      slices_S2x640000_S1x640000_1_0) shapeCasts_S1x640000_S640000 (ix1 e) = dstW (aEi m c) e :=
    fun e => HostPure.slice_dst_apply slices_S2x640000_S1x640000_1_0 shapeCasts_S1x640000_S640000 (aEi m c) e
  simp only [hd]

/-! ## The edge lists, the node factors and the arguments at every later boundary -/

theorem arg_W1 (r : Ref sig .tc) (h : r ∉ hostOps0_W) : W1 m ρ c (Proc.devRef .tc r) = m ((c : Thread nD τ).loc r) :=
  W1_keep m ρ c r h

theorem keep_W3 (r : Ref sig .tc) (h : r ∉ (hostOps1_W ++ [main_v12_0, main_v12_1] : List (Ref sig .tc))) :
    W3 m ρ c (Proc.devRef .tc r) = W1 m ρ c (Proc.devRef .tc r) :=
  (W3_keep m ρ c r fun hh => h (List.mem_append_left _ hh)).trans (W2_keep m ρ c r fun hh => h (List.mem_append_right _ hh))

theorem keep_W5 (r : Ref sig .tc) (h : r ∉ (hostOps2_W ++ [main_v24_0, main_v24_1] ++ (hostOps1_W ++ [main_v12_0, main_v12_1]) : List (Ref sig .tc))) :
    W5 m ρ c (Proc.devRef .tc r) = W1 m ρ c (Proc.devRef .tc r) :=
  (W5_keep m ρ c r fun hh => h (List.mem_append_left _ (List.mem_append_left _ hh))).trans
    ((W4_keep m ρ c r fun hh => h (List.mem_append_left _ (List.mem_append_right _ hh))).trans
      (keep_W3 m ρ c r fun hh => h (List.mem_append_right _ hh)))

theorem keep_W7 (r : Ref sig .tc) (h : r ∉ (hostOps3_W ++ [main_v36_0, main_v36_1] ++ (hostOps2_W ++ [main_v24_0, main_v24_1] ++ (hostOps1_W ++ [main_v12_0, main_v12_1])) : List (Ref sig .tc))) :
    W7 m ρ c (Proc.devRef .tc r) = W1 m ρ c (Proc.devRef .tc r) :=
  (W7_keep m ρ c r fun hh => h (List.mem_append_left _ (List.mem_append_left _ hh))).trans
    ((W6_keep m ρ c r fun hh => h (List.mem_append_left _ (List.mem_append_right _ hh))).trans
      (keep_W5 m ρ c r fun hh => h (List.mem_append_right _ hh)))

/-! ## Region 0 -/

theorem s2_h (v : Fin 50000) (k : Fin 128) : (W2 m ρ c (Proc.devRef .tc main_v12_0) : S50000x128.Idx → EReal) (ix2 v k) = h1 m c v k := by
  have hA := W2_arr m ρ c 3
  have hv := arr0_3 (V1 m ρ) c v k
  have e0 : (V1 m ρ c main_arg0 : S50000x256.Idx → EReal) = m ((c : Thread nD τ).loc main_arg0) := arg_W1 m ρ c main_arg0 (by decide)
  have e2 : (V1 m ρ c main_arg2 : S256x128.Idx → EReal) = m ((c : Thread nD τ).loc main_arg2) := arg_W1 m ρ c main_arg2 (by decide)
  rw [e0, e2] at hv
  exact (congrFun hA (ix2 v k)).trans hv

theorem s2_hs (v : Fin 50000) (k : Fin 128) :
    (W2 m ρ c (Proc.devRef .tc main_v12_1) : S50000x128.Idx → EReal) (ix2 v k) = scale (h1 m c) (dis (aEi m c)) v k := by
  have hA := W2_arr m ρ c 4
  have hv := arr0_4 (V1 m ρ) c v k
  have e0 : (V1 m ρ c main_arg0 : S50000x256.Idx → EReal) = m ((c : Thread nD τ).loc main_arg0) := arg_W1 m ρ c main_arg0 (by decide)
  have e2 : (V1 m ρ c main_arg2 : S256x128.Idx → EReal) = m ((c : Thread nD τ).loc main_arg2) := arg_W1 m ρ c main_arg2 (by decide)
  have ed : col (V1 m ρ c main_v11 : S50000x1.Idx → EReal) = dis (aEi m c) := funext fun u => s1_dis m ρ c u
  rw [e0, e2, ed] at hv
  exact (congrFun hA (ix2 v k)).trans hv

theorem keep_W2 (r : Ref sig .tc) (h : r ∉ ([main_v12_0, main_v12_1] : List (Ref sig .tc))) :
    W2 m ρ c (Proc.devRef .tc r) = W1 m ρ c (Proc.devRef .tc r) := W2_keep m ρ c r h
theorem keep_W4 (r : Ref sig .tc) (h : r ∉ ([main_v24_0, main_v24_1] ++ (hostOps1_W ++ [main_v12_0, main_v12_1]) : List (Ref sig .tc))) :
    W4 m ρ c (Proc.devRef .tc r) = W1 m ρ c (Proc.devRef .tc r) :=
  (W4_keep m ρ c r fun hh => h (List.mem_append_left _ hh)).trans (keep_W3 m ρ c r fun hh => h (List.mem_append_right _ hh))
theorem keep_W6 (r : Ref sig .tc) (h : r ∉ ([main_v36_0, main_v36_1] ++ (hostOps2_W ++ [main_v24_0, main_v24_1] ++ (hostOps1_W ++ [main_v12_0, main_v12_1])) : List (Ref sig .tc))) :
    W6 m ρ c (Proc.devRef .tc r) = W1 m ρ c (Proc.devRef .tc r) :=
  (W6_keep m ρ c r fun hh => h (List.mem_append_left _ hh)).trans (keep_W5 m ρ c r fun hh => h (List.mem_append_right _ hh))

/-! ## After host stretch 1 -/

/-- The edge aggregate of the scaled features: source rows gathered, summed into the rows their edges land on. -/
theorem sW3_agg (v : Fin 50000) (k : Fin 128) :
    (W3 m ρ c (Proc.devRef .tc main_v22) : S50000x128.Idx → EReal) (ix2 v k) = aggE (aEi m c) (scale (h1 m c) (dis (aEi m c))) v k := by
  have e0 : (W3 m ρ c (Proc.devRef .tc main_v22) : S50000x128.Idx → EReal)
      = Host.scatterAdd (F := Ideal) (φ := .f32) scatter_S50000x128_S640000x1_S640000x128_1_0_0_1
          (broadcastInDim S50000x128 ![] bcast_S_S50000x128 (constant (F := Ideal) S_ .f32 0x00000000#32))
          (broadcastInDim S640000x1 ![0] bcast_S640000_S640000x1_0 (W2 m ρ c (Proc.devRef .tc main_v3) : S640000.Idx → BitVec 32))
          (Host.gather gather_S50000x128_S640000x1_S640000x128_1_0_n_n_0_1_1128 (W2 m ρ c (Proc.devRef .tc main_v12_1) : S50000x128.Idx → EReal)
            (broadcastInDim S640000x1 ![0] bcast_S640000_S640000x1_0
              (select (cmpi .slt (W2 m ρ c (Proc.devRef .tc main_v1) : S640000.Idx → BitVec 32) (broadcastInDim S640000 ![] bcast_S_S640000 (constantI S_ 32 0#32)))
                (addi (W2 m ρ c (Proc.devRef .tc main_v1) : S640000.Idx → BitVec 32) (broadcastInDim S640000 ![] bcast_S_S640000 (constantI S_ 32 50000#32)))
                (W2 m ρ c (Proc.devRef .tc main_v1) : S640000.Idx → BitVec 32)))) := by
    show StableHlo.after hostOps1 _ _ = _; after_results
  rw [e0, HostPure.agg_apply scatter_S50000x128_S640000x1_S640000x128_1_0_0_1 rfl rfl rfl rfl gather_S50000x128_S640000x1_S640000x128_1_0_n_n_0_1_1128 rfl rfl rfl rfl rfl rfl rfl]
  unfold aggE
  have hsrc : ∀ e : Fin 640000, (W2 m ρ c (Proc.devRef .tc main_v1) : S640000.Idx → BitVec 32) (ix1 e) = srcW (aEi m c) e :=
    fun e => (congrFun (keep_W2 m ρ c main_v1 (by decide)) (ix1 e)).trans (s1_src m ρ c e)
  have hdst : ∀ e : Fin 640000, (W2 m ρ c (Proc.devRef .tc main_v3) : S640000.Idx → BitVec 32) (ix1 e) = dstW (aEi m c) e :=
    fun e => (congrFun (keep_W2 m ρ c main_v3 (by decide)) (ix1 e)).trans (s1_dst m ρ c e)
  simp only [hsrc, hdst, s2_hs m ρ c]

/-- The layer's bias as a row. -/
theorem sW3_bias (k : Fin 128) : (W3 m ρ c (Proc.devRef .tc main_v23) : S1x128.Idx → EReal) (ix2 (0 : Fin 1) k) = aB1 m c k := by
  have e0 : (W3 m ρ c (Proc.devRef .tc main_v23) : S1x128.Idx → EReal)
      = shapeCast S1x128 (W2 m ρ c (Proc.devRef .tc main_arg3) : S128.Idx → EReal) shapeCasts_S128_S1x128 := by
    show StableHlo.after hostOps1 _ _ = _; after_results; rfl
  rw [e0, HostPure.bias_row_apply]
  exact congrFun ((keep_W2 m ρ c main_arg3 (by decide)).trans (arg_W1 m ρ c main_arg3 (by decide))) (ix1 k)

/-! ## Region 1 -/

theorem r1_inputs :
    mat (V3 m ρ c main_v22 : S50000x128.Idx → EReal) = aggE (aEi m c) (scale (h1 m c) (dis (aEi m c)))
    ∧ mat (V3 m ρ c main_v12_0 : S50000x128.Idx → EReal) = h1 m c
    ∧ col (V3 m ρ c main_v11 : S50000x1.Idx → EReal) = dis (aEi m c)
    ∧ rowv (V3 m ρ c main_v23 : S1x128.Idx → EReal) = aB1 m c :=
  ⟨funext fun u => funext fun j => sW3_agg m ρ c u j,
   funext fun u => funext fun j => (congrFun (W3_keep m ρ c main_v12_0 (by decide)) (ix2 u j)).trans (s2_h m ρ c u j),
   funext fun u => (congrFun (keep_W3 m ρ c main_v11 (by decide)) (ix2 u (0 : Fin 1))).trans (s1_dis m ρ c u),
   funext fun j => sW3_bias m ρ c j⟩

theorem sW4_h (v : Fin 50000) (k : Fin 128) : (W4 m ρ c (Proc.devRef .tc main_v24_0) : S50000x128.Idx → EReal) (ix2 v k) = h2 m c v k := by
  have hA := W4_arr m ρ c 5
  have hv := arr1_5 (V3 m ρ) c v k
  obtain ⟨eA, eH, eD, eB⟩ := r1_inputs m ρ c
  have eW : (V3 m ρ c main_arg4 : S128x128.Idx → EReal) = m ((c : Thread nD τ).loc main_arg4) :=
    (keep_W3 m ρ c main_arg4 (by decide)).trans (arg_W1 m ρ c main_arg4 (by decide))
  rw [eA, eH, eD, eB, eW] at hv
  exact (congrFun hA (ix2 v k)).trans hv

theorem sW4_hs (v : Fin 50000) (k : Fin 128) :
    (W4 m ρ c (Proc.devRef .tc main_v24_1) : S50000x128.Idx → EReal) (ix2 v k) = scale (h2 m c) (dis (aEi m c)) v k := by
  have hA := W4_arr m ρ c 6
  have hv := arr1_6 (V3 m ρ) c v k
  obtain ⟨eA, eH, eD, eB⟩ := r1_inputs m ρ c
  have eW : (V3 m ρ c main_arg4 : S128x128.Idx → EReal) = m ((c : Thread nD τ).loc main_arg4) :=
    (keep_W3 m ρ c main_arg4 (by decide)).trans (arg_W1 m ρ c main_arg4 (by decide))
  rw [eA, eH, eD, eB, eW] at hv
  exact (congrFun hA (ix2 v k)).trans hv

/-! ## After host stretch 2 -/

/-- The edge aggregate of the scaled features: source rows gathered, summed into the rows their edges land on. -/
theorem sW5_agg (v : Fin 50000) (k : Fin 128) :
    (W5 m ρ c (Proc.devRef .tc main_v34) : S50000x128.Idx → EReal) (ix2 v k) = aggE (aEi m c) (scale (h2 m c) (dis (aEi m c))) v k := by
  have e0 : (W5 m ρ c (Proc.devRef .tc main_v34) : S50000x128.Idx → EReal)
      = Host.scatterAdd (F := Ideal) (φ := .f32) scatter_S50000x128_S640000x1_S640000x128_1_0_0_1
          (broadcastInDim S50000x128 ![] bcast_S_S50000x128 (constant (F := Ideal) S_ .f32 0x00000000#32))
          (broadcastInDim S640000x1 ![0] bcast_S640000_S640000x1_0 (W4 m ρ c (Proc.devRef .tc main_v3) : S640000.Idx → BitVec 32))
          (Host.gather gather_S50000x128_S640000x1_S640000x128_1_0_n_n_0_1_1128 (W4 m ρ c (Proc.devRef .tc main_v24_1) : S50000x128.Idx → EReal)
            (broadcastInDim S640000x1 ![0] bcast_S640000_S640000x1_0
              (select (cmpi .slt (W4 m ρ c (Proc.devRef .tc main_v1) : S640000.Idx → BitVec 32) (broadcastInDim S640000 ![] bcast_S_S640000 (constantI S_ 32 0#32)))
                (addi (W4 m ρ c (Proc.devRef .tc main_v1) : S640000.Idx → BitVec 32) (broadcastInDim S640000 ![] bcast_S_S640000 (constantI S_ 32 50000#32)))
                (W4 m ρ c (Proc.devRef .tc main_v1) : S640000.Idx → BitVec 32)))) := by
    show StableHlo.after hostOps2 _ _ = _; after_results
  rw [e0, HostPure.agg_apply scatter_S50000x128_S640000x1_S640000x128_1_0_0_1 rfl rfl rfl rfl gather_S50000x128_S640000x1_S640000x128_1_0_n_n_0_1_1128 rfl rfl rfl rfl rfl rfl rfl]
  unfold aggE
  have hsrc : ∀ e : Fin 640000, (W4 m ρ c (Proc.devRef .tc main_v1) : S640000.Idx → BitVec 32) (ix1 e) = srcW (aEi m c) e :=
    fun e => (congrFun (keep_W4 m ρ c main_v1 (by decide)) (ix1 e)).trans (s1_src m ρ c e)
  have hdst : ∀ e : Fin 640000, (W4 m ρ c (Proc.devRef .tc main_v3) : S640000.Idx → BitVec 32) (ix1 e) = dstW (aEi m c) e :=
    fun e => (congrFun (keep_W4 m ρ c main_v3 (by decide)) (ix1 e)).trans (s1_dst m ρ c e)
  simp only [hsrc, hdst, sW4_hs m ρ c]

/-- The layer's bias as a row. -/
theorem sW5_bias (k : Fin 128) : (W5 m ρ c (Proc.devRef .tc main_v35) : S1x128.Idx → EReal) (ix2 (0 : Fin 1) k) = aB2 m c k := by
  have e0 : (W5 m ρ c (Proc.devRef .tc main_v35) : S1x128.Idx → EReal)
      = shapeCast S1x128 (W4 m ρ c (Proc.devRef .tc main_arg5) : S128.Idx → EReal) shapeCasts_S128_S1x128 := by
    show StableHlo.after hostOps2 _ _ = _; after_results; rfl
  rw [e0, HostPure.bias_row_apply]
  exact congrFun ((keep_W4 m ρ c main_arg5 (by decide)).trans (arg_W1 m ρ c main_arg5 (by decide))) (ix1 k)

/-! ## Region 2 -/

theorem r2_inputs :
    mat (V5 m ρ c main_v34 : S50000x128.Idx → EReal) = aggE (aEi m c) (scale (h2 m c) (dis (aEi m c)))
    ∧ mat (V5 m ρ c main_v24_0 : S50000x128.Idx → EReal) = h2 m c
    ∧ col (V5 m ρ c main_v11 : S50000x1.Idx → EReal) = dis (aEi m c)
    ∧ rowv (V5 m ρ c main_v35 : S1x128.Idx → EReal) = aB2 m c :=
  ⟨funext fun u => funext fun j => sW5_agg m ρ c u j,
   funext fun u => funext fun j => (congrFun (W5_keep m ρ c main_v24_0 (by decide)) (ix2 u j)).trans (sW4_h m ρ c u j),
   funext fun u => (congrFun (keep_W5 m ρ c main_v11 (by decide)) (ix2 u (0 : Fin 1))).trans (s1_dis m ρ c u),
   funext fun j => sW5_bias m ρ c j⟩

theorem sW6_h (v : Fin 50000) (k : Fin 16) : (W6 m ρ c (Proc.devRef .tc main_v36_0) : S50000x16.Idx → EReal) (ix2 v k) = h3 m c v k := by
  have hA := W6_arr m ρ c 5
  have hv := arr2_5 (V5 m ρ) c v k
  obtain ⟨eA, eH, eD, eB⟩ := r2_inputs m ρ c
  have eW : (V5 m ρ c main_arg6 : S128x16.Idx → EReal) = m ((c : Thread nD τ).loc main_arg6) :=
    (keep_W5 m ρ c main_arg6 (by decide)).trans (arg_W1 m ρ c main_arg6 (by decide))
  rw [eA, eH, eD, eB, eW] at hv
  exact (congrFun hA (ix2 v k)).trans hv

theorem sW6_hs (v : Fin 50000) (k : Fin 16) :
    (W6 m ρ c (Proc.devRef .tc main_v36_1) : S50000x16.Idx → EReal) (ix2 v k) = scale (h3 m c) (dis (aEi m c)) v k := by
  have hA := W6_arr m ρ c 6
  have hv := arr2_6 (V5 m ρ) c v k
  obtain ⟨eA, eH, eD, eB⟩ := r2_inputs m ρ c
  have eW : (V5 m ρ c main_arg6 : S128x16.Idx → EReal) = m ((c : Thread nD τ).loc main_arg6) :=
    (keep_W5 m ρ c main_arg6 (by decide)).trans (arg_W1 m ρ c main_arg6 (by decide))
  rw [eA, eH, eD, eB, eW] at hv
  exact (congrFun hA (ix2 v k)).trans hv

/-! ## After host stretch 3 -/

/-- The edge aggregate of the scaled features: source rows gathered, summed into the rows their edges land on. -/
theorem sW7_agg (v : Fin 50000) (k : Fin 16) :
    (W7 m ρ c (Proc.devRef .tc main_v46) : S50000x16.Idx → EReal) (ix2 v k) = aggE (aEi m c) (scale (h3 m c) (dis (aEi m c))) v k := by
  have e0 : (W7 m ρ c (Proc.devRef .tc main_v46) : S50000x16.Idx → EReal)
      = Host.scatterAdd (F := Ideal) (φ := .f32) scatter_S50000x16_S640000x1_S640000x16_1_0_0_1
          (broadcastInDim S50000x16 ![] bcast_S_S50000x16 (constant (F := Ideal) S_ .f32 0x00000000#32))
          (broadcastInDim S640000x1 ![0] bcast_S640000_S640000x1_0 (W6 m ρ c (Proc.devRef .tc main_v3) : S640000.Idx → BitVec 32))
          (Host.gather gather_S50000x16_S640000x1_S640000x16_1_0_n_n_0_1_116 (W6 m ρ c (Proc.devRef .tc main_v36_1) : S50000x16.Idx → EReal)
            (broadcastInDim S640000x1 ![0] bcast_S640000_S640000x1_0
              (select (cmpi .slt (W6 m ρ c (Proc.devRef .tc main_v1) : S640000.Idx → BitVec 32) (broadcastInDim S640000 ![] bcast_S_S640000 (constantI S_ 32 0#32)))
                (addi (W6 m ρ c (Proc.devRef .tc main_v1) : S640000.Idx → BitVec 32) (broadcastInDim S640000 ![] bcast_S_S640000 (constantI S_ 32 50000#32)))
                (W6 m ρ c (Proc.devRef .tc main_v1) : S640000.Idx → BitVec 32)))) := by
    show StableHlo.after hostOps3 _ _ = _; after_results
  rw [e0, HostPure.agg_apply scatter_S50000x16_S640000x1_S640000x16_1_0_0_1 rfl rfl rfl rfl gather_S50000x16_S640000x1_S640000x16_1_0_n_n_0_1_116 rfl rfl rfl rfl rfl rfl rfl]
  unfold aggE
  have hsrc : ∀ e : Fin 640000, (W6 m ρ c (Proc.devRef .tc main_v1) : S640000.Idx → BitVec 32) (ix1 e) = srcW (aEi m c) e :=
    fun e => (congrFun (keep_W6 m ρ c main_v1 (by decide)) (ix1 e)).trans (s1_src m ρ c e)
  have hdst : ∀ e : Fin 640000, (W6 m ρ c (Proc.devRef .tc main_v3) : S640000.Idx → BitVec 32) (ix1 e) = dstW (aEi m c) e :=
    fun e => (congrFun (keep_W6 m ρ c main_v3 (by decide)) (ix1 e)).trans (s1_dst m ρ c e)
  simp only [hsrc, hdst, sW6_hs m ρ c]

/-- The layer's bias as a row. -/
theorem sW7_bias (k : Fin 16) : (W7 m ρ c (Proc.devRef .tc main_v47) : S1x16.Idx → EReal) (ix2 (0 : Fin 1) k) = aB3 m c k := by
  have e0 : (W7 m ρ c (Proc.devRef .tc main_v47) : S1x16.Idx → EReal)
      = shapeCast S1x16 (W6 m ρ c (Proc.devRef .tc main_arg7) : S16.Idx → EReal) shapeCasts_S16_S1x16 := by
    show StableHlo.after hostOps3 _ _ = _; after_results; rfl
  rw [e0, HostPure.bias_row_apply]
  exact congrFun ((keep_W6 m ρ c main_arg7 (by decide)).trans (arg_W1 m ρ c main_arg7 (by decide))) (ix1 k)

/-! ## Region 3 -/

theorem r3_inputs :
    mat (V7 m ρ c main_v46 : S50000x16.Idx → EReal) = aggE (aEi m c) (scale (h3 m c) (dis (aEi m c)))
    ∧ mat (V7 m ρ c main_v36_0 : S50000x16.Idx → EReal) = h3 m c
    ∧ col (V7 m ρ c main_v11 : S50000x1.Idx → EReal) = dis (aEi m c)
    ∧ rowv (V7 m ρ c main_v47 : S1x16.Idx → EReal) = aB3 m c :=
  ⟨funext fun u => funext fun j => sW7_agg m ρ c u j,
   funext fun u => funext fun j => (congrFun (W7_keep m ρ c main_v36_0 (by decide)) (ix2 u j)).trans (sW6_h m ρ c u j),
   funext fun u => (congrFun (keep_W7 m ρ c main_v11 (by decide)) (ix2 u (0 : Fin 1))).trans (s1_dis m ρ c u),
   funext fun j => sW7_bias m ρ c j⟩

/-- THE RESULT: at the last boundary the result buffer holds the factored network of the arguments. -/
theorem W8_result (v : Fin 50000) (k : Fin 16) :
    (W8 m ρ c (Proc.devRef .tc main_v48) : S50000x16.Idx → EReal) (ix2 v k)
      = net (aEi m c) (aX m c) (aW1 m c) (aB1 m c) (aW2 m c) (aB2 m c) (aW3 m c) (aB3 m c) v k := by
  have hA := W8_arr m ρ c 4
  have hv := arr3_4 (V7 m ρ) c v k
  obtain ⟨eA, eH, eD, eB⟩ := r3_inputs m ρ c
  rw [eA, eH, eD, eB] at hv
  exact (congrFun hA (ix2 v k)).trans hv

end Cert.KernelIdeal.KValue

end
-- ==== Proof.RefList.lean ====
/-
  The reference's extended edge lists read entry by entry: the two concatenations of a row of the edge list with the
  node numbers are Spec's srcC and dstC; the index arrays its gathers read are the shifted words nrm of them, and the
  index arrays its scatters read are dstC itself.
-/
import proofs.«158845_j26817775797032_2_alg».proof.Proof.RefReadP
import proofs.«158845_j26817775797032_2_alg».proof.Proof.Spec

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

variable (x1 : S2x640000.Idx → BitVec 32)

/-- The first row of the edge list, flattened. -/
theorem v2_eq (e : Fin 640000) : val_main_v2 (F := Ideal) x1 (ix1 e) = srcW x1 e := by
  rw [val_main_v2_apply, val_main_v1_apply]
  unfold srcW
  congr 1
  funext a
  match a with
  | ⟨0, _⟩ => rfl
  | ⟨1, _⟩ => exact Fin.ext (Nat.mod_eq_of_lt e.isLt)

/-- The second row of the edge list, flattened. -/
theorem v5_eq (e : Fin 640000) : val_main_v5 (F := Ideal) x1 (ix1 e) = dstW x1 e := by
  rw [val_main_v5_apply, val_main_v4_apply]
  unfold dstW
  congr 1
  funext a
  match a with
  | ⟨0, _⟩ => rfl
  | ⟨1, _⟩ => exact Fin.ext (Nat.mod_eq_of_lt e.isLt)

/-- The extended source list: an entry below 640000 is the edge's word, any other the node number. -/
theorem v3_eq (j : Fin 690000) : val_main_v3 (F := Ideal) x1 (ix1 j) = srcC x1 j := by
  unfold val_main_v3 srcC
  by_cases h : j.val < 640000
  · rw [dif_pos h]
    refine (concatenate_pair_apply_left (t := S690000) (s₁ := S640000) (s₂ := S50000) (0 : Fin S690000.rank) _ _ concatenates_S640000_S50000_S690000_d0 (ix1 j) rfl
      (ix1 (⟨j.val, h⟩ : Fin 640000)) (fun b => match b with | ⟨0, _⟩ => rfl)).trans ?_
    exact v2_eq x1 ⟨j.val, h⟩
  · rw [dif_neg h]
    refine (concatenate_pair_apply_right (t := S690000) (s₁ := S640000) (s₂ := S50000) (0 : Fin S690000.rank) _ _ concatenates_S640000_S50000_S690000_d0 (ix1 j) rfl rfl
      (ix1 (⟨j.val - 640000, by omega⟩ : Fin 50000)) (fun b hb => absurd (Subsingleton.elim _ _) hb)
      (by show (j.val - 640000) + 640000 = j.val; omega)).trans ?_
    rfl

/-- The extended destination list. -/
theorem v6_eq (j : Fin 690000) : val_main_v6 (F := Ideal) x1 (ix1 j) = dstC x1 j := by
  unfold val_main_v6 dstC
  by_cases h : j.val < 640000
  · rw [dif_pos h]
    refine (concatenate_pair_apply_left (t := S690000) (s₁ := S640000) (s₂ := S50000) (0 : Fin S690000.rank) _ _ concatenates_S640000_S50000_S690000_d0 (ix1 j) rfl
      (ix1 (⟨j.val, h⟩ : Fin 640000)) (fun b => match b with | ⟨0, _⟩ => rfl)).trans ?_
    exact v5_eq x1 ⟨j.val, h⟩
  · rw [dif_neg h]
    refine (concatenate_pair_apply_right (t := S690000) (s₁ := S640000) (s₂ := S50000) (0 : Fin S690000.rank) _ _ concatenates_S640000_S50000_S690000_d0 (ix1 j) rfl rfl
      (ix1 (⟨j.val - 640000, by omega⟩ : Fin 50000)) (fun b hb => absurd (Subsingleton.elim _ _) hb)
      (by show (j.val - 640000) + 640000 = j.val; omega)).trans ?_
    rfl

/-! ## The shifted words: compare with 0, add 50000, select -/

theorem v21_eq (j : Fin 690000) : val_main_v21 (F := Ideal) x1 (ix1 j) = nrm (srcC x1 j) := by
  rw [val_main_v21_apply, val_main_v18_apply, val_main_v20_apply, val_main_v17_apply, val_main_v19_apply,
    val_main_c_apply, val_main_c_4_apply, v3_eq]
  rfl

theorem v28_eq (j : Fin 690000) : val_main_v28 (F := Ideal) x1 (ix1 j) = nrm (dstC x1 j) := by
  rw [val_main_v28_apply, val_main_v25_apply, val_main_v27_apply, val_main_v24_apply, val_main_v26_apply,
    val_main_c_5_apply, val_main_c_6_apply, v6_eq]
  rfl

theorem v37_eq (j : Fin 690000) : val_main_v37 (F := Ideal) x1 (ix1 j) = nrm (srcC x1 j) := by
  rw [val_main_v37_apply, val_main_v34_apply, val_main_v36_apply, val_main_v33_apply, val_main_v35_apply,
    val_main_c_7_apply, val_main_c_8_apply, v3_eq]
  rfl

theorem v55_eq (j : Fin 690000) : val_main_v55 (F := Ideal) x1 (ix1 j) = nrm (srcC x1 j) := by
  rw [val_main_v55_apply, val_main_v52_apply, val_main_v54_apply, val_main_v51_apply, val_main_v53_apply,
    val_main_c_10_apply, val_main_c_11_apply, v3_eq]
  rfl

theorem v73_eq (j : Fin 690000) : val_main_v73 (F := Ideal) x1 (ix1 j) = nrm (srcC x1 j) := by
  rw [val_main_v73_apply, val_main_v70_apply, val_main_v72_apply, val_main_v69_apply, val_main_v71_apply,
    val_main_c_13_apply, val_main_c_14_apply, v3_eq]
  rfl

/-! ## The one-column index arrays the gathers and the scatters read -/

theorem v22_eq (j : Fin 690000) : val_main_v22 (F := Ideal) x1 (ix2 j (0 : Fin 1)) = nrm (srcC x1 j) := by
  have e : idx_main_v22 (ix2 j (0 : Fin 1)) = ix1 j := by funext a; match a with | ⟨0, _⟩ => rfl
  rw [val_main_v22_apply, e]
  exact v21_eq x1 j

theorem v29_eq (j : Fin 690000) : val_main_v29 (F := Ideal) x1 (ix2 j (0 : Fin 1)) = nrm (dstC x1 j) := by
  have e : idx_main_v29 (ix2 j (0 : Fin 1)) = ix1 j := by funext a; match a with | ⟨0, _⟩ => rfl
  rw [val_main_v29_apply, e]
  exact v28_eq x1 j

theorem v38_eq (j : Fin 690000) : val_main_v38 (F := Ideal) x1 (ix2 j (0 : Fin 1)) = nrm (srcC x1 j) := by
  have e : idx_main_v38 (ix2 j (0 : Fin 1)) = ix1 j := by funext a; match a with | ⟨0, _⟩ => rfl
  rw [val_main_v38_apply, e]
  exact v37_eq x1 j

theorem v56_eq (j : Fin 690000) : val_main_v56 (F := Ideal) x1 (ix2 j (0 : Fin 1)) = nrm (srcC x1 j) := by
  have e : idx_main_v56 (ix2 j (0 : Fin 1)) = ix1 j := by funext a; match a with | ⟨0, _⟩ => rfl
  rw [val_main_v56_apply, e]
  exact v55_eq x1 j

theorem v74_eq (j : Fin 690000) : val_main_v74 (F := Ideal) x1 (ix2 j (0 : Fin 1)) = nrm (srcC x1 j) := by
  have e : idx_main_v74 (ix2 j (0 : Fin 1)) = ix1 j := by funext a; match a with | ⟨0, _⟩ => rfl
  rw [val_main_v74_apply, e]
  exact v73_eq x1 j

theorem v9_eq (j : Fin 690000) : val_main_v9 (F := Ideal) x1 (ix2 j (0 : Fin 1)) = dstC x1 j := by
  have e : idx_main_v9 (ix2 j (0 : Fin 1)) = ix1 j := by funext a; match a with | ⟨0, _⟩ => rfl
  rw [val_main_v9_apply, e]
  exact v6_eq x1 j

theorem v44_eq (j : Fin 690000) : val_main_v44 (F := Ideal) x1 (ix2 j (0 : Fin 1)) = dstC x1 j := by
  have e : idx_main_v44 (ix2 j (0 : Fin 1)) = ix1 j := by funext a; match a with | ⟨0, _⟩ => rfl
  rw [val_main_v44_apply, e]
  exact v6_eq x1 j

theorem v62_eq (j : Fin 690000) : val_main_v62 (F := Ideal) x1 (ix2 j (0 : Fin 1)) = dstC x1 j := by
  have e : idx_main_v62 (ix2 j (0 : Fin 1)) = ix1 j := by funext a; match a with | ⟨0, _⟩ => rfl
  rw [val_main_v62_apply, e]
  exact v6_eq x1 j

theorem v80_eq (j : Fin 690000) : val_main_v80 (F := Ideal) x1 (ix2 j (0 : Fin 1)) = dstC x1 j := by
  have e : idx_main_v80 (ix2 j (0 : Fin 1)) = ix1 j := by funext a; match a with | ⟨0, _⟩ => rfl
  rw [val_main_v80_apply, e]
  exact v6_eq x1 j

end Cert.ReferenceIdeal.RefValue

end
-- ==== Proof.RefNorm.lean ====
/-
  The reference's degree and node factor, read node by node and entry by entry: the scatter of ones along the extended
  destination list counts the landing entries (Spec's cntR), the guarded inverse square root of it is Spec's disR, the two
  gathers read disR at the rows the shifted source and destination words name, and their product is an entry's weight.
-/
import proofs.«158845_j26817775797032_2_alg».proof.Proof.RefList
import proofs.«158845_j26817775797032_2_alg».proof.Proof.LibGatherScatter

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

open Cert.GatherScatter

variable (x1 : S2x640000.Idx → BitVec 32)

/-- The word a gather clamps, once the index array is known to hold the shifted word, names Spec's row. -/
theorem row_of_word {w w' : BitVec 32} (h : w' = nrm w) (p : min w'.toInt.toNat (50000 - 1) < 50000) :
    (⟨min w'.toInt.toNat (50000 - 1), p⟩ : Fin 50000) = row w := by
  subst h; rfl

/-- On extended reals the host's accumulating scatter is the exact one: each element plus the sum of the updates landing on it. -/
theorem scatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- The degree scatter is the ideal accumulating scatter of the three stages. -/
theorem v10_unfold (v : Fin 50000) :
    val_main_v10 (F := Ideal) x1 (ix1 v)
      = Ideal.hostScatterAdd scatter_S50000_S690000x1_S690000_n_0_0_1 (val_main_v8 (F := Ideal))
          (val_main_v9 (F := Ideal) x1) (val_main_v7 (F := Ideal)) (ix1 v) := by
  unfold val_main_v10
  exact congrFun (scatterAdd_ideal scatter_S50000_S690000x1_S690000_n_0_0_1 (val_main_v8 (F := Ideal))
    (val_main_v9 (F := Ideal) x1) (val_main_v7 (F := Ideal))) (ix1 v)

/-- Read at a node: the initial value plus the updates of the entries whose index word is the node. -/
theorem v10_raw (v : Fin 50000) :
    Ideal.hostScatterAdd scatter_S50000_S690000x1_S690000_n_0_0_1 (val_main_v8 (F := Ideal))
        (val_main_v9 (F := Ideal) x1) (val_main_v7 (F := Ideal)) (ix1 v)
      = val_main_v8 (F := Ideal) (ix1 v)
        + ∑ e ∈ Finset.univ.filter (fun e : Fin 690000 =>
            (val_main_v9 (F := Ideal) x1 (ix2 e (0 : Fin 1))).toInt = (v.val : Int)), val_main_v7 (F := Ideal) (ix1 e) :=
  scatterAdd_vec_apply scatter_S50000_S690000x1_S690000_n_0_0_1 rfl rfl rfl rfl
    (val_main_v8 (F := Ideal)) (val_main_v9 (F := Ideal) x1) (val_main_v7 (F := Ideal)) v

/-- The initial value is the zero word, an update the one word, an index word the extended destination list's. -/
theorem v10_sum (v : Fin 50000) :
    val_main_v8 (F := Ideal) (ix1 v)
        + ∑ e ∈ Finset.univ.filter (fun e : Fin 690000 =>
            (val_main_v9 (F := Ideal) x1 (ix2 e (0 : Fin 1))).toInt = (v.val : Int)), val_main_v7 (F := Ideal) (ix1 e)
      = zero32 + cntR x1 v := by
  rw [val_main_v8_apply, val_main_cst_0_apply, Ideal.ofBits_def]
  unfold cntR
  refine congrArg₂ (· + ·) rfl (Finset.sum_congr (Finset.filter_congr fun j _ => ?_) fun j _ => ?_)
  · rw [v9_eq]; exact Iff.rfl
  · rw [val_main_v7_apply, val_main_cst_apply, Ideal.ofBits_def]; rfl

/-- The degree: zero plus one for every entry of the extended destination list landing on the node. -/
theorem v10_eq (v : Fin 50000) : val_main_v10 (F := Ideal) x1 (ix1 v) = zero32 + cntR x1 v :=
  (v10_unfold x1 v).trans ((v10_raw x1 v).trans (v10_sum x1 v))

/-- The node factor. -/
theorem v16_eq (v : Fin 50000) : val_main_v16 (F := Ideal) x1 (ix1 v) = disR x1 v := by
  rw [val_main_v16_apply, val_main_v12_apply, val_main_v15_apply, val_main_v14_apply, val_main_v11_apply, val_main_v13_apply,
    val_main_call0_v1_apply, val_main_call0_v0_apply, val_main_cst_1_apply, val_main_cst_2_apply, val_main_cst_3_apply, v10_eq]
  rw [Ideal.cmpf_def, Ideal.hostUnary_rsqrt_def, Ideal.maximumf_def, Ideal.ofBits_def, Ideal.ofBits_def]
  rfl

/-- The node factor gathered at an entry's source row. -/
theorem v23_eq (j : Fin 690000) : val_main_v23 (F := Ideal) x1 (ix1 j) = disR x1 (row (srcC x1 j)) := by
  unfold val_main_v23
  refine (gather_vec_apply (by decide) gather_S50000_S690000x1_S690000_n_0_n_n_0_1_1 rfl rfl rfl rfl rfl rfl rfl
    (val_main_v16 (F := Ideal) x1) (val_main_v22 (F := Ideal) x1) j).trans ?_
  rw [row_of_word (v22_eq x1 j)]
  exact v16_eq x1 _

/-- The node factor gathered at an entry's destination row. -/
theorem v30_eq (j : Fin 690000) : val_main_v30 (F := Ideal) x1 (ix1 j) = disR x1 (row (dstC x1 j)) := by
  unfold val_main_v30
  refine (gather_vec_apply (by decide) gather_S50000_S690000x1_S690000_n_0_n_n_0_1_1 rfl rfl rfl rfl rfl rfl rfl
    (val_main_v16 (F := Ideal) x1) (val_main_v29 (F := Ideal) x1) j).trans ?_
  rw [row_of_word (v29_eq x1 j)]
  exact v16_eq x1 _

/-- An entry's weight. -/
theorem v31_eq (j : Fin 690000) :
    val_main_v31 (F := Ideal) x1 (ix1 j) = disR x1 (row (srcC x1 j)) * disR x1 (row (dstC x1 j)) := by
  rw [val_main_v31_apply, v23_eq, v30_eq]
  rfl

end Cert.ReferenceIdeal.RefValue

end
-- ==== Proof.RefLayer.lean ====
/-
  One layer's scatter-add, generically in its column count: accumulating, into an array of zero words and along the
  extended destination list, entries that are a matrix's row at the entry's source row times the entry's weight, gives
  at node v and column c the zero word plus the sum over the entries landing on v: the sum Spec's convR is written with.
-/
import proofs.«158845_j26817775797032_2_alg».proof.Proof.RefNorm
import proofs.«158845_j26817775797032_2_alg».proof.Proof.LibGatherScatter

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

open Cert.GatherScatter

variable (x1 : S2x640000.Idx → BitVec 32)

theorem conv_of_scatter {C : Nat}
    (d : ScatterDims ⟨2, ![50000, C]⟩ ⟨2, ![690000, 1]⟩ ⟨2, ![690000, C]⟩)
    (huw : d.updateWindowDims = [1]) (hiw : d.insertedWindowDims = [0]) (hsd : d.scatterDimsToOperandDims = [0])
    (hiv : d.indexVectorDim = 1)
    (Z : (⟨2, ![50000, C]⟩ : Shape).Idx → EReal) (idx : IVec ⟨2, ![690000, 1]⟩ 32)
    (U : (⟨2, ![690000, C]⟩ : Shape).Idx → EReal) (H : Mat 50000 C)
    (hZ : ∀ (v : Fin 50000) (c : Fin C), Z (ix2 v c) = zero32)
    (hD : ∀ j : Fin 690000, idx (ix2 j (0 : Fin 1)) = dstC x1 j)
    (hU : ∀ (j : Fin 690000) (c : Fin C),
      U (ix2 j c) = H (row (srcC x1 j)) c * (disR x1 (row (srcC x1 j)) * disR x1 (row (dstC x1 j))))
    (v : Fin 50000) (c : Fin C) :
    Ideal.hostScatterAdd d Z idx U (ix2 v c)
      = zero32 + ∑ j ∈ Finset.univ.filter (fun j : Fin 690000 => lands (dstC x1 j) v),
          H (row (srcC x1 j)) c * (disR x1 (row (srcC x1 j)) * disR x1 (row (dstC x1 j))) := by
  refine (scatterAdd_rows_apply d huw hiw hsd hiv Z idx U v c).trans ?_
  rw [hZ]
  refine congrArg₂ (· + ·) rfl (Finset.sum_congr (Finset.filter_congr fun j _ => ?_) fun j _ => hU j c)
  rw [hD]
  exact Iff.rfl

end Cert.ReferenceIdeal.RefValue

end
-- ==== Proof.RefLayer1.lean ====
/-
  Layer 1 of the reference read index by index: its dot_general is the plain matrix product, the gather reads that
  product's rows at the shifted source words' rows, the multiply weighs every entry, the scatter-add into zeros sums the
  weighted rows over the entries landing on a node, and the bias is added; the positive part follows.
-/
import proofs.«158845_j26817775797032_2_alg».proof.Proof.RefLayer

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

open Cert.GatherScatter

variable (x0 : S50000x256.Idx → EReal) (x1 : S2x640000.Idx → BitVec 32) (x2 : S256x128.Idx → EReal) (x3 : S128.Idx → EReal)

/-- The dot_general at an index is the matrix product's sum. -/
theorem v32_eq (v : Fin 50000) (c : Fin 128) :
    val_main_v32 (F := Ideal) x0 x2 (ix2 v c) = mmR (mat x0) (mat x2) v c := by
  rw [val_main_v32_apply]
  unfold mmR mat
  refine Finset.sum_congr rfl fun k _ => ?_
  have el : lidx_main_v32 (ix2 v c) k = ix2 v k := by funext a; match a with | ⟨0, _⟩ => rfl | ⟨1, _⟩ => rfl
  have er : ridx_main_v32 (ix2 v c) k = ix2 k c := by funext a; match a with | ⟨0, _⟩ => rfl | ⟨1, _⟩ => rfl
  rw [el, er]

/-- The gathered row of an entry is the product's row at the entry's source row. -/
theorem v39_eq (j : Fin 690000) (c : Fin 128) :
    val_main_v39 (F := Ideal) x0 x1 x2 (ix2 j c) = val_main_v32 (F := Ideal) x0 x2 (ix2 (row (srcC x1 j)) c) := by
  unfold val_main_v39
  refine (gather_rows_apply (by decide) gather_S50000x128_S690000x1_S690000x128_1_0_n_n_0_1_1128 rfl rfl rfl rfl rfl rfl rfl
    (val_main_v32 (F := Ideal) x0 x2) (val_main_v38 (F := Ideal) x1) j c).trans ?_
  rw [row_of_word (v38_eq x1 j)]

/-- The broadcast weight of an entry. -/
theorem v41_eq (j : Fin 690000) (c : Fin 128) :
    val_main_v41 (F := Ideal) x1 (ix2 j c) = disR x1 (row (srcC x1 j)) * disR x1 (row (dstC x1 j)) := by
  have e1 : idx_main_v41 (ix2 j c) = ix2 j (0 : Fin 1) := by funext a; match a with | ⟨0, _⟩ => rfl | ⟨1, _⟩ => rfl
  have e2 : idx_main_v40 (ix2 j (0 : Fin 1)) = ix1 j := by funext a; match a with | ⟨0, _⟩ => rfl
  rw [val_main_v41_apply, e1, val_main_v40_apply, e2]
  exact v31_eq x1 j

/-- A weighted gathered row. -/
theorem v42_eq (j : Fin 690000) (c : Fin 128) :
    val_main_v42 (F := Ideal) x0 x1 x2 (ix2 j c) = mmR (mat x0) (mat x2) (row (srcC x1 j)) c * (disR x1 (row (srcC x1 j)) * disR x1 (row (dstC x1 j))) := by
  rw [val_main_v42_apply, v39_eq, v41_eq, v32_eq, Ideal.mulf_def]

/-- The array the scatter accumulates into is the zero word everywhere. -/
theorem v43_eq (v : Fin 50000) (c : Fin 128) : val_main_v43 (F := Ideal) (ix2 v c) = zero32 := by
  rw [val_main_v43_apply, val_main_cst_9_apply, Ideal.ofBits_def]
  rfl

/-- The broadcast bias. -/
theorem v47_eq (v : Fin 50000) (c : Fin 128) : val_main_v47 (F := Ideal) x3 (ix2 v c) = vec x3 c := by
  have e1 : idx_main_v47 (ix2 v c) = ix2 (0 : Fin 1) c := by funext a; match a with | ⟨0, _⟩ => rfl | ⟨1, _⟩ => rfl
  have e2 : idx_main_v46 (ix2 (0 : Fin 1) c) = ix1 c := by funext a; match a with | ⟨0, _⟩ => rfl
  rw [val_main_v47_apply, e1, val_main_v46_apply, e2]
  rfl

/-- The scatter-add at a node and a column: the zero word plus the weighted rows of the landing entries. -/
theorem v45_eq (v : Fin 50000) (c : Fin 128) :
    val_main_v45 (F := Ideal) x0 x1 x2 (ix2 v c)
      = zero32 + ∑ j ∈ Finset.univ.filter (fun j : Fin 690000 => lands (dstC x1 j) v),
          mmR (mat x0) (mat x2) (row (srcC x1 j)) c * (disR x1 (row (srcC x1 j)) * disR x1 (row (dstC x1 j))) := by
  unfold val_main_v45
  refine (congrFun (scatterAdd_ideal scatter_S50000x128_S690000x1_S690000x128_1_0_0_1 (val_main_v43 (F := Ideal)) (val_main_v44 (F := Ideal) x1)
    (val_main_v42 (F := Ideal) x0 x1 x2)) (ix2 v c)).trans ?_
  exact conv_of_scatter x1 scatter_S50000x128_S690000x1_S690000x128_1_0_0_1 rfl rfl rfl rfl
    (val_main_v43 (F := Ideal)) (val_main_v44 (F := Ideal) x1) (val_main_v42 (F := Ideal) x0 x1 x2)
    (mmR (mat x0) (mat x2)) (fun v c => v43_eq v c) (fun j => v44_eq x1 j)
    (fun j c => v42_eq x0 x1 x2 j c) v c

/-- The layer before its positive part: Spec's convR over the matrix product. -/
theorem v48_eq (v : Fin 50000) (c : Fin 128) :
    val_main_v48 (F := Ideal) x0 x1 x2 x3 (ix2 v c) = convR x1 (mmR (mat x0) (mat x2)) (vec x3) v c := by
  rw [val_main_v48_apply, v45_eq, v47_eq, Ideal.addf_def]
  unfold convR
  rfl

/-- The layer's result: the positive part. -/
theorem v49_eq (v : Fin 50000) (c : Fin 128) :
    val_main_v49 (F := Ideal) x0 x1 x2 x3 (ix2 v c) = relu (convR x1 (mmR (mat x0) (mat x2)) (vec x3)) v c := by
  rw [val_main_v49_apply, val_main_call1_v0_apply, val_main_call1_cst_apply, v48_eq, Ideal.maximumf_def, Ideal.ofBits_def]
  unfold relu
  rfl

end Cert.ReferenceIdeal.RefValue

end
-- ==== Proof.RefLayer2.lean ====
/-
  Layer 2 of the reference read index by index: its dot_general is the plain matrix product, the gather reads that
  product's rows at the shifted source words' rows, the multiply weighs every entry, the scatter-add into zeros sums the
  weighted rows over the entries landing on a node, and the bias is added; the positive part follows.
-/
import proofs.«158845_j26817775797032_2_alg».proof.Proof.RefLayer

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

open Cert.GatherScatter

variable (x0 : S50000x256.Idx → EReal) (x1 : S2x640000.Idx → BitVec 32) (x2 : S256x128.Idx → EReal) (x3 : S128.Idx → EReal) (x4 : S128x128.Idx → EReal) (x5 : S128.Idx → EReal)

/-- The dot_general at an index is the matrix product's sum. -/
theorem v50_eq (v : Fin 50000) (c : Fin 128) :
    val_main_v50 (F := Ideal) x0 x1 x2 x3 x4 (ix2 v c) = mmR (mat (val_main_v49 (F := Ideal) x0 x1 x2 x3)) (mat x4) v c := by
  rw [val_main_v50_apply]
  unfold mmR mat
  refine Finset.sum_congr rfl fun k _ => ?_
  have el : lidx_main_v50 (ix2 v c) k = ix2 v k := by funext a; match a with | ⟨0, _⟩ => rfl | ⟨1, _⟩ => rfl
  have er : ridx_main_v50 (ix2 v c) k = ix2 k c := by funext a; match a with | ⟨0, _⟩ => rfl | ⟨1, _⟩ => rfl
  rw [el, er]

/-- The gathered row of an entry is the product's row at the entry's source row. -/
theorem v57_eq (j : Fin 690000) (c : Fin 128) :
    val_main_v57 (F := Ideal) x0 x1 x2 x3 x4 (ix2 j c) = val_main_v50 (F := Ideal) x0 x1 x2 x3 x4 (ix2 (row (srcC x1 j)) c) := by
  unfold val_main_v57
  refine (gather_rows_apply (by decide) gather_S50000x128_S690000x1_S690000x128_1_0_n_n_0_1_1128 rfl rfl rfl rfl rfl rfl rfl
    (val_main_v50 (F := Ideal) x0 x1 x2 x3 x4) (val_main_v56 (F := Ideal) x1) j c).trans ?_
  rw [row_of_word (v56_eq x1 j)]

/-- The broadcast weight of an entry. -/
theorem v59_eq (j : Fin 690000) (c : Fin 128) :
    val_main_v59 (F := Ideal) x1 (ix2 j c) = disR x1 (row (srcC x1 j)) * disR x1 (row (dstC x1 j)) := by
  have e1 : idx_main_v59 (ix2 j c) = ix2 j (0 : Fin 1) := by funext a; match a with | ⟨0, _⟩ => rfl | ⟨1, _⟩ => rfl
  have e2 : idx_main_v58 (ix2 j (0 : Fin 1)) = ix1 j := by funext a; match a with | ⟨0, _⟩ => rfl
  rw [val_main_v59_apply, e1, val_main_v58_apply, e2]
  exact v31_eq x1 j

/-- A weighted gathered row. -/
theorem v60_eq (j : Fin 690000) (c : Fin 128) :
    val_main_v60 (F := Ideal) x0 x1 x2 x3 x4 (ix2 j c) = mmR (mat (val_main_v49 (F := Ideal) x0 x1 x2 x3)) (mat x4) (row (srcC x1 j)) c * (disR x1 (row (srcC x1 j)) * disR x1 (row (dstC x1 j))) := by
  rw [val_main_v60_apply, v57_eq, v59_eq, v50_eq, Ideal.mulf_def]

/-- The array the scatter accumulates into is the zero word everywhere. -/
theorem v61_eq (v : Fin 50000) (c : Fin 128) : val_main_v61 (F := Ideal) (ix2 v c) = zero32 := by
  rw [val_main_v61_apply, val_main_cst_12_apply, Ideal.ofBits_def]
  rfl

/-- The broadcast bias. -/
theorem v65_eq (v : Fin 50000) (c : Fin 128) : val_main_v65 (F := Ideal) x5 (ix2 v c) = vec x5 c := by
  have e1 : idx_main_v65 (ix2 v c) = ix2 (0 : Fin 1) c := by funext a; match a with | ⟨0, _⟩ => rfl | ⟨1, _⟩ => rfl
  have e2 : idx_main_v64 (ix2 (0 : Fin 1) c) = ix1 c := by funext a; match a with | ⟨0, _⟩ => rfl
  rw [val_main_v65_apply, e1, val_main_v64_apply, e2]
  rfl

/-- The scatter-add at a node and a column: the zero word plus the weighted rows of the landing entries. -/
theorem v63_eq (v : Fin 50000) (c : Fin 128) :
    val_main_v63 (F := Ideal) x0 x1 x2 x3 x4 (ix2 v c)
      = zero32 + ∑ j ∈ Finset.univ.filter (fun j : Fin 690000 => lands (dstC x1 j) v),
          mmR (mat (val_main_v49 (F := Ideal) x0 x1 x2 x3)) (mat x4) (row (srcC x1 j)) c * (disR x1 (row (srcC x1 j)) * disR x1 (row (dstC x1 j))) := by
  unfold val_main_v63
  refine (congrFun (scatterAdd_ideal scatter_S50000x128_S690000x1_S690000x128_1_0_0_1 (val_main_v61 (F := Ideal)) (val_main_v62 (F := Ideal) x1)
    (val_main_v60 (F := Ideal) x0 x1 x2 x3 x4)) (ix2 v c)).trans ?_
  exact conv_of_scatter x1 scatter_S50000x128_S690000x1_S690000x128_1_0_0_1 rfl rfl rfl rfl
    (val_main_v61 (F := Ideal)) (val_main_v62 (F := Ideal) x1) (val_main_v60 (F := Ideal) x0 x1 x2 x3 x4)
    (mmR (mat (val_main_v49 (F := Ideal) x0 x1 x2 x3)) (mat x4)) (fun v c => v61_eq v c) (fun j => v62_eq x1 j)
    (fun j c => v60_eq x0 x1 x2 x3 x4 j c) v c

/-- The layer before its positive part: Spec's convR over the matrix product. -/
theorem v66_eq (v : Fin 50000) (c : Fin 128) :
    val_main_v66 (F := Ideal) x0 x1 x2 x3 x4 x5 (ix2 v c) = convR x1 (mmR (mat (val_main_v49 (F := Ideal) x0 x1 x2 x3)) (mat x4)) (vec x5) v c := by
  rw [val_main_v66_apply, v63_eq, v65_eq, Ideal.addf_def]
  unfold convR
  rfl

/-- The layer's result: the positive part. -/
theorem v67_eq (v : Fin 50000) (c : Fin 128) :
    val_main_v67 (F := Ideal) x0 x1 x2 x3 x4 x5 (ix2 v c) = relu (convR x1 (mmR (mat (val_main_v49 (F := Ideal) x0 x1 x2 x3)) (mat x4)) (vec x5)) v c := by
  rw [val_main_v67_apply, val_main_call2_v0_apply, val_main_call2_cst_apply, v66_eq, Ideal.maximumf_def, Ideal.ofBits_def]
  unfold relu
  rfl

end Cert.ReferenceIdeal.RefValue

end
-- ==== Proof.RefLayer3.lean ====
/-
  Layer 3 of the reference read index by index: its dot_general is the plain matrix product, the gather reads that
  product's rows at the shifted source words' rows, the multiply weighs every entry, the scatter-add into zeros sums the
  weighted rows over the entries landing on a node, and the bias is added.
-/
import proofs.«158845_j26817775797032_2_alg».proof.Proof.RefLayer

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

open Cert.GatherScatter

variable (x0 : S50000x256.Idx → EReal) (x1 : S2x640000.Idx → BitVec 32) (x2 : S256x128.Idx → EReal) (x3 : S128.Idx → EReal) (x4 : S128x128.Idx → EReal) (x5 : S128.Idx → EReal) (x6 : S128x16.Idx → EReal) (x7 : S16.Idx → EReal)

/-- The dot_general at an index is the matrix product's sum. -/
theorem v68_eq (v : Fin 50000) (c : Fin 16) :
    val_main_v68 (F := Ideal) x0 x1 x2 x3 x4 x5 x6 (ix2 v c) = mmR (mat (val_main_v67 (F := Ideal) x0 x1 x2 x3 x4 x5)) (mat x6) v c := by
  rw [val_main_v68_apply]
  unfold mmR mat
  refine Finset.sum_congr rfl fun k _ => ?_
  have el : lidx_main_v68 (ix2 v c) k = ix2 v k := by funext a; match a with | ⟨0, _⟩ => rfl | ⟨1, _⟩ => rfl
  have er : ridx_main_v68 (ix2 v c) k = ix2 k c := by funext a; match a with | ⟨0, _⟩ => rfl | ⟨1, _⟩ => rfl
  rw [el, er]

/-- The gathered row of an entry is the product's row at the entry's source row. -/
theorem v75_eq (j : Fin 690000) (c : Fin 16) :
    val_main_v75 (F := Ideal) x0 x1 x2 x3 x4 x5 x6 (ix2 j c) = val_main_v68 (F := Ideal) x0 x1 x2 x3 x4 x5 x6 (ix2 (row (srcC x1 j)) c) := by
  unfold val_main_v75
  refine (gather_rows_apply (by decide) gather_S50000x16_S690000x1_S690000x16_1_0_n_n_0_1_116 rfl rfl rfl rfl rfl rfl rfl
    (val_main_v68 (F := Ideal) x0 x1 x2 x3 x4 x5 x6) (val_main_v74 (F := Ideal) x1) j c).trans ?_
  rw [row_of_word (v74_eq x1 j)]

/-- The broadcast weight of an entry. -/
theorem v77_eq (j : Fin 690000) (c : Fin 16) :
    val_main_v77 (F := Ideal) x1 (ix2 j c) = disR x1 (row (srcC x1 j)) * disR x1 (row (dstC x1 j)) := by
  have e1 : idx_main_v77 (ix2 j c) = ix2 j (0 : Fin 1) := by funext a; match a with | ⟨0, _⟩ => rfl | ⟨1, _⟩ => rfl
  have e2 : idx_main_v76 (ix2 j (0 : Fin 1)) = ix1 j := by funext a; match a with | ⟨0, _⟩ => rfl
  rw [val_main_v77_apply, e1, val_main_v76_apply, e2]
  exact v31_eq x1 j

/-- A weighted gathered row. -/
theorem v78_eq (j : Fin 690000) (c : Fin 16) :
    val_main_v78 (F := Ideal) x0 x1 x2 x3 x4 x5 x6 (ix2 j c) = mmR (mat (val_main_v67 (F := Ideal) x0 x1 x2 x3 x4 x5)) (mat x6) (row (srcC x1 j)) c * (disR x1 (row (srcC x1 j)) * disR x1 (row (dstC x1 j))) := by
  rw [val_main_v78_apply, v75_eq, v77_eq, v68_eq, Ideal.mulf_def]

/-- The array the scatter accumulates into is the zero word everywhere. -/
theorem v79_eq (v : Fin 50000) (c : Fin 16) : val_main_v79 (F := Ideal) (ix2 v c) = zero32 := by
  rw [val_main_v79_apply, val_main_cst_15_apply, Ideal.ofBits_def]
  rfl

/-- The broadcast bias. -/
theorem v83_eq (v : Fin 50000) (c : Fin 16) : val_main_v83 (F := Ideal) x7 (ix2 v c) = vec x7 c := by
  have e1 : idx_main_v83 (ix2 v c) = ix2 (0 : Fin 1) c := by funext a; match a with | ⟨0, _⟩ => rfl | ⟨1, _⟩ => rfl
  have e2 : idx_main_v82 (ix2 (0 : Fin 1) c) = ix1 c := by funext a; match a with | ⟨0, _⟩ => rfl
  rw [val_main_v83_apply, e1, val_main_v82_apply, e2]
  rfl

/-- The scatter-add at a node and a column: the zero word plus the weighted rows of the landing entries. -/
theorem v81_eq (v : Fin 50000) (c : Fin 16) :
    val_main_v81 (F := Ideal) x0 x1 x2 x3 x4 x5 x6 (ix2 v c)
      = zero32 + ∑ j ∈ Finset.univ.filter (fun j : Fin 690000 => lands (dstC x1 j) v),
          mmR (mat (val_main_v67 (F := Ideal) x0 x1 x2 x3 x4 x5)) (mat x6) (row (srcC x1 j)) c * (disR x1 (row (srcC x1 j)) * disR x1 (row (dstC x1 j))) := by
  unfold val_main_v81
  refine (congrFun (scatterAdd_ideal scatter_S50000x16_S690000x1_S690000x16_1_0_0_1 (val_main_v79 (F := Ideal)) (val_main_v80 (F := Ideal) x1)
    (val_main_v78 (F := Ideal) x0 x1 x2 x3 x4 x5 x6)) (ix2 v c)).trans ?_
  exact conv_of_scatter x1 scatter_S50000x16_S690000x1_S690000x16_1_0_0_1 rfl rfl rfl rfl
    (val_main_v79 (F := Ideal)) (val_main_v80 (F := Ideal) x1) (val_main_v78 (F := Ideal) x0 x1 x2 x3 x4 x5 x6)
    (mmR (mat (val_main_v67 (F := Ideal) x0 x1 x2 x3 x4 x5)) (mat x6)) (fun v c => v79_eq v c) (fun j => v80_eq x1 j)
    (fun j c => v78_eq x0 x1 x2 x3 x4 x5 x6 j c) v c

/-- The layer before its positive part: Spec's convR over the matrix product. -/
theorem v84_eq (v : Fin 50000) (c : Fin 16) :
    val_main_v84 (F := Ideal) x0 x1 x2 x3 x4 x5 x6 x7 (ix2 v c) = convR x1 (mmR (mat (val_main_v67 (F := Ideal) x0 x1 x2 x3 x4 x5)) (mat x6)) (vec x7) v c := by
  rw [val_main_v84_apply, v81_eq, v83_eq, Ideal.addf_def]
  unfold convR
  rfl

end Cert.ReferenceIdeal.RefValue

end
-- ==== Proof.RefValue.lean ====
/-
  The reference's result is Spec's netR: the three layers chained. Each layer's lemma is stated over the previous layer's
  stage as an opaque matrix; here the stages are replaced, innermost last, by what they were shown to be.
-/
import proofs.«158845_j26817775797032_2_alg».proof.Proof.RefLayer1
import proofs.«158845_j26817775797032_2_alg».proof.Proof.RefLayer2
import proofs.«158845_j26817775797032_2_alg».proof.Proof.RefLayer3

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

variable (x0 : S50000x256.Idx → EReal) (x1 : S2x640000.Idx → BitVec 32) (x2 : S256x128.Idx → EReal) (x3 : S128.Idx → EReal) (x4 : S128x128.Idx → EReal) (x5 : S128.Idx → EReal) (x6 : S128x16.Idx → EReal) (x7 : S16.Idx → EReal)

/-- A rank-2 array read as a matrix. -/
theorem mat_apply {n c : Nat} (A : (⟨2, ![n, c]⟩ : Shape).Idx → EReal) (v : Fin n) (k : Fin c) :
    mat A v k = A (ix2 v k) := rfl

/-- The first layer's result, as a matrix. -/
theorem v49_mat :
    mat (val_main_v49 (F := Ideal) x0 x1 x2 x3) = relu (convR x1 (mmR (mat x0) (mat x2)) (vec x3)) :=
  funext fun v => funext fun c => (mat_apply _ v c).trans (v49_eq x0 x1 x2 x3 v c)

/-- The second layer's result, as a matrix over the first layer's. -/
theorem v67_mat :
    mat (val_main_v67 (F := Ideal) x0 x1 x2 x3 x4 x5)
      = relu (convR x1 (mmR (mat (val_main_v49 (F := Ideal) x0 x1 x2 x3)) (mat x4)) (vec x5)) :=
  funext fun v => funext fun c => (mat_apply _ v c).trans (v67_eq x0 x1 x2 x3 x4 x5 v c)

/-- The reference program's result, index by index, is the edge arrangement of the network. -/
theorem ref_eq (v : Fin 50000) (c : Fin 16) :
    val_main_v84 (F := Ideal) x0 x1 x2 x3 x4 x5 x6 x7 (ix2 v c)
      = netR x1 (mat x0) (mat x2) (vec x3) (mat x4) (vec x5) (mat x6) (vec x7) v c := by
  rw [v84_eq, v67_mat, v49_mat]
  unfold netR
  rfl

end Cert.ReferenceIdeal.RefValue

end
-- ==== Proof.AlgFacts.lean ====
/-
  Facts about the words and the node factors that both arrangements of the network share.

  A word that lands on a node is nonnegative, so shifting negatives leaves it alone and the clamp keeps it: the row
  read for it is that node. A self-loop entry's word is its node. The extended list's count is the edge count plus
  the self loop, so the guarded node factor is the plain one, and that factor is a nonnegative real: it distributes
  over sums of extended reals.
-/
import proofs.«158845_j26817775797032_2_alg».proof.Proof.Spec
import Idealize.ShloMosaic.PureOps.Ideal.Laws

noncomputable section

open scoped BigOperators

namespace Cert.Gcn

open Idealize.ShloMosaic Idealize.ShloMosaic.ValueIdx

/-- The zero word denotes 0. -/
theorem zero32_eq : zero32 = 0 := Ideal.ofBits_zero_f32

/-- The word of 1.0 denotes 1. -/
theorem one32_eq : one32 = 1 := by
  unfold one32
  simp [Ideal.ofBits, Ideal.ieee, -EReal.coe_mul]; norm_num

/-- A word that lands on v is not negative: shifting leaves it alone. -/
theorem nrm_of_lands {w : BitVec 32} {v : Fin 50000} (h : lands w v) : nrm w = w := by
  unfold lands at h
  have hv := v.isLt
  have hslt : w.slt 0#32 = false := by
    rw [BitVec.slt_eq_decide]
    simp only [BitVec.toInt_zero, decide_eq_false_iff_not, not_lt]
    omega
  unfold nrm IntOp.cmpi
  simp only [hslt]
  rfl

/-- The row read for a word that lands on v is v. -/
theorem row_of_lands {w : BitVec 32} {v : Fin 50000} (h : lands w v) : row w = v := by
  have hn := nrm_of_lands h
  unfold lands at h
  have hv := v.isLt
  apply Fin.ext
  show min (nrm w).toInt.toNat 49999 = v.val
  rw [hn, h]
  simp only [Int.toNat_natCast]
  omega

/-- A self-loop entry's word lands on its own node and on no other. -/
theorem lands_ofNat (u v : Fin 50000) : lands (BitVec.ofNat 32 u.val) v ↔ u = v := by
  have hu := u.isLt
  have hv := v.isLt
  unfold lands
  have h1 : (BitVec.ofNat 32 u.val).toNat = u.val := by
    rw [BitVec.toNat_ofNat]; exact Nat.mod_eq_of_lt (by omega)
  have h2 : (BitVec.ofNat 32 u.val).toInt = (u.val : Int) := by
    rw [BitVec.toInt_eq_toNat_cond, h1, if_pos (by omega)]
  rw [h2]
  constructor
  · intro h; exact Fin.ext (by omega)
  · intro h; rw [h]

/-- The row read for a self-loop entry's word is its node. -/
theorem row_ofNat (u : Fin 50000) : row (BitVec.ofNat 32 u.val) = u := row_of_lands ((lands_ofNat u u).mpr rfl)

/-- A sum over the extended list is the sum over the edges plus the sum over the self loops. -/
theorem sum_ext (f : Fin 690000 → EReal) :
    ∑ j : Fin 690000, f j
      = ∑ e : Fin 640000, f ⟨e.val, by omega⟩ + ∑ u : Fin 50000, f ⟨640000 + u.val, by omega⟩ := by
  have h : 640000 + 50000 = 690000 := by norm_num
  have e1 : ∑ j : Fin 690000, f j = ∑ j : Fin (640000 + 50000), f (finCongr h j) :=
    (Fintype.sum_equiv (finCongr h) (fun j => f (finCongr h j)) f (fun _ => rfl)).symm
  have e2 := Fin.sum_univ_add (fun j : Fin (640000 + 50000) => f (finCongr h j))
  refine e1.trans (e2.trans ?_)
  exact congrArg₂ (· + ·) (Finset.sum_congr rfl fun i _ => congrArg f (Fin.ext rfl))
    (Finset.sum_congr rfl fun i _ => congrArg f (Fin.ext rfl))

/-- An extended entry below 640000 is the edge's word. -/
theorem dstC_edge (ei : EI) (e : Fin 640000) : dstC ei ⟨e.val, by omega⟩ = dstW ei e := by
  unfold dstC; rw [dif_pos e.isLt]
theorem srcC_edge (ei : EI) (e : Fin 640000) : srcC ei ⟨e.val, by omega⟩ = srcW ei e := by
  unfold srcC; rw [dif_pos e.isLt]
/-- An extended entry from 640000 on is the self loop's node. -/
theorem dstC_loop (ei : EI) (u : Fin 50000) : dstC ei ⟨640000 + u.val, by omega⟩ = BitVec.ofNat 32 u.val := by
  unfold dstC; rw [dif_neg (by show ¬ (640000 + u.val < 640000); omega)]
  show BitVec.ofNat 32 (640000 + u.val - 640000) = _
  rw [Nat.add_sub_cancel_left]
theorem srcC_loop (ei : EI) (u : Fin 50000) : srcC ei ⟨640000 + u.val, by omega⟩ = BitVec.ofNat 32 u.val := by
  unfold srcC; rw [dif_neg (by show ¬ (640000 + u.val < 640000); omega)]
  show BitVec.ofNat 32 (640000 + u.val - 640000) = _
  rw [Nat.add_sub_cancel_left]

/-- A sum over the landing entries of the extended list: the landing edges, and the one self loop of the node. -/
theorem sum_lands_ext (ei : EI) (v : Fin 50000) (f : Fin 690000 → EReal) :
    ∑ j ∈ Finset.univ.filter (fun j : Fin 690000 => lands (dstC ei j) v), f j
      = ∑ e ∈ Finset.univ.filter (fun e : Fin 640000 => lands (dstW ei e) v), f ⟨e.val, by omega⟩
        + f ⟨640000 + v.val, by omega⟩ := by
  rw [Finset.sum_filter, sum_ext, Finset.sum_filter]
  refine congrArg₂ (· + ·) ?_ ?_
  · refine Finset.sum_congr rfl fun e _ => ?_
    rw [dstC_edge]
  · have : ∀ u : Fin 50000, (if lands (dstC ei ⟨640000 + u.val, by omega⟩) v then f ⟨640000 + u.val, by omega⟩ else 0)
        = if u = v then f ⟨640000 + u.val, by omega⟩ else 0 := by
      intro u
      rw [dstC_loop]
      by_cases h : u = v
      · rw [if_pos ((lands_ofNat u v).mpr h), if_pos h]
      · rw [if_neg (fun hl => h ((lands_ofNat u v).mp hl)), if_neg h]
    rw [Finset.sum_congr rfl fun u _ => this u, Finset.sum_ite_eq' Finset.univ v]
    simp

/-- The edge count is not negative. -/
theorem cnt_nonneg (ei : EI) (v : Fin 50000) : 0 ≤ cnt ei v := by
  unfold cnt
  refine Finset.sum_nonneg fun e _ => ?_
  rw [one32_eq]; exact zero_le_one

/-- The extended list's count is the edge count plus the self loop. -/
theorem cntR_eq (ei : EI) (v : Fin 50000) : cntR ei v = cnt ei v + one32 := by
  unfold cntR cnt
  exact sum_lands_ext ei v fun _ => one32

/-- The inverse square root of an extended real that is at least 1 is a nonnegative real. -/
theorem rsqrt_nonneg_of_one_le {x : EReal} (h : 1 ≤ x) : 0 ≤ Ideal.rsqrt x ∧ Ideal.rsqrt x ≠ ⊤ := by
  induction x using EReal.rec with
  | bot => exact absurd (le_bot_iff.mp h) (by rw [← EReal.coe_one]; exact EReal.coe_ne_bot 1)
  | top => rw [Ideal.rsqrt_top]; exact ⟨le_refl _, EReal.zero_ne_top⟩
  | coe r =>
    have hr : (1 : ℝ) ≤ r := by exact_mod_cast h
    rw [Ideal.rsqrt_coe, if_neg (by linarith), if_neg (by linarith)]
    refine ⟨?_, EReal.coe_ne_top _⟩
    exact_mod_cast inv_nonneg.mpr (Real.sqrt_nonneg r)

/-- The degree, as the factored arrangement spells it, is at least 1. -/
theorem one_le_deg (ei : EI) (v : Fin 50000) : 1 ≤ (zero32 + cnt ei v) + one32 := by
  rw [zero32_eq, zero_add, one32_eq]
  exact le_add_of_nonneg_left (cnt_nonneg ei v)

theorem dis_nonneg (ei : EI) (v : Fin 50000) : 0 ≤ dis ei v := (rsqrt_nonneg_of_one_le (one_le_deg ei v)).1
theorem dis_ne_top (ei : EI) (v : Fin 50000) : dis ei v ≠ ⊤ := (rsqrt_nonneg_of_one_le (one_le_deg ei v)).2

/-- The guarded node factor is the plain one: the degree is positive and at least 1. -/
theorem disR_eq (ei : EI) (v : Fin 50000) : disR ei v = dis ei v := by
  have h1 := one_le_deg ei v
  unfold disR dis
  rw [cntR_eq]
  have hd : zero32 + (cnt ei v + one32) = (zero32 + cnt ei v) + one32 := (add_assoc _ _ _).symm
  rw [hd]
  have hpos : zero32 < (zero32 + cnt ei v) + one32 := by
    rw [zero32_eq] at h1 ⊢
    exact lt_of_lt_of_le zero_lt_one (by simpa using h1)
  have hc : Ideal.cmp .ogt ((zero32 + cnt ei v) + one32) zero32 = 1#1 := by
    unfold Ideal.cmp
    simp only [hpos, decide_true]
    rfl
  rw [hc, ValueIdx.select_one, max_eq_left (by have h := h1; rw [one32_eq] at h ⊢; exact h)]

end Cert.Gcn

end
-- ==== Proof.Alg.lean ====
/-
  The two arrangements of the network are one function.

  Fix a node v with factor d = dis v, a nonnegative real. In the edge arrangement the entries landing on v are the
  landing edges e, each weighted  h(source row) * (dis(source row) * d)  since its destination row is v itself, and the
  one self loop of v, weighted  h v * (d * d). Multiplication on the extended reals is commutative and associative, and
  a nonnegative real factor distributes over any finite sum of extended reals, infinite terms included; so the edge
  terms sum to  d * (sum of h * dis at the source rows), which is the factored arrangement. No finiteness of the
  features is used.
-/
import proofs.«158845_j26817775797032_2_alg».proof.Proof.AlgFacts

noncomputable section

open scoped BigOperators

namespace Cert.Gcn

open Idealize.ShloMosaic Idealize.ShloMosaic.ValueIdx

/-- A nonnegative real factor distributes over a finite sum of extended reals. -/
theorem mul_sum_of_nonneg {ι : Type} (s : Finset ι) (d : EReal) (h0 : 0 ≤ d) (ht : d ≠ ⊤) (f : ι → EReal) :
    d * ∑ i ∈ s, f i = ∑ i ∈ s, d * f i := by
  classical
  induction s using Finset.induction_on with
  | empty => simp
  | insert a s ha ih =>
    rw [Finset.sum_insert ha, Finset.sum_insert ha, EReal.left_distrib_of_nonneg_of_ne_top h0 ht, ih]

/-- A product into the zero word is the bare product. -/
theorem mmR_eq {K C : Nat} (X : Mat 50000 K) (W : Mat K C) : mmR X W = mm X W := by
  funext v c
  unfold mmR mm
  rw [zero32_eq, zero_add]

/-- One layer: the edge arrangement is the factored one, for any features. -/
theorem convR_eq (ei : EI) {C : Nat} (H : Mat 50000 C) (b : Fin C → EReal) : convR ei H b = comb ei H b := by
  funext v c
  have hd0 := dis_nonneg ei v
  have hdt := dis_ne_top ei v
  unfold convR comb combA aggE scale
  rw [sum_lands_ext ei v]
  have hedge : ∀ e ∈ Finset.univ.filter (fun e : Fin 640000 => lands (dstW ei e) v),
      H (row (srcC ei ⟨e.val, by omega⟩)) c
          * (disR ei (row (srcC ei ⟨e.val, by omega⟩)) * disR ei (row (dstC ei ⟨e.val, by omega⟩)))
        = dis ei v * (H (row (srcW ei e)) c * dis ei (row (srcW ei e))) := by
    intro e he
    have hl := (Finset.mem_filter.mp he).2
    rw [srcC_edge, dstC_edge, disR_eq, disR_eq, row_of_lands hl]
    exact (mul_assoc _ _ _).symm.trans (mul_comm _ _)
  rw [Finset.sum_congr rfl hedge, ← mul_sum_of_nonneg _ _ hd0 hdt, srcC_loop, dstC_loop, row_ofNat, disR_eq,
    zero32_eq, zero_add, zero_add, mul_comm (H v c)]

/-- The network, edge by edge, is the network, factored. -/
theorem netR_eq_net (ei : EI) (X : Mat 50000 256) (W1 : Mat 256 128) (b1 : Fin 128 → EReal) (W2 : Mat 128 128)
    (b2 : Fin 128 → EReal) (W3 : Mat 128 16) (b3 : Fin 16 → EReal) :
    netR ei X W1 b1 W2 b2 W3 b3 = net ei X W1 b1 W2 b2 W3 b3 := by
  unfold netR net
  rw [mmR_eq, convR_eq, mmR_eq, convR_eq, mmR_eq, convR_eq]

end Cert.Gcn

end
-- ==== Proof.lean ====
/-
  A three-layer graph convolution, computed by four pipelined kernels among host gathers and scatter-adds, against
  its plain reference, on the extended reals.

  Both programs compute, per layer,  out[v] = sum over the edges e landing on v of  h[src e] * dis[src e] * dis[v],
  plus the self loop  h[v] * dis[v]^2,  plus a bias, where dis[v] is the inverse square root of v's degree (edges
  landing on v, plus one). The reference extends the edge list by one self loop per node and weights every entry
  by  dis[source] * dis[destination]. The kernel pulls the self loop out of the sum and the destination's factor out of
  the edge sum:  dis[v] * (sum of (h * dis)[src e]) + dis[v]^2 * h[v].  A word of the edge list that names no node is
  treated alike on both sides: as a destination it lands nowhere (a scatter drops it), as a source it is clamped to a
  row (a gather clamps), and the row's feature and factor are read together. The destination's factor is a nonnegative
  real, and such a factor distributes over any sum of extended reals: the two arrangements are one function of the
  arguments, with no appeal to the inputs being finite (Alg.lean).

  The kernel side: its run with the result buffer named (KRun.lean), and what that buffer holds, followed through the
  four host stretches and four regions (KNet.lean over Reg0–Reg3, HostPure.lean, Keep.lean). The reference side: its run
  (RefRunP.lean) read one operation at a time (RefReadP.lean) down to the edge arrangement (RefValue.lean). The ideal pass
  rewrote nothing, so the idealized kernel is the kernel's own text and that conjunct is trivial; the frames of the two
  kernel programs are the generated ones, the reference's is its run with the result forgotten.
-/
import proofs.«158845_j26817775797032_2_alg».proof.Defs
import proofs.«158845_j26817775797032_2_alg».proof.Proof.Gen.Kernel
import proofs.«158845_j26817775797032_2_alg».proof.Proof.Gen.Kernel.Frame
import proofs.«158845_j26817775797032_2_alg».proof.Proof.Gen.KernelIdeal
import proofs.«158845_j26817775797032_2_alg».proof.Proof.Gen.KernelIdeal.Frame
import proofs.«158845_j26817775797032_2_alg».proof.Proof.Gen.ReferenceIdeal
import proofs.«158845_j26817775797032_2_alg».proof.Proof.Gen.Pre_finite_inputs
import proofs.«158845_j26817775797032_2_alg».proof.Proof.KRun
import proofs.«158845_j26817775797032_2_alg».proof.Proof.KNet
import proofs.«158845_j26817775797032_2_alg».proof.Proof.RefValue
import proofs.«158845_j26817775797032_2_alg».proof.Proof.Alg
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Gcn

/-- The common result: the factored network of the kernel program's arguments, as an array. -/
def result (m : (ℓ : Loc Cert.KernelIdeal.nD Cert.KernelIdeal.τ Cert.KernelIdeal.sig) → Buf (Elt Ideal) ℓ) (c : Dev Cert.KernelIdeal.nD) :
    Cert.KernelIdeal.S50000x16.Idx → EReal :=
  fun i => net (Cert.KernelIdeal.KValue.aEi m c) (Cert.KernelIdeal.KValue.aX m c) (Cert.KernelIdeal.KValue.aW1 m c)
    (Cert.KernelIdeal.KValue.aB1 m c) (Cert.KernelIdeal.KValue.aW2 m c) (Cert.KernelIdeal.KValue.aB2 m c)
    (Cert.KernelIdeal.KValue.aW3 m c) (Cert.KernelIdeal.KValue.aB3 m c) (i 0) (i 1)

/-- The kernel's result buffer at the last boundary is that array. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W8 m ρ c (Proc.devRef .tc Cert.KernelIdeal.main_v48) : Cert.KernelIdeal.S50000x16.Idx → EReal) = result m c :=
  funext fun i => by
    have hi : i = ix2 (i 0) (i 1) := eq_ix2 (n0 := 50000) (n1 := 16) i
    exact (congrArg (fun j => (Cert.KernelIdeal.Gen.W8 m ρ c (Proc.devRef .tc Cert.KernelIdeal.main_v48) : Cert.KernelIdeal.S50000x16.Idx → EReal) j) hi).trans
      (Cert.KernelIdeal.KValue.W8_result m ρ c (i 0) (i 1))

/-- The reference's last stage, of arguments that are the kernel's, is the same array. -/
theorem reference_result (m : (ℓ : Loc Cert.KernelIdeal.nD Cert.KernelIdeal.τ Cert.KernelIdeal.sig) → Buf (Elt Ideal) ℓ) (c : Dev Cert.KernelIdeal.nD) :
    Cert.ReferenceIdeal.ReadP.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = result m c :=
  funext fun i => by
    have h := Cert.ReferenceIdeal.RefValue.ref_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (i 0) (i 1)
    rw [netR_eq_net] at h
    have hi : i = ix2 (i 0) (i 1) := eq_ix2 (n0 := 50000) (n1 := 16) i
    exact (congrArg _ hi).trans h

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs, from memories agreeing on the arguments, end with the network of those arguments. -/
theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (kernel_result m ρ c), (h c).2⟩)
      (Cert.KernelIdeal.KValue.run_W8 (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v84_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact reference_result m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
